-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x1600000 : Shape := ⟨2, ![2, 1600000]⟩
abbrev S8x32 : Shape := ⟨2, ![8, 32]⟩
abbrev S32 : Shape := ⟨1, ![32]⟩
abbrev S32x32 : Shape := ⟨2, ![32, 32]⟩
abbrev S32x3 : Shape := ⟨2, ![32, 3]⟩
abbrev S3 : Shape := ⟨1, ![3]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S8x32 : S_.BroadcastsInDim S8x32 (![] : Fin 0 → Fin S8x32.rank)
  reducesTo_S8x32_S_d0_1 : S8x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg8 : FVec F S32x32 .f32) (main_arg9 : FVec F S32 .f32) (main_arg10 : FVec F S32x3 .f32) (main_arg11 : FVec F S3 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x3 .f32 := Host.absf main_arg10
  let main_cst_16 : FVec F S_ .f32 := constant S_ .f32 0x7F800000#32
  let main_v45 : FVec F S32x3 .f32 := broadcastInDim S32x3 ![] bcast_S_S32x3 main_cst_16
  let main_v46 : IVec S32x3 1 := cmpf .olt main_v44 main_v45
  let main_c_17 : IVec S_ 1 := constantI S_ 1 1#1
  let main_v47 : IVec S_ 1 := (fun x v => Host.reduce IntOp.andi x v reducesTo_S32x3_S_d0_1 h_S_) main_v46 main_c_17
  let main_v48 : IVec S_ 1 := andi main_v43 main_v47
  let main_v49 : FVec F S3 .f32 := Host.absf main_arg11
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg5 : FVec F S32 .f32) (main_arg6 : FVec F S32x32 .f32) (main_arg7 : FVec F S32 .f32) (main_arg8 : FVec F S32x32 .f32) (main_arg9 : FVec F S32 .f32) (main_arg10 : FVec F S32x3 .f32) (main_arg11 : FVec F S3 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x8 .f32) (main_arg1 : IVec S2x1600000 32) (main_arg2 : FVec F S8x32 .f32) (main_arg3 : FVec F S32 .f32) (main_arg4 : FVec F S32x32 .f32) (main_arg5 : FVec F S32 .f32) (main_arg6 : FVec F S32x32 .f32) (main_arg7 : FVec F S32 .f32) (main_arg8 : FVec F S32x32 .f32) (main_arg9 : FVec F S32 .f32) (main_arg10 : FVec F S32x3 .f32) (main_arg11 : FVec F S3 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S8x32 .f32 := Host.absf main_arg2
  let main_cst_0 : FVec F S_ .f32 := constant S_ .f32 0x7F800000#32
  let main_v5 : FVec F S8x32 .f32 := broadcastInDim S8x32 ![] bcast_S_S8x32 main_cst_0
  let main_v6 : IVec S8x32 1 := cmpf .olt main_v4 main_v5
  let main_c_1 : IVec S_ 1 := constantI S_ 1 1#1
  let main_v7 : IVec S_ 1 := (fun x v => Host.reduce IntOp.andi x v reducesTo_S8x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_arg9 main_arg10 main_arg11 main_v13 main_v16
-- ==== Kernel.lean ====
abbrev S100000x8 : Shape := ⟨2, ![100000, 8]⟩
abbrev S2x1600000 : Shape := ⟨2, ![2, 1600000]⟩
abbrev S8x32 : Shape := ⟨2, ![8, 32]⟩
abbrev S32 : Shape := ⟨1, ![32]⟩
abbrev S32x32 : Shape := ⟨2, ![32, 32]⟩
abbrev S32x3 : Shape := ⟨2, ![32, 3]⟩
abbrev S3 : Shape := ⟨1, ![3]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S10000x8 : Shape := ⟨2, ![10000, 8]⟩
abbrev S10000x32 : Shape := ⟨2, ![10000, 32]⟩
abbrev S1700000x32 : Shape := ⟨2, ![1700000, 32]⟩
abbrev S1x32 : Shape := ⟨2, ![1, 32]⟩
abbrev S100000x3 : Shape := ⟨2, ![100000, 3]⟩
abbrev S10000x3 : Shape := ⟨2, ![10000, 3]⟩
abbrev S1700000x3 : Shape := ⟨2, ![1700000, 3]⟩
abbrev S1x3 : Shape := ⟨2, ![1, 3]⟩

abbrev nBuf : Space → Nat
  | .hbm => 152
  | .vmem => 25
  | .smem => 0
  | _ => 0

abbrev hbmTy0_0 (i : Nat) : BufTy := match i % 128 with
  | 0 => ⟨S100000x8, .f32⟩
  | 1 => ⟨S2x1600000, .i32⟩
  | 2 => ⟨S8x32, .f32⟩
  | 3 => ⟨S32, .f32⟩
  | 4 => ⟨S32x32, .f32⟩
  | 5 => ⟨S32, .f32⟩
  | 6 => ⟨S32x32, .f32⟩
  | 7 => ⟨S32, .f32⟩
  | 8 => ⟨S32x32, .f32⟩
  | 9 => ⟨S32, .f32⟩
  | 10 => ⟨S32x3, .f32⟩
  | 11 => ⟨S3, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S100000x32, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x32, .f32⟩
  | 62 => ⟨S1700000x1, .f32⟩
  | 63 => ⟨S1700000x32, .f32⟩
  | 64 => ⟨S1700000x32, .f32⟩
  | 65 => ⟨S_, .f32⟩
  | 66 => ⟨S100000x32, .f32⟩
  | 67 => ⟨S1700000x1, .i32⟩
  | 68 => ⟨S100000x32, .f32⟩
  | 69 => ⟨S1x32, .f32⟩
  | 70 => ⟨S100000x32, .f32⟩
  | 71 => ⟨S100000x32, .f32⟩
  | 72 => ⟨S100000x32, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x32, .f32⟩
  | 82 => ⟨S1700000x1, .f32⟩
  | 83 => ⟨S1700000x32, .f32⟩
  | 84 => ⟨S1700000x32, .f32⟩
  | 85 => ⟨S_, .f32⟩
  | 86 => ⟨S100000x32, .f32⟩
  | 87 => ⟨S1700000x1, .i32⟩
  | 88 => ⟨S100000x32, .f32⟩
  | 89 => ⟨S1x32, .f32⟩
  | 90 => ⟨S100000x32, .f32⟩
  | 91 => ⟨S100000x32, .f32⟩
  | 92 => ⟨S100000x32, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000x32, .f32⟩
  | 102 => ⟨S1700000x1, .f32⟩
  | 103 => ⟨S1700000x32, .f32⟩
  | 104 => ⟨S1700000x32, .f32⟩
  | 105 => ⟨S_, .f32⟩
  | 106 => ⟨S100000x32, .f32⟩
  | 107 => ⟨S1700000x1, .i32⟩
  | 108 => ⟨S100000x32, .f32⟩
  | 109 => ⟨S1x32, .f32⟩
  | 110 => ⟨S100000x32, .f32⟩
  | 111 => ⟨S100000x32, .f32⟩
  | 112 => ⟨S100000x32, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x32, .f32⟩
  | 122 => ⟨S1700000x1, .f32⟩
  | 123 => ⟨S1700000x32, .f32⟩
  | 124 => ⟨S1700000x32, .f32⟩
  | 125 => ⟨S_, .f32⟩
  | 126 => ⟨S100000x32, .f32⟩
  | 127 => ⟨S1700000x1, .i32⟩
  | _ => ⟨S100000x8, .f32⟩

abbrev hbmTy0_1 (i : Nat) : BufTy := match i % 128 with
  | 0 => ⟨S100000x32, .f32⟩
  | 1 => ⟨S1x32, .f32⟩
  | 2 => ⟨S100000x32, .f32⟩
  | 3 => ⟨S100000x32, .f32⟩
  | 4 => ⟨S100000x3, .f32⟩
  | 5 => ⟨S_, .i32⟩
  | 6 => ⟨S1700000, .i32⟩
  | 7 => ⟨S1700000, .i1⟩
  | 8 => ⟨S_, .i32⟩
  | 9 => ⟨S1700000, .i32⟩
  | 10 => ⟨S1700000, .i32⟩
  | 11 => ⟨S1700000, .i32⟩
  | 12 => ⟨S1700000x1, .i32⟩
  | 13 => ⟨S1700000x3, .f32⟩
  | 14 => ⟨S1700000x1, .f32⟩
  | 15 => ⟨S1700000x3, .f32⟩
  | 16 => ⟨S1700000x3, .f32⟩
  | 17 => ⟨S_, .f32⟩
  | 18 => ⟨S100000x3, .f32⟩
  | 19 => ⟨S1700000x1, .i32⟩
  | 20 => ⟨S100000x3, .f32⟩
  | 21 => ⟨S1x3, .f32⟩
  | 22 => ⟨S100000x3, .f32⟩
  | 23 => ⟨S100000x3, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | .local _ .vmem, ⟨0, _⟩ => ⟨S10000x8, .f32⟩
  | .local _ .vmem, ⟨1, _⟩ => ⟨S10000x8, .f32⟩
  | .local _ .vmem, ⟨2, _⟩ => ⟨S8x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S32x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S32x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S32x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S32x3, .f32⟩
  | .local _ .vmem, ⟨23, _⟩ => ⟨S10000x3, .f32⟩
  | .local _ .vmem, ⟨24, _⟩ => ⟨S10000x3, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_12 : Ref sig .tc := ⟨.hbm, 93, rfl⟩
abbrev main_v65 : Ref sig .tc := ⟨.hbm, 94, rfl⟩
abbrev main_v66 : Ref sig .tc := ⟨.hbm, 95, rfl⟩
abbrev main_c_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_15 : Ref sig .tc := ⟨.hbm, 113, rfl⟩
abbrev main_v82 : Ref sig .tc := ⟨.hbm, 114, rfl⟩
abbrev main_v83 : Ref sig .tc := ⟨.hbm, 115, rfl⟩
abbrev main_c_16 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_17 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_c_18 : Ref sig .tc := ⟨.hbm, 133, rfl⟩
abbrev main_v99 : Ref sig .tc := ⟨.hbm, 134, rfl⟩
abbrev main_v100 : Ref sig .tc := ⟨.hbm, 135, rfl⟩
abbrev main_c_19 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_20 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x3 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x3 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x8_S10000x8_0_0 : ∀ a, (![0, 0] : Fin 2 → Nat) a + S10000x8.size a ≤ S10000x8.size a
  h_S10000x8 : 0 < S10000x8.numel
  bitsLt_bf16_f32 : FTy.bits .bf16 < FTy.bits .f32
  inb_S8x32_S8x32_0_0 : ∀ a, (![0, 0] : Fin 2 → Nat) a + S8x32.size a ≤ S8x32.size a
  h_S8x32 : 0 < S8x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  inb_S32x3_S32x3_0_0 : ∀ a, (![0, 0] : Fin 2 → Nat) a + S32x3.size a ≤ S32x3.size a
  h_S32x3 : 0 < S32x3.numel
  inb_S10000x3_S10000x3_0_0 : ∀ a, (![0, 0] : Fin 2 → Nat) a + S10000x3.size a ≤ S10000x3.size a
  h_S10000x3 : 0 < S10000x3.numel
  bcast_S1700000x1_S1700000x3_0_1 : S1700000x1.BroadcastsInDim S1700000x3 (![0, 1] : Fin 2 → Fin S1700000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x8_S8x32_S10000x32_1_0_0_1_n_n_wf : DotDims.WF S10000x8 S8x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x32_S10000x32_1_0_0_1_n_n_wf : DotDims.WF S10000x32 S32x32 S10000x32 [1] [0] [0] [1] [] []
  dot_S10000x32_S32x3_S10000x3_1_0_0_1_n_n_wf : DotDims.WF S10000x32 S32x3 S10000x3 [1] [0] [0] [1] [] []
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x8.size a ≤ S100000x8.size a
  hwx0_0 : ∀ i : grid0.Coords, EltTy.bits .f32 = 32 ∨ (Rect.block (s := S100000x8) S10000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x32.size a ≤ S8x32.size a
  hwx0_1 : ∀ i : grid0.Coords, EltTy.bits .f32 = 32 ∨ (Rect.block (s := S8x32) S8x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x32.size a ≤ S32x32.size a
  hwx3_1 : ∀ i : grid3.Coords, EltTy.bits .f32 = 32 ∨ (Rect.block (s := S32x32) S32x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x3.size a ≤ S32x3.size a
  hwx4_1 : ∀ i : grid4.Coords, EltTy.bits .f32 = 32 ∨ (Rect.block (s := S32x3) S32x3.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x3.size a ≤ S100000x3.size a
  hwx4_2 : ∀ i : grid4.Coords, EltTy.bits .f32 = 32 ∨ (Rect.block (s := S100000x3) S10000x3.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x8_S8x32_S10000x32_1_0_0_1_n_n : DotDims S10000x8 S8x32 S10000x32 where
  lhsContracting := [1]
  rhsContracting := [0]
  lhsNonContracting := [0]
  rhsNonContracting := [1]
  lhsBatch := []
  rhsBatch := []
  wf := dot_S10000x8_S8x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x3_S10000x3_1_0_0_1_n_n : DotDims S10000x32 S32x3 S10000x3 where
  lhsContracting := [1]
  rhsContracting := [0]
  lhsNonContracting := [0]
  rhsNonContracting := [1]
  lhsBatch := []
  rhsBatch := []
  wf := dot_S10000x32_S32x3_S10000x3_1_0_0_1_n_n_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf

abbrev win0_0 : Pipeline.Window sig grid0 :=
  Pipeline.Window.ofSpec (Memref.whole main_arg0) S10000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v80) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S32x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v81) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v97) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S32x3.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v98) S10000x3.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x8 : Shape := ⟨2, ![100000, 8]⟩
abbrev S2x1600000 : Shape := ⟨2, ![2, 1600000]⟩
abbrev S8x32 : Shape := ⟨2, ![8, 32]⟩
abbrev S32 : Shape := ⟨1, ![32]⟩
abbrev S32x32 : Shape := ⟨2, ![32, 32]⟩
abbrev S32x3 : Shape := ⟨2, ![32, 3]⟩
abbrev S3 : Shape := ⟨1, ![3]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S1700000x32 : Shape := ⟨2, ![1700000, 32]⟩
abbrev S1x32 : Shape := ⟨2, ![1, 32]⟩
abbrev S100000x3 : Shape := ⟨2, ![100000, 3]⟩
abbrev S1700000x3 : Shape := ⟨2, ![1700000, 3]⟩
abbrev S1x3 : Shape := ⟨2, ![1, 3]⟩

abbrev nBuf : Space → Nat
  | .hbm => 192
  | .vmem => 0
  | .smem => 0
  | _ => 0

abbrev hbmTy0_0 (i : Nat) : BufTy := match i % 128 with
  | 0 => ⟨S100000x8, .f32⟩
  | 1 => ⟨S2x1600000, .i32⟩
  | 2 => ⟨S8x32, .f32⟩
  | 3 => ⟨S32, .f32⟩
  | 4 => ⟨S32x32, .f32⟩
  | 5 => ⟨S32, .f32⟩
  | 6 => ⟨S32x32, .f32⟩
  | 7 => ⟨S32, .f32⟩
  | 8 => ⟨S32x32, .f32⟩
  | 9 => ⟨S32, .f32⟩
  | 10 => ⟨S32x3, .f32⟩
  | 11 => ⟨S3, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S100000x32, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x32, .f32⟩
  | 62 => ⟨S1700000x1, .f32⟩
  | 63 => ⟨S1700000x32, .f32⟩
  | 64 => ⟨S1700000x32, .f32⟩
  | 65 => ⟨S_, .f32⟩
  | 66 => ⟨S100000x32, .f32⟩
  | 67 => ⟨S1700000x1, .i32⟩
  | 68 => ⟨S100000x32, .f32⟩
  | 69 => ⟨S1x32, .f32⟩
  | 70 => ⟨S100000x32, .f32⟩
  | 71 => ⟨S100000x32, .f32⟩
  | 72 => ⟨S_, .f32⟩
  | 73 => ⟨S_, .f32⟩
  | 74 => ⟨S100000x32, .f32⟩
  | 75 => ⟨S100000x32, .i1⟩
  | 76 => ⟨S_, .f32⟩
  | 77 => ⟨S100000x32, .f32⟩
  | 78 => ⟨S100000x32, .f32⟩
  | 79 => ⟨S100000x32, .f32⟩
  | 80 => ⟨S100000x32, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000x32, .f32⟩
  | 90 => ⟨S1700000x1, .f32⟩
  | 91 => ⟨S1700000x32, .f32⟩
  | 92 => ⟨S1700000x32, .f32⟩
  | 93 => ⟨S_, .f32⟩
  | 94 => ⟨S100000x32, .f32⟩
  | 95 => ⟨S1700000x1, .i32⟩
  | 96 => ⟨S100000x32, .f32⟩
  | 97 => ⟨S1x32, .f32⟩
  | 98 => ⟨S100000x32, .f32⟩
  | 99 => ⟨S100000x32, .f32⟩
  | 100 => ⟨S_, .f32⟩
  | 101 => ⟨S_, .f32⟩
  | 102 => ⟨S100000x32, .f32⟩
  | 103 => ⟨S100000x32, .i1⟩
  | 104 => ⟨S_, .f32⟩
  | 105 => ⟨S100000x32, .f32⟩
  | 106 => ⟨S100000x32, .f32⟩
  | 107 => ⟨S100000x32, .f32⟩
  | 108 => ⟨S100000x32, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x32, .f32⟩
  | 118 => ⟨S1700000x1, .f32⟩
  | 119 => ⟨S1700000x32, .f32⟩
  | 120 => ⟨S1700000x32, .f32⟩
  | 121 => ⟨S_, .f32⟩
  | 122 => ⟨S100000x32, .f32⟩
  | 123 => ⟨S1700000x1, .i32⟩
  | 124 => ⟨S100000x32, .f32⟩
  | 125 => ⟨S1x32, .f32⟩
  | 126 => ⟨S100000x32, .f32⟩
  | 127 => ⟨S100000x32, .f32⟩
  | _ => ⟨S100000x8, .f32⟩

abbrev hbmTy0_1 (i : Nat) : BufTy := match i % 128 with
  | 0 => ⟨S_, .f32⟩
  | 1 => ⟨S_, .f32⟩
  | 2 => ⟨S100000x32, .f32⟩
  | 3 => ⟨S100000x32, .i1⟩
  | 4 => ⟨S_, .f32⟩
  | 5 => ⟨S100000x32, .f32⟩
  | 6 => ⟨S100000x32, .f32⟩
  | 7 => ⟨S100000x32, .f32⟩
  | 8 => ⟨S100000x32, .f32⟩
  | 9 => ⟨S_, .i32⟩
  | 10 => ⟨S1700000, .i32⟩
  | 11 => ⟨S1700000, .i1⟩
  | 12 => ⟨S_, .i32⟩
  | 13 => ⟨S1700000, .i32⟩
  | 14 => ⟨S1700000, .i32⟩
  | 15 => ⟨S1700000, .i32⟩
  | 16 => ⟨S1700000x1, .i32⟩
  | 17 => ⟨S1700000x32, .f32⟩
  | 18 => ⟨S1700000x1, .f32⟩
  | 19 => ⟨S1700000x32, .f32⟩
  | 20 => ⟨S1700000x32, .f32⟩
  | 21 => ⟨S_, .f32⟩
  | 22 => ⟨S100000x32, .f32⟩
  | 23 => ⟨S1700000x1, .i32⟩
  | 24 => ⟨S100000x32, .f32⟩
  | 25 => ⟨S1x32, .f32⟩
  | 26 => ⟨S100000x32, .f32⟩
  | 27 => ⟨S100000x32, .f32⟩
  | 28 => ⟨S_, .f32⟩
  | 29 => ⟨S_, .f32⟩
  | 30 => ⟨S100000x32, .f32⟩
  | 31 => ⟨S100000x32, .i1⟩
  | 32 => ⟨S_, .f32⟩
  | 33 => ⟨S100000x32, .f32⟩
  | 34 => ⟨S100000x32, .f32⟩
  | 35 => ⟨S100000x32, .f32⟩
  | 36 => ⟨S100000x3, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000x3, .f32⟩
  | 46 => ⟨S1700000x1, .f32⟩
  | 47 => ⟨S1700000x3, .f32⟩
  | 48 => ⟨S1700000x3, .f32⟩
  | 49 => ⟨S_, .f32⟩
  | 50 => ⟨S100000x3, .f32⟩
  | 51 => ⟨S1700000x1, .i32⟩
  | 52 => ⟨S100000x3, .f32⟩
  | 53 => ⟨S1x3, .f32⟩
  | 54 => ⟨S100000x3, .f32⟩
  | 55 => ⟨S100000x3, .f32⟩
  | 56 => ⟨S_, .f32⟩
  | 57 => ⟨S_, .f32⟩
  | 58 => ⟨S100000x3, .f32⟩
  | 59 => ⟨S100000x3, .i1⟩
  | 60 => ⟨S_, .f32⟩
  | 61 => ⟨S100000x3, .f32⟩
  | 62 => ⟨S100000x3, .f32⟩
  | 63 => ⟨S100000x3, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_v47 : Ref sig .tc := ⟨.hbm, 79, rfl⟩
abbrev main_v48 : Ref sig .tc := ⟨.hbm, 80, rfl⟩
abbrev main_c_10 : Ref sig .tc := ⟨.hbm, 81, rfl⟩
abbrev main_v49 : Ref sig .tc := ⟨.hbm, 82, rfl⟩
abbrev main_v50 : Ref sig .tc := ⟨.hbm, 83, rfl⟩
abbrev main_c_11 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_12 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_13 : Ref sig .tc := ⟨.hbm, 100, rfl⟩
abbrev main_call2_cst : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_v65 : Ref sig .tc := ⟨.hbm, 107, rfl⟩
abbrev main_v66 : Ref sig .tc := ⟨.hbm, 108, rfl⟩
abbrev main_c_14 : Ref sig .tc := ⟨.hbm, 109, rfl⟩
abbrev main_v67 : Ref sig .tc := ⟨.hbm, 110, rfl⟩
abbrev main_v68 : Ref sig .tc := ⟨.hbm, 111, rfl⟩
abbrev main_c_15 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_16 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_17 : Ref sig .tc := ⟨.hbm, 128, rfl⟩
abbrev main_call3_cst : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_v83 : Ref sig .tc := ⟨.hbm, 135, rfl⟩
abbrev main_v84 : Ref sig .tc := ⟨.hbm, 136, rfl⟩
abbrev main_c_18 : Ref sig .tc := ⟨.hbm, 137, rfl⟩
abbrev main_v85 : Ref sig .tc := ⟨.hbm, 138, rfl⟩
abbrev main_v86 : Ref sig .tc := ⟨.hbm, 139, rfl⟩
abbrev main_c_19 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_cst_20 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_cst_21 : Ref sig .tc := ⟨.hbm, 156, rfl⟩
abbrev main_call4_cst : Ref sig .tc := ⟨.hbm, 157, rfl⟩
abbrev main_call4_v0 : Ref sig .tc := ⟨.hbm, 158, rfl⟩
abbrev main_call4_v1 : Ref sig .tc := ⟨.hbm, 159, rfl⟩
abbrev main_call4_v2 : Ref sig .tc := ⟨.hbm, 160, rfl⟩
abbrev main_call4_v3 : Ref sig .tc := ⟨.hbm, 161, rfl⟩
abbrev main_call4_v4 : Ref sig .tc := ⟨.hbm, 162, rfl⟩
abbrev main_v101 : Ref sig .tc := ⟨.hbm, 163, rfl⟩
abbrev main_v102 : Ref sig .tc := ⟨.hbm, 164, rfl⟩
abbrev main_c_22 : Ref sig .tc := ⟨.hbm, 165, rfl⟩
abbrev main_v103 : Ref sig .tc := ⟨.hbm, 166, rfl⟩
abbrev main_v104 : Ref sig .tc := ⟨.hbm, 167, rfl⟩
abbrev main_c_23 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_cst_24 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_cst_25 : Ref sig .tc := ⟨.hbm, 184, rfl⟩
abbrev main_call5_cst : Ref sig .tc := ⟨.hbm, 185, rfl⟩
abbrev main_call5_v0 : Ref sig .tc := ⟨.hbm, 186, rfl⟩
abbrev main_call5_v1 : Ref sig .tc := ⟨.hbm, 187, rfl⟩
abbrev main_call5_v2 : Ref sig .tc := ⟨.hbm, 188, rfl⟩
abbrev main_call5_v3 : Ref sig .tc := ⟨.hbm, 189, rfl⟩
abbrev main_call5_v4 : Ref sig .tc := ⟨.hbm, 190, rfl⟩
abbrev main_v119 : Ref sig .tc := ⟨.hbm, 191, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x3_0_1 : S1700000x1.BroadcastsInDim S1700000x3 (![0, 1] : Fin 2 → Fin S1700000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x8_S8x32_S100000x32_1_0_0_1_n_n_wf : DotDims.WF S100000x8 S8x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x32_S100000x32_1_0_0_1_n_n_wf : DotDims.WF S100000x32 S32x32 S100000x32 [1] [0] [0] [1] [] []
  dot_S100000x32_S32x3_S100000x3_1_0_0_1_n_n_wf : DotDims.WF S100000x32 S32x3 S100000x3 [1] [0] [0] [1] [] []
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x8_S8x32_S100000x32_1_0_0_1_n_n : DotDims S100000x8 S8x32 S100000x32 where
  lhsContracting := [1]
  rhsContracting := [0]
  lhsNonContracting := [0]
  rhsNonContracting := [1]
  lhsBatch := []
  rhsBatch := []
  wf := dot_S100000x8_S8x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x3_S100000x3_1_0_0_1_n_n : DotDims S100000x32 S32x3 S100000x3 where
  lhsContracting := [1]
  rhsContracting := [0]
  lhsNonContracting := [0]
  rhsNonContracting := [1]
  lhsBatch := []
  rhsBatch := []
  wf := dot_S100000x32_S32x3_S100000x3_1_0_0_1_n_n_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf

class Facts : Prop extends Facts₀ where

variable [Facts]
-- ==== Proof.KernelNamed.lean ====
/-
  The idealized kernel program's run, with its result named.

  The program is five row-blocked dense products among stretches of host operations. Run segment by segment, every
  buffer ends at the contents the last boundary gives it: the fold `Gen.W13` of the launch memory through the eight
  host stretches and, at each of the five regions, its arrays at what the region's ten write-backs leave. So the
  result buffer ends at `Gen.W13 … main_v114`, and the argument arrays, which no stretch and no region writes, end
  as launched.
-/
import proofs.«130898_j20847771254912_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; at the end the result buffer holds the
    last boundary's contents at it and every argument array is as launched. -/
theorem run_named : θ_run defs (onTc (τ := τ) (main (F := F))) ⟨m, fun _ => 0, ρ⟩ (fun r => ∀ c : Dev nD,
      r.2.mem ((c.tc : Thread nD τ).loc main_v114) = W13 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v114 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c)⟩)

end Cert.KernelIdeal.Named

end
-- ==== Proof.RefOps.lean ====
/- The reference program's host operations as lists, one per stretch of its straight line: the part every layer
   shares (in three stretches), then for each of the five layers its dense product and what follows it up to the next product. The
   outlined select and leaky-rectifier functions are written out where they are called, over that call's own buffers. -/
import proofs.«130898_j20847771254912_2_alg».proof.ReferenceIdeal
import proofs.«130898_j20847771254912_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem

variable {F : FTy → Type} [FloatOps F]

/-- Edge endpoints with one self-loop per node appended, the in-degree count, whether it is positive, and its inverse square root. (18 operations) -/
abbrev cPreA : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32) ]

/-- The inverse square root of the degree where the degree is positive, zero elsewhere (the outlined select). (3 operations) -/
abbrev cPreB : List (HloOp τ sig (Elt F)) :=
  [ StableHlo.unary main_cst_2 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v12 main_v13 main_call0_v1 main_v14 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]

/-- Each edge's weight: the product of that quantity at its two endpoints. (19 operations) -/
abbrev cPreC : List (HloOp τ sig (Elt F)) :=
  [ StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v3 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v17 (broadcastInDim S1700000 ![] bcast_S_S1700000 : (⟨S_, .i32⟩ : BufTy).Contents (Elt F) → (⟨S1700000, .i32⟩ : BufTy).Contents (Elt F)),
    StableHlo.binary main_v3 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v22 (broadcastInDim S1700000 ![] bcast_S_S1700000 : (⟨S_, .i32⟩ : BufTy).Contents (Elt F) → (⟨S1700000, .i32⟩ : BufTy).Contents (Elt F)),
    StableHlo.binary main_v6 main_v22 main_v23 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (addi : (⟨S1700000, .i32⟩ : BufTy).Contents (Elt F) → (⟨S1700000, .i32⟩ : BufTy).Contents (Elt F) → (⟨S1700000, .i32⟩ : BufTy).Contents (Elt F)),
    StableHlo.ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v26 main_v27 (broadcastInDim S1700000x1 ![0] bcast_S1700000_S1700000x1_0 : (⟨S1700000, .i32⟩ : BufTy).Contents (Elt F) → (⟨S1700000x1, .i32⟩ : BufTy).Contents (Elt F)),
    StableHlo.binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v28 main_v29 (mulf : (⟨S1700000, .f32⟩ : BufTy).Contents (Elt F) → (⟨S1700000, .f32⟩ : BufTy).Contents (Elt F) → (⟨S1700000, .f32⟩ : BufTy).Contents (Elt F)) ]

/-- Layer 1's dense product of the node features with its weight matrix. (1 operations) -/
abbrev cDot1 : List (HloOp τ sig (Elt F)) :=
  [ StableHlo.binary main_arg0 main_arg2 main_v30 ((fun l r => Host.dotGeneral dot_S100000x8_S8x32_S100000x32_1_0_0_1_n_n none l r) : (⟨S100000x8, .f32⟩ : BufTy).Contents (Elt F) → (⟨S8x32, .f32⟩ : BufTy).Contents (Elt F) → (⟨S100000x32, .f32⟩ : BufTy).Contents (Elt F)) ]

/-- Layer 1 after its product: each edge takes its source row scaled by the edge weight, rows are summed into their target node, the bias row is added, and the slope-one leaky rectifier is applied. (27 operations) -/
abbrev cTail1 : List (HloOp τ sig (Elt F)) :=
  [ StableHlo.nullary main_c_6 (constantI S_ 32 0#32),
    StableHlo.unary main_c_6 main_v31 (broadcastInDim S1700000 ![] bcast_S_S1700000 : (⟨S_, .i32⟩ : BufTy).Contents (Elt F) → (⟨S1700000, .i32⟩ : BufTy).Contents (Elt F)),
    StableHlo.binary main_v3 main_v31 main_v32 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v3 main_v33 main_v34 (addi : (⟨S1700000, .i32⟩ : BufTy).Contents (Elt F) → (⟨S1700000, .i32⟩ : BufTy).Contents (Elt F) → (⟨S1700000, .i32⟩ : BufTy).Contents (Elt F)),
    StableHlo.ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v35 main_v36 (broadcastInDim S1700000x1 ![0] bcast_S1700000_S1700000x1_0 : (⟨S1700000, .i32⟩ : BufTy).Contents (Elt F) → (⟨S1700000x1, .i32⟩ : BufTy).Contents (Elt F)),
    StableHlo.binary main_v30 main_v36 main_v37 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    StableHlo.unary main_v29 main_v38 (broadcastInDim S1700000x1 ![0] bcast_S1700000_S1700000x1_0 : (⟨S1700000, .f32⟩ : BufTy).Contents (Elt F) → (⟨S1700000x1, .f32⟩ : BufTy).Contents (Elt F)),
    StableHlo.unary main_v38 main_v39 (broadcastInDim S1700000x32 ![0, 1] bcast_S1700000x1_S1700000x32_0_1 : (⟨S1700000x1, .f32⟩ : BufTy).Contents (Elt F) → (⟨S1700000x32, .f32⟩ : BufTy).Contents (Elt F)),
    StableHlo.binary main_v37 main_v39 main_v40 (mulf : (⟨S1700000x32, .f32⟩ : BufTy).Contents (Elt F) → (⟨S1700000x32, .f32⟩ : BufTy).Contents (Elt F) → (⟨S1700000x32, .f32⟩ : BufTy).Contents (Elt F)),
    StableHlo.nullary main_cst_8 (constant S_ .f32 0x00000000#32),
    StableHlo.unary main_cst_8 main_v41 (broadcastInDim S100000x32 ![] bcast_S_S100000x32 : (⟨S_, .f32⟩ : BufTy).Contents (Elt F) → (⟨S100000x32, .f32⟩ : BufTy).Contents (Elt F)),
    StableHlo.unary main_v6 main_v42 (broadcastInDim S1700000x1 ![0] bcast_S1700000_S1700000x1_0 : (⟨S1700000, .i32⟩ : BufTy).Contents (Elt F) → (⟨S1700000x1, .i32⟩ : BufTy).Contents (Elt F)),
    StableHlo.ternary main_v41 main_v42 main_v40 main_v43 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    StableHlo.unary main_arg3 main_v44 (broadcastInDim S1x32 ![1] bcast_S32_S1x32_1 : (⟨S32, .f32⟩ : BufTy).Contents (Elt F) → (⟨S1x32, .f32⟩ : BufTy).Contents (Elt F)),
    StableHlo.unary main_v44 main_v45 (broadcastInDim S100000x32 ![0, 1] bcast_S1x32_S100000x32_0_1 : (⟨S1x32, .f32⟩ : BufTy).Contents (Elt F) → (⟨S100000x32, .f32⟩ : BufTy).Contents (Elt F)),
    StableHlo.binary main_v43 main_v45 main_v46 (addf : (⟨S100000x32, .f32⟩ : BufTy).Contents (Elt F) → (⟨S100000x32, .f32⟩ : BufTy).Contents (Elt F) → (⟨S100000x32, .f32⟩ : BufTy).Contents (Elt F)),
    StableHlo.nullary main_cst_9 (constant S_ .f32 0x3F800000#32),
    StableHlo.nullary main_call1_cst (constant S_ .f32 0x00000000#32),
    StableHlo.unary main_call1_cst main_call1_v0 (broadcastInDim S100000x32 ![] bcast_S_S100000x32 : (⟨S_, .f32⟩ : BufTy).Contents (Elt F) → (⟨S100000x32, .f32⟩ : BufTy).Contents (Elt F)),
    StableHlo.binary main_v46 main_call1_v0 main_call1_v1 (cmpf .oge : (⟨S100000x32, .f32⟩ : BufTy).Contents (Elt F) → (⟨S100000x32, .f32⟩ : BufTy).Contents (Elt F) → (⟨S100000x32, .i1⟩ : BufTy).Contents (Elt F)),
    StableHlo.unary main_cst_9 main_call1_v2 (id : (⟨S_, .f32⟩ : BufTy).Contents (Elt F) → (⟨S_, .f32⟩ : BufTy).Contents (Elt F)),
    StableHlo.unary main_call1_v2 main_call1_v3 (broadcastInDim S100000x32 ![] bcast_S_S100000x32 : (⟨S_, .f32⟩ : BufTy).Contents (Elt F) → (⟨S100000x32, .f32⟩ : BufTy).Contents (Elt F)),
    StableHlo.binary main_call1_v3 main_v46 main_call1_v4 (mulf : (⟨S100000x32, .f32⟩ : BufTy).Contents (Elt F) → (⟨S100000x32, .f32⟩ : BufTy).Contents (Elt F) → (⟨S100000x32, .f32⟩ : BufTy).Contents (Elt F)),
    StableHlo.ternary main_call1_v1 main_v46 main_call1_v4 main_v47 (select : (⟨S100000x32, .i1⟩ : BufTy).Contents (Elt F) → (⟨S100000x32, .f32⟩ : BufTy).Contents (Elt F) → (⟨S100000x32, .f32⟩ : BufTy).Contents (Elt F) → (⟨S100000x32, .f32⟩ : BufTy).Contents (Elt F)) ]

/-- Layer 2's dense product of the node features with its weight matrix. (1 operations) -/
abbrev cDot2 : List (HloOp τ sig (Elt F)) :=
  [ StableHlo.binary main_v47 main_arg4 main_v48 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)) ]

/-- Layer 2 after its product: each edge takes its source row scaled by the edge weight, rows are summed into their target node, the bias row is added, and the slope-one leaky rectifier is applied. (27 operations) -/
abbrev cTail2 : List (HloOp τ sig (Elt F)) :=
  [ StableHlo.nullary main_c_10 (constantI S_ 32 0#32),
    StableHlo.unary main_c_10 main_v49 (broadcastInDim S1700000 ![] bcast_S_S1700000 : (⟨S_, .i32⟩ : BufTy).Contents (Elt F) → (⟨S1700000, .i32⟩ : BufTy).Contents (Elt F)),
    StableHlo.binary main_v3 main_v49 main_v50 (cmpi .slt : (⟨S1700000, .i32⟩ : BufTy).Contents (Elt F) → (⟨S1700000, .i32⟩ : BufTy).Contents (Elt F) → (⟨S1700000, .i1⟩ : BufTy).Contents (Elt F)),
    StableHlo.nullary main_c_11 (constantI S_ 32 100000#32),
    StableHlo.unary main_c_11 main_v51 (broadcastInDim S1700000 ![] bcast_S_S1700000 : (⟨S_, .i32⟩ : BufTy).Contents (Elt F) → (⟨S1700000, .i32⟩ : BufTy).Contents (Elt F)),
    StableHlo.binary main_v3 main_v51 main_v52 (addi : (⟨S1700000, .i32⟩ : BufTy).Contents (Elt F) → (⟨S1700000, .i32⟩ : BufTy).Contents (Elt F) → (⟨S1700000, .i32⟩ : BufTy).Contents (Elt F)),
    StableHlo.ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v53 main_v54 (broadcastInDim S1700000x1 ![0] bcast_S1700000_S1700000x1_0 : (⟨S1700000, .i32⟩ : BufTy).Contents (Elt F) → (⟨S1700000x1, .i32⟩ : BufTy).Contents (Elt F)),
    StableHlo.binary main_v48 main_v54 main_v55 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    StableHlo.unary main_v29 main_v56 (broadcastInDim S1700000x1 ![0] bcast_S1700000_S1700000x1_0 : (⟨S1700000, .f32⟩ : BufTy).Contents (Elt F) → (⟨S1700000x1, .f32⟩ : BufTy).Contents (Elt F)),
    StableHlo.unary main_v56 main_v57 (broadcastInDim S1700000x32 ![0, 1] bcast_S1700000x1_S1700000x32_0_1 : (⟨S1700000x1, .f32⟩ : BufTy).Contents (Elt F) → (⟨S1700000x32, .f32⟩ : BufTy).Contents (Elt F)),
    StableHlo.binary main_v55 main_v57 main_v58 (mulf : (⟨S1700000x32, .f32⟩ : BufTy).Contents (Elt F) → (⟨S1700000x32, .f32⟩ : BufTy).Contents (Elt F) → (⟨S1700000x32, .f32⟩ : BufTy).Contents (Elt F)),
    StableHlo.nullary main_cst_12 (constant S_ .f32 0x00000000#32),
    StableHlo.unary main_cst_12 main_v59 (broadcastInDim S100000x32 ![] bcast_S_S100000x32 : (⟨S_, .f32⟩ : BufTy).Contents (Elt F) → (⟨S100000x32, .f32⟩ : BufTy).Contents (Elt F)),
    StableHlo.unary main_v6 main_v60 (broadcastInDim S1700000x1 ![0] bcast_S1700000_S1700000x1_0 : (⟨S1700000, .i32⟩ : BufTy).Contents (Elt F) → (⟨S1700000x1, .i32⟩ : BufTy).Contents (Elt F)),
    StableHlo.ternary main_v59 main_v60 main_v58 main_v61 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    StableHlo.unary main_arg5 main_v62 (broadcastInDim S1x32 ![1] bcast_S32_S1x32_1 : (⟨S32, .f32⟩ : BufTy).Contents (Elt F) → (⟨S1x32, .f32⟩ : BufTy).Contents (Elt F)),
    StableHlo.unary main_v62 main_v63 (broadcastInDim S100000x32 ![0, 1] bcast_S1x32_S100000x32_0_1 : (⟨S1x32, .f32⟩ : BufTy).Contents (Elt F) → (⟨S100000x32, .f32⟩ : BufTy).Contents (Elt F)),
    StableHlo.binary main_v61 main_v63 main_v64 (addf : (⟨S100000x32, .f32⟩ : BufTy).Contents (Elt F) → (⟨S100000x32, .f32⟩ : BufTy).Contents (Elt F) → (⟨S100000x32, .f32⟩ : BufTy).Contents (Elt F)),
    StableHlo.nullary main_cst_13 (constant S_ .f32 0x3F800000#32),
    StableHlo.nullary main_call2_cst (constant S_ .f32 0x00000000#32),
    StableHlo.unary main_call2_cst main_call2_v0 (broadcastInDim S100000x32 ![] bcast_S_S100000x32 : (⟨S_, .f32⟩ : BufTy).Contents (Elt F) → (⟨S100000x32, .f32⟩ : BufTy).Contents (Elt F)),
    StableHlo.binary main_v64 main_call2_v0 main_call2_v1 (cmpf .oge : (⟨S100000x32, .f32⟩ : BufTy).Contents (Elt F) → (⟨S100000x32, .f32⟩ : BufTy).Contents (Elt F) → (⟨S100000x32, .i1⟩ : BufTy).Contents (Elt F)),
    StableHlo.unary main_cst_13 main_call2_v2 (id : (⟨S_, .f32⟩ : BufTy).Contents (Elt F) → (⟨S_, .f32⟩ : BufTy).Contents (Elt F)),
    StableHlo.unary main_call2_v2 main_call2_v3 (broadcastInDim S100000x32 ![] bcast_S_S100000x32 : (⟨S_, .f32⟩ : BufTy).Contents (Elt F) → (⟨S100000x32, .f32⟩ : BufTy).Contents (Elt F)),
    StableHlo.binary main_call2_v3 main_v64 main_call2_v4 (mulf : (⟨S100000x32, .f32⟩ : BufTy).Contents (Elt F) → (⟨S100000x32, .f32⟩ : BufTy).Contents (Elt F) → (⟨S100000x32, .f32⟩ : BufTy).Contents (Elt F)),
    StableHlo.ternary main_call2_v1 main_v64 main_call2_v4 main_v65 (select : (⟨S100000x32, .i1⟩ : BufTy).Contents (Elt F) → (⟨S100000x32, .f32⟩ : BufTy).Contents (Elt F) → (⟨S100000x32, .f32⟩ : BufTy).Contents (Elt F) → (⟨S100000x32, .f32⟩ : BufTy).Contents (Elt F)) ]

/-- Layer 3's dense product of the node features with its weight matrix. (1 operations) -/
abbrev cDot3 : List (HloOp τ sig (Elt F)) :=
  [ StableHlo.binary main_v65 main_arg6 main_v66 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)) ]

/-- Layer 3 after its product: each edge takes its source row scaled by the edge weight, rows are summed into their target node, the bias row is added, and the slope-one leaky rectifier is applied. (27 operations) -/
abbrev cTail3 : List (HloOp τ sig (Elt F)) :=
  [ StableHlo.nullary main_c_14 (constantI S_ 32 0#32),
    StableHlo.unary main_c_14 main_v67 (broadcastInDim S1700000 ![] bcast_S_S1700000 : (⟨S_, .i32⟩ : BufTy).Contents (Elt F) → (⟨S1700000, .i32⟩ : BufTy).Contents (Elt F)),
    StableHlo.binary main_v3 main_v67 main_v68 (cmpi .slt : (⟨S1700000, .i32⟩ : BufTy).Contents (Elt F) → (⟨S1700000, .i32⟩ : BufTy).Contents (Elt F) → (⟨S1700000, .i1⟩ : BufTy).Contents (Elt F)),
    StableHlo.nullary main_c_15 (constantI S_ 32 100000#32),
    StableHlo.unary main_c_15 main_v69 (broadcastInDim S1700000 ![] bcast_S_S1700000 : (⟨S_, .i32⟩ : BufTy).Contents (Elt F) → (⟨S1700000, .i32⟩ : BufTy).Contents (Elt F)),
    StableHlo.binary main_v3 main_v69 main_v70 (addi : (⟨S1700000, .i32⟩ : BufTy).Contents (Elt F) → (⟨S1700000, .i32⟩ : BufTy).Contents (Elt F) → (⟨S1700000, .i32⟩ : BufTy).Contents (Elt F)),
    StableHlo.ternary main_v68 main_v70 main_v3 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v71 main_v72 (broadcastInDim S1700000x1 ![0] bcast_S1700000_S1700000x1_0 : (⟨S1700000, .i32⟩ : BufTy).Contents (Elt F) → (⟨S1700000x1, .i32⟩ : BufTy).Contents (Elt F)),
    StableHlo.binary main_v66 main_v72 main_v73 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    StableHlo.unary main_v29 main_v74 (broadcastInDim S1700000x1 ![0] bcast_S1700000_S1700000x1_0 : (⟨S1700000, .f32⟩ : BufTy).Contents (Elt F) → (⟨S1700000x1, .f32⟩ : BufTy).Contents (Elt F)),
    StableHlo.unary main_v74 main_v75 (broadcastInDim S1700000x32 ![0, 1] bcast_S1700000x1_S1700000x32_0_1 : (⟨S1700000x1, .f32⟩ : BufTy).Contents (Elt F) → (⟨S1700000x32, .f32⟩ : BufTy).Contents (Elt F)),
    StableHlo.binary main_v73 main_v75 main_v76 (mulf : (⟨S1700000x32, .f32⟩ : BufTy).Contents (Elt F) → (⟨S1700000x32, .f32⟩ : BufTy).Contents (Elt F) → (⟨S1700000x32, .f32⟩ : BufTy).Contents (Elt F)),
    StableHlo.nullary main_cst_16 (constant S_ .f32 0x00000000#32),
    StableHlo.unary main_cst_16 main_v77 (broadcastInDim S100000x32 ![] bcast_S_S100000x32 : (⟨S_, .f32⟩ : BufTy).Contents (Elt F) → (⟨S100000x32, .f32⟩ : BufTy).Contents (Elt F)),
    StableHlo.unary main_v6 main_v78 (broadcastInDim S1700000x1 ![0] bcast_S1700000_S1700000x1_0 : (⟨S1700000, .i32⟩ : BufTy).Contents (Elt F) → (⟨S1700000x1, .i32⟩ : BufTy).Contents (Elt F)),
    StableHlo.ternary main_v77 main_v78 main_v76 main_v79 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    StableHlo.unary main_arg7 main_v80 (broadcastInDim S1x32 ![1] bcast_S32_S1x32_1 : (⟨S32, .f32⟩ : BufTy).Contents (Elt F) → (⟨S1x32, .f32⟩ : BufTy).Contents (Elt F)),
    StableHlo.unary main_v80 main_v81 (broadcastInDim S100000x32 ![0, 1] bcast_S1x32_S100000x32_0_1 : (⟨S1x32, .f32⟩ : BufTy).Contents (Elt F) → (⟨S100000x32, .f32⟩ : BufTy).Contents (Elt F)),
    StableHlo.binary main_v79 main_v81 main_v82 (addf : (⟨S100000x32, .f32⟩ : BufTy).Contents (Elt F) → (⟨S100000x32, .f32⟩ : BufTy).Contents (Elt F) → (⟨S100000x32, .f32⟩ : BufTy).Contents (Elt F)),
    StableHlo.nullary main_cst_17 (constant S_ .f32 0x3F800000#32),
    StableHlo.nullary main_call3_cst (constant S_ .f32 0x00000000#32),
    StableHlo.unary main_call3_cst main_call3_v0 (broadcastInDim S100000x32 ![] bcast_S_S100000x32 : (⟨S_, .f32⟩ : BufTy).Contents (Elt F) → (⟨S100000x32, .f32⟩ : BufTy).Contents (Elt F)),
    StableHlo.binary main_v82 main_call3_v0 main_call3_v1 (cmpf .oge : (⟨S100000x32, .f32⟩ : BufTy).Contents (Elt F) → (⟨S100000x32, .f32⟩ : BufTy).Contents (Elt F) → (⟨S100000x32, .i1⟩ : BufTy).Contents (Elt F)),
    StableHlo.unary main_cst_17 main_call3_v2 (id : (⟨S_, .f32⟩ : BufTy).Contents (Elt F) → (⟨S_, .f32⟩ : BufTy).Contents (Elt F)),
    StableHlo.unary main_call3_v2 main_call3_v3 (broadcastInDim S100000x32 ![] bcast_S_S100000x32 : (⟨S_, .f32⟩ : BufTy).Contents (Elt F) → (⟨S100000x32, .f32⟩ : BufTy).Contents (Elt F)),
    StableHlo.binary main_call3_v3 main_v82 main_call3_v4 (mulf : (⟨S100000x32, .f32⟩ : BufTy).Contents (Elt F) → (⟨S100000x32, .f32⟩ : BufTy).Contents (Elt F) → (⟨S100000x32, .f32⟩ : BufTy).Contents (Elt F)),
    StableHlo.ternary main_call3_v1 main_v82 main_call3_v4 main_v83 (select : (⟨S100000x32, .i1⟩ : BufTy).Contents (Elt F) → (⟨S100000x32, .f32⟩ : BufTy).Contents (Elt F) → (⟨S100000x32, .f32⟩ : BufTy).Contents (Elt F) → (⟨S100000x32, .f32⟩ : BufTy).Contents (Elt F)) ]

/-- Layer 4's dense product of the node features with its weight matrix. (1 operations) -/
abbrev cDot4 : List (HloOp τ sig (Elt F)) :=
  [ StableHlo.binary main_v83 main_arg8 main_v84 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)) ]

/-- Layer 4 after its product: each edge takes its source row scaled by the edge weight, rows are summed into their target node, the bias row is added, and the slope-one leaky rectifier is applied. (27 operations) -/
abbrev cTail4 : List (HloOp τ sig (Elt F)) :=
  [ StableHlo.nullary main_c_18 (constantI S_ 32 0#32),
    StableHlo.unary main_c_18 main_v85 (broadcastInDim S1700000 ![] bcast_S_S1700000 : (⟨S_, .i32⟩ : BufTy).Contents (Elt F) → (⟨S1700000, .i32⟩ : BufTy).Contents (Elt F)),
    StableHlo.binary main_v3 main_v85 main_v86 (cmpi .slt : (⟨S1700000, .i32⟩ : BufTy).Contents (Elt F) → (⟨S1700000, .i32⟩ : BufTy).Contents (Elt F) → (⟨S1700000, .i1⟩ : BufTy).Contents (Elt F)),
    StableHlo.nullary main_c_19 (constantI S_ 32 100000#32),
    StableHlo.unary main_c_19 main_v87 (broadcastInDim S1700000 ![] bcast_S_S1700000 : (⟨S_, .i32⟩ : BufTy).Contents (Elt F) → (⟨S1700000, .i32⟩ : BufTy).Contents (Elt F)),
    StableHlo.binary main_v3 main_v87 main_v88 (addi : (⟨S1700000, .i32⟩ : BufTy).Contents (Elt F) → (⟨S1700000, .i32⟩ : BufTy).Contents (Elt F) → (⟨S1700000, .i32⟩ : BufTy).Contents (Elt F)),
    StableHlo.ternary main_v86 main_v88 main_v3 main_v89 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v89 main_v90 (broadcastInDim S1700000x1 ![0] bcast_S1700000_S1700000x1_0 : (⟨S1700000, .i32⟩ : BufTy).Contents (Elt F) → (⟨S1700000x1, .i32⟩ : BufTy).Contents (Elt F)),
    StableHlo.binary main_v84 main_v90 main_v91 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    StableHlo.unary main_v29 main_v92 (broadcastInDim S1700000x1 ![0] bcast_S1700000_S1700000x1_0 : (⟨S1700000, .f32⟩ : BufTy).Contents (Elt F) → (⟨S1700000x1, .f32⟩ : BufTy).Contents (Elt F)),
    StableHlo.unary main_v92 main_v93 (broadcastInDim S1700000x32 ![0, 1] bcast_S1700000x1_S1700000x32_0_1 : (⟨S1700000x1, .f32⟩ : BufTy).Contents (Elt F) → (⟨S1700000x32, .f32⟩ : BufTy).Contents (Elt F)),
    StableHlo.binary main_v91 main_v93 main_v94 (mulf : (⟨S1700000x32, .f32⟩ : BufTy).Contents (Elt F) → (⟨S1700000x32, .f32⟩ : BufTy).Contents (Elt F) → (⟨S1700000x32, .f32⟩ : BufTy).Contents (Elt F)),
    StableHlo.nullary main_cst_20 (constant S_ .f32 0x00000000#32),
    StableHlo.unary main_cst_20 main_v95 (broadcastInDim S100000x32 ![] bcast_S_S100000x32 : (⟨S_, .f32⟩ : BufTy).Contents (Elt F) → (⟨S100000x32, .f32⟩ : BufTy).Contents (Elt F)),
    StableHlo.unary main_v6 main_v96 (broadcastInDim S1700000x1 ![0] bcast_S1700000_S1700000x1_0 : (⟨S1700000, .i32⟩ : BufTy).Contents (Elt F) → (⟨S1700000x1, .i32⟩ : BufTy).Contents (Elt F)),
    StableHlo.ternary main_v95 main_v96 main_v94 main_v97 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    StableHlo.unary main_arg9 main_v98 (broadcastInDim S1x32 ![1] bcast_S32_S1x32_1 : (⟨S32, .f32⟩ : BufTy).Contents (Elt F) → (⟨S1x32, .f32⟩ : BufTy).Contents (Elt F)),
    StableHlo.unary main_v98 main_v99 (broadcastInDim S100000x32 ![0, 1] bcast_S1x32_S100000x32_0_1 : (⟨S1x32, .f32⟩ : BufTy).Contents (Elt F) → (⟨S100000x32, .f32⟩ : BufTy).Contents (Elt F)),
    StableHlo.binary main_v97 main_v99 main_v100 (addf : (⟨S100000x32, .f32⟩ : BufTy).Contents (Elt F) → (⟨S100000x32, .f32⟩ : BufTy).Contents (Elt F) → (⟨S100000x32, .f32⟩ : BufTy).Contents (Elt F)),
    StableHlo.nullary main_cst_21 (constant S_ .f32 0x3F800000#32),
    StableHlo.nullary main_call4_cst (constant S_ .f32 0x00000000#32),
    StableHlo.unary main_call4_cst main_call4_v0 (broadcastInDim S100000x32 ![] bcast_S_S100000x32 : (⟨S_, .f32⟩ : BufTy).Contents (Elt F) → (⟨S100000x32, .f32⟩ : BufTy).Contents (Elt F)),
    StableHlo.binary main_v100 main_call4_v0 main_call4_v1 (cmpf .oge : (⟨S100000x32, .f32⟩ : BufTy).Contents (Elt F) → (⟨S100000x32, .f32⟩ : BufTy).Contents (Elt F) → (⟨S100000x32, .i1⟩ : BufTy).Contents (Elt F)),
    StableHlo.unary main_cst_21 main_call4_v2 (id : (⟨S_, .f32⟩ : BufTy).Contents (Elt F) → (⟨S_, .f32⟩ : BufTy).Contents (Elt F)),
    StableHlo.unary main_call4_v2 main_call4_v3 (broadcastInDim S100000x32 ![] bcast_S_S100000x32 : (⟨S_, .f32⟩ : BufTy).Contents (Elt F) → (⟨S100000x32, .f32⟩ : BufTy).Contents (Elt F)),
    StableHlo.binary main_call4_v3 main_v100 main_call4_v4 (mulf : (⟨S100000x32, .f32⟩ : BufTy).Contents (Elt F) → (⟨S100000x32, .f32⟩ : BufTy).Contents (Elt F) → (⟨S100000x32, .f32⟩ : BufTy).Contents (Elt F)),
    StableHlo.ternary main_call4_v1 main_v100 main_call4_v4 main_v101 (select : (⟨S100000x32, .i1⟩ : BufTy).Contents (Elt F) → (⟨S100000x32, .f32⟩ : BufTy).Contents (Elt F) → (⟨S100000x32, .f32⟩ : BufTy).Contents (Elt F) → (⟨S100000x32, .f32⟩ : BufTy).Contents (Elt F)) ]

/-- Layer 5's dense product of the node features with its weight matrix. (1 operations) -/
abbrev cDot5 : List (HloOp τ sig (Elt F)) :=
  [ StableHlo.binary main_v101 main_arg10 main_v102 ((fun l r => Host.dotGeneral dot_S100000x32_S32x3_S100000x3_1_0_0_1_n_n none l r) : (⟨S100000x32, .f32⟩ : BufTy).Contents (Elt F) → (⟨S32x3, .f32⟩ : BufTy).Contents (Elt F) → (⟨S100000x3, .f32⟩ : BufTy).Contents (Elt F)) ]

/-- Layer 5 after its product: each edge takes its source row scaled by the edge weight, rows are summed into their target node, the bias row is added, and the slope-one leaky rectifier is applied. (27 operations) -/
abbrev cTail5 : List (HloOp τ sig (Elt F)) :=
  [ StableHlo.nullary main_c_22 (constantI S_ 32 0#32),
    StableHlo.unary main_c_22 main_v103 (broadcastInDim S1700000 ![] bcast_S_S1700000 : (⟨S_, .i32⟩ : BufTy).Contents (Elt F) → (⟨S1700000, .i32⟩ : BufTy).Contents (Elt F)),
    StableHlo.binary main_v3 main_v103 main_v104 (cmpi .slt : (⟨S1700000, .i32⟩ : BufTy).Contents (Elt F) → (⟨S1700000, .i32⟩ : BufTy).Contents (Elt F) → (⟨S1700000, .i1⟩ : BufTy).Contents (Elt F)),
    StableHlo.nullary main_c_23 (constantI S_ 32 100000#32),
    StableHlo.unary main_c_23 main_v105 (broadcastInDim S1700000 ![] bcast_S_S1700000 : (⟨S_, .i32⟩ : BufTy).Contents (Elt F) → (⟨S1700000, .i32⟩ : BufTy).Contents (Elt F)),
    StableHlo.binary main_v3 main_v105 main_v106 (addi : (⟨S1700000, .i32⟩ : BufTy).Contents (Elt F) → (⟨S1700000, .i32⟩ : BufTy).Contents (Elt F) → (⟨S1700000, .i32⟩ : BufTy).Contents (Elt F)),
    StableHlo.ternary main_v104 main_v106 main_v3 main_v107 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v107 main_v108 (broadcastInDim S1700000x1 ![0] bcast_S1700000_S1700000x1_0 : (⟨S1700000, .i32⟩ : BufTy).Contents (Elt F) → (⟨S1700000x1, .i32⟩ : BufTy).Contents (Elt F)),
    StableHlo.binary main_v102 main_v108 main_v109 ((fun x i => Host.gather gather_S100000x3_S1700000x1_S1700000x3_1_0_n_n_0_1_13 x i) : (⟨S100000x3, .f32⟩ : BufTy).Contents (Elt F) → (⟨S1700000x1, .i32⟩ : BufTy).Contents (Elt F) → (⟨S1700000x3, .f32⟩ : BufTy).Contents (Elt F)),
    StableHlo.unary main_v29 main_v110 (broadcastInDim S1700000x1 ![0] bcast_S1700000_S1700000x1_0 : (⟨S1700000, .f32⟩ : BufTy).Contents (Elt F) → (⟨S1700000x1, .f32⟩ : BufTy).Contents (Elt F)),
    StableHlo.unary main_v110 main_v111 (broadcastInDim S1700000x3 ![0, 1] bcast_S1700000x1_S1700000x3_0_1 : (⟨S1700000x1, .f32⟩ : BufTy).Contents (Elt F) → (⟨S1700000x3, .f32⟩ : BufTy).Contents (Elt F)),
    StableHlo.binary main_v109 main_v111 main_v112 (mulf : (⟨S1700000x3, .f32⟩ : BufTy).Contents (Elt F) → (⟨S1700000x3, .f32⟩ : BufTy).Contents (Elt F) → (⟨S1700000x3, .f32⟩ : BufTy).Contents (Elt F)),
    StableHlo.nullary main_cst_24 (constant S_ .f32 0x00000000#32),
    StableHlo.unary main_cst_24 main_v113 (broadcastInDim S100000x3 ![] bcast_S_S100000x3 : (⟨S_, .f32⟩ : BufTy).Contents (Elt F) → (⟨S100000x3, .f32⟩ : BufTy).Contents (Elt F)),
    StableHlo.unary main_v6 main_v114 (broadcastInDim S1700000x1 ![0] bcast_S1700000_S1700000x1_0 : (⟨S1700000, .i32⟩ : BufTy).Contents (Elt F) → (⟨S1700000x1, .i32⟩ : BufTy).Contents (Elt F)),
    StableHlo.ternary main_v113 main_v114 main_v112 main_v115 ((fun x i u => Host.scatterAdd scatter_S100000x3_S1700000x1_S1700000x3_1_0_0_1 x i u) : (⟨S100000x3, .f32⟩ : BufTy).Contents (Elt F) → (⟨S1700000x1, .i32⟩ : BufTy).Contents (Elt F) → (⟨S1700000x3, .f32⟩ : BufTy).Contents (Elt F) → (⟨S100000x3, .f32⟩ : BufTy).Contents (Elt F)),
    StableHlo.unary main_arg11 main_v116 (broadcastInDim S1x3 ![1] bcast_S3_S1x3_1 : (⟨S3, .f32⟩ : BufTy).Contents (Elt F) → (⟨S1x3, .f32⟩ : BufTy).Contents (Elt F)),
    StableHlo.unary main_v116 main_v117 (broadcastInDim S100000x3 ![0, 1] bcast_S1x3_S100000x3_0_1 : (⟨S1x3, .f32⟩ : BufTy).Contents (Elt F) → (⟨S100000x3, .f32⟩ : BufTy).Contents (Elt F)),
    StableHlo.binary main_v115 main_v117 main_v118 (addf : (⟨S100000x3, .f32⟩ : BufTy).Contents (Elt F) → (⟨S100000x3, .f32⟩ : BufTy).Contents (Elt F) → (⟨S100000x3, .f32⟩ : BufTy).Contents (Elt F)),
    StableHlo.nullary main_cst_25 (constant S_ .f32 0x3F800000#32),
    StableHlo.nullary main_call5_cst (constant S_ .f32 0x00000000#32),
    StableHlo.unary main_call5_cst main_call5_v0 (broadcastInDim S100000x3 ![] bcast_S_S100000x3 : (⟨S_, .f32⟩ : BufTy).Contents (Elt F) → (⟨S100000x3, .f32⟩ : BufTy).Contents (Elt F)),
    StableHlo.binary main_v118 main_call5_v0 main_call5_v1 (cmpf .oge : (⟨S100000x3, .f32⟩ : BufTy).Contents (Elt F) → (⟨S100000x3, .f32⟩ : BufTy).Contents (Elt F) → (⟨S100000x3, .i1⟩ : BufTy).Contents (Elt F)),
    StableHlo.unary main_cst_25 main_call5_v2 (id : (⟨S_, .f32⟩ : BufTy).Contents (Elt F) → (⟨S_, .f32⟩ : BufTy).Contents (Elt F)),
    StableHlo.unary main_call5_v2 main_call5_v3 (broadcastInDim S100000x3 ![] bcast_S_S100000x3 : (⟨S_, .f32⟩ : BufTy).Contents (Elt F) → (⟨S100000x3, .f32⟩ : BufTy).Contents (Elt F)),
    StableHlo.binary main_call5_v3 main_v118 main_call5_v4 (mulf : (⟨S100000x3, .f32⟩ : BufTy).Contents (Elt F) → (⟨S100000x3, .f32⟩ : BufTy).Contents (Elt F) → (⟨S100000x3, .f32⟩ : BufTy).Contents (Elt F)),
    StableHlo.ternary main_call5_v1 main_v118 main_call5_v4 main_v119 (select : (⟨S100000x3, .i1⟩ : BufTy).Contents (Elt F) → (⟨S100000x3, .f32⟩ : BufTy).Contents (Elt F) → (⟨S100000x3, .f32⟩ : BufTy).Contents (Elt F) → (⟨S100000x3, .f32⟩ : BufTy).Contents (Elt F)) ]

/-- The whole line, stretch after stretch. -/
abbrev ops : List (HloOp τ sig (Elt F)) :=
  cPreA ++ cPreB ++ cPreC ++ cDot1 ++ cTail1 ++ cDot2 ++ cTail2 ++ cDot3 ++ cTail3 ++ cDot4 ++ cTail4 ++ cDot5 ++ cTail5

theorem cPreA_sub : (cPreA : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub ..⟩
theorem cPreB_sub : (cPreB : List (HloOp τ sig (Elt F))).Forall fun op => op.bufs ⊆ StableHlo.tcRefs τ sig :=
  ⟨StableHlo.unary_bufs_sub .., StableHlo.unary_bufs_sub .., StableHlo.ternary_bufs_sub ..⟩
theorem cPreC_sub : (cPreC : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem cDot1_sub : (cDot1 : List (HloOp τ sig (Elt F))).Forall fun op => op.bufs ⊆ StableHlo.tcRefs τ sig :=
  StableHlo.binary_bufs_sub ..
theorem cTail1_sub : (cTail1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
theorem cDot2_sub : (cDot2 : List (HloOp τ sig (Elt F))).Forall fun op => op.bufs ⊆ StableHlo.tcRefs τ sig :=
  StableHlo.binary_bufs_sub ..
theorem cTail2_sub : (cTail2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
theorem cDot3_sub : (cDot3 : List (HloOp τ sig (Elt F))).Forall fun op => op.bufs ⊆ StableHlo.tcRefs τ sig :=
  StableHlo.binary_bufs_sub ..
theorem cTail3_sub : (cTail3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
theorem cDot4_sub : (cDot4 : List (HloOp τ sig (Elt F))).Forall fun op => op.bufs ⊆ StableHlo.tcRefs τ sig :=
  StableHlo.binary_bufs_sub ..
theorem cTail4_sub : (cTail4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
theorem cDot5_sub : (cDot5 : List (HloOp τ sig (Elt F))).Forall fun op => op.bufs ⊆ StableHlo.tcRefs τ sig :=
  StableHlo.binary_bufs_sub ..
theorem cTail5_sub : (cTail5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩

end Cert.ReferenceIdeal.Line

end
-- ==== Proof.RefRun.lean ====
/-
  The reference program's run, read back.

  The reference is a straight line of host operations: the edge weights every layer shares, then five times a
  dense product followed by gather, scale, scatter-add, bias and a slope-one leaky rectifier. Every weakly fair
  execution of such a line terminates, and leaves in each buffer what folding the operations' results over the launch
  contents leaves there; folding a line that is two lines one after the other is folding the second over the
  first's fold.
-/
import proofs.«130898_j20847771254912_2_alg».proof.Proof.RefOps
import Idealize.ShloMosaic.Lib.Pipeline.Regions

noncomputable section

namespace Cert.ReferenceIdeal.Line

open Cert.ReferenceIdeal Cert.ReferenceIdeal.Gen Idealize.ShloMosaic Idealize.ShloMosaic.TcCoe Idealize.SL.Sem
open Idealize.ShloMosaic.StableHlo

variable {F : FTy → Type} [FloatOps F]

/-- A property of every entry of two lists holds of every entry of their concatenation. -/
theorem forall_append {α : Type _} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- Folding two lines run one after the other: the second folded over what the first leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- The printed program is that line: its three windows and the outlined functions' bodies unfold to the same chain
    of steps. -/
theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  (forall_append (forall_append (forall_append (forall_append (forall_append (forall_append (forall_append (forall_append (forall_append (forall_append (forall_append (forall_append cPreA_sub cPreB_sub) cPreC_sub) cDot1_sub) cTail1_sub) cDot2_sub) cTail2_sub) cDot3_sub) cTail3_sub) cDot4_sub) cTail4_sub) cDot5_sub) cTail5_sub)

theorem cPreA_fresh : (cPreA : List (HloOp τ sig (Elt F))).Forall fun op => op.fresh = ∅ := by
  simp only [List.Forall]; repeat' constructor
theorem cPreB_fresh : (cPreB : List (HloOp τ sig (Elt F))).Forall fun op => op.fresh = ∅ := by
  simp only [List.Forall]; repeat' constructor
theorem cPreC_fresh : (cPreC : List (HloOp τ sig (Elt F))).Forall fun op => op.fresh = ∅ := by
  simp only [List.Forall]; repeat' constructor
theorem cDot1_fresh : (cDot1 : List (HloOp τ sig (Elt F))).Forall fun op => op.fresh = ∅ := by
  simp only [List.Forall]; repeat' constructor
theorem cTail1_fresh : (cTail1 : List (HloOp τ sig (Elt F))).Forall fun op => op.fresh = ∅ := by
  simp only [List.Forall]; repeat' constructor
theorem cDot2_fresh : (cDot2 : List (HloOp τ sig (Elt F))).Forall fun op => op.fresh = ∅ := by
  simp only [List.Forall]; repeat' constructor
theorem cTail2_fresh : (cTail2 : List (HloOp τ sig (Elt F))).Forall fun op => op.fresh = ∅ := by
  simp only [List.Forall]; repeat' constructor
theorem cDot3_fresh : (cDot3 : List (HloOp τ sig (Elt F))).Forall fun op => op.fresh = ∅ := by
  simp only [List.Forall]; repeat' constructor
theorem cTail3_fresh : (cTail3 : List (HloOp τ sig (Elt F))).Forall fun op => op.fresh = ∅ := by
  simp only [List.Forall]; repeat' constructor
theorem cDot4_fresh : (cDot4 : List (HloOp τ sig (Elt F))).Forall fun op => op.fresh = ∅ := by
  simp only [List.Forall]; repeat' constructor
theorem cTail4_fresh : (cTail4 : List (HloOp τ sig (Elt F))).Forall fun op => op.fresh = ∅ := by
  simp only [List.Forall]; repeat' constructor
theorem cDot5_fresh : (cDot5 : List (HloOp τ sig (Elt F))).Forall fun op => op.fresh = ∅ := by
  simp only [List.Forall]; repeat' constructor
theorem cTail5_fresh : (cTail5 : List (HloOp τ sig (Elt F))).Forall fun op => op.fresh = ∅ := by
  simp only [List.Forall]; repeat' constructor

/-- No operation allocates a buffer: each determines its results. -/
theorem ops_fresh : (ops : List (HloOp τ sig (Elt F))).Forall fun op => op.fresh = ∅ :=
  (forall_append (forall_append (forall_append (forall_append (forall_append (forall_append (forall_append (forall_append (forall_append (forall_append (forall_append (forall_append cPreA_fresh cPreB_fresh) cPreC_fresh) cDot1_fresh) cTail1_fresh) cDot2_fresh) cTail2_fresh) cDot3_fresh) cTail3_fresh) cDot4_fresh) cTail4_fresh) cDot5_fresh) cTail5_fresh)

/-- From any memory with zero counters every weakly fair execution of the reference terminates without a fault, and
    every buffer ends at the fold of the line over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.Line

end
-- ==== Proof.KernelKeep.lean ====
/-
  What each host stretch of the kernel program leaves alone.

  A stretch of host operations writes the result buffers of its operations and nothing else, so folding the stretch
  over any contents changes no other buffer. The edge endpoints, the edge weights and the argument arrays are
  computed (or given) once and read by every later layer: these lemmas carry them across the stretches.
-/
import proofs.«130898_j20847771254912_2_alg».proof.Proof.Gen.KernelIdeal.Launch
import Idealize.ShloMosaic.Lib.StableHlo.Run

noncomputable section

namespace Cert.KernelIdeal.Keep

open Cert.KernelIdeal Cert.KernelIdeal.Gen Idealize.ShloMosaic Idealize.ShloMosaic.TcCoe Idealize.SL.Sem

variable {F : FTy → Type} [FloatOps F]

/-- The buffers the first stretch (edge endpoints, degree, its inverse square root) writes. -/
abbrev wr_h0 : List (Ref sig .tc) :=
  [main_v0, main_v1, main_v2, main_v3, main_v4, main_v5, main_v6, main_cst, main_v7, main_cst_0, main_v8, main_v9, main_v10, main_cst_1, main_v11, main_v12, main_v13, main_cst_2]
theorem writes_h0 : (hostOps0 : List (HloOp τ sig (Elt F))).Forall fun op => op.writes ⊆ (wr_h0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the first stretch (edge endpoints, degree, its inverse square root) does not write holds afterwards what it held before. -/
theorem keep_h0 (V : Valuation τ sig (Elt F)) (b : Ref sig .tc) (h : b ∉ wr_h0) :
    StableHlo.after hostOps0 V (Proc.devRef .tc b) = V (Proc.devRef .tc b) :=
  StableHlo.after_of_writes_sub hostOps0 _ writes_h0 h

/-- The buffers the select that zeroes the weight of a node of degree zero writes. -/
abbrev wr_h0a : List (Ref sig .tc) :=
  [main_call0_v0, main_call0_v1, main_v14]
theorem writes_h0a : (hostOps0_1 : List (HloOp τ sig (Elt F))).Forall fun op => op.writes ⊆ (wr_h0a.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the select that zeroes the weight of a node of degree zero does not write holds afterwards what it held before. -/
theorem keep_h0a (V : Valuation τ sig (Elt F)) (b : Ref sig .tc) (h : b ∉ wr_h0a) :
    StableHlo.after hostOps0_1 V (Proc.devRef .tc b) = V (Proc.devRef .tc b) :=
  StableHlo.after_of_writes_sub hostOps0_1 _ writes_h0a h

/-- The buffers the stretch computing the edge weights writes. -/
abbrev wr_h0b : List (Ref sig .tc) :=
  [main_c, main_v15, main_v16, main_c_3, main_v17, main_v18, main_v19, main_v20, main_v21, main_c_4, main_v22, main_v23, main_c_5, main_v24, main_v25, main_v26, main_v27, main_v28, main_v29]
theorem writes_h0b : (hostOps0_2 : List (HloOp τ sig (Elt F))).Forall fun op => op.writes ⊆ (wr_h0b.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch computing the edge weights does not write holds afterwards what it held before. -/
theorem keep_h0b (V : Valuation τ sig (Elt F)) (b : Ref sig .tc) (h : b ∉ wr_h0b) :
    StableHlo.after hostOps0_2 V (Proc.devRef .tc b) = V (Proc.devRef .tc b) :=
  StableHlo.after_of_writes_sub hostOps0_2 _ writes_h0b h

/-- The buffers layer 1's stretch after its product writes. -/
abbrev wr_h1 : List (Ref sig .tc) :=
  [main_c_6, main_v31, main_v32, main_c_7, main_v33, main_v34, main_v35, main_v36, main_v37, main_v38, main_v39, main_v40, main_cst_8, main_v41, main_v42, main_v43, main_v44, main_v45, main_v46]
theorem writes_h1 : (hostOps1 : List (HloOp τ sig (Elt F))).Forall fun op => op.writes ⊆ (wr_h1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer layer 1's stretch after its product does not write holds afterwards what it held before. -/
theorem keep_h1 (V : Valuation τ sig (Elt F)) (b : Ref sig .tc) (h : b ∉ wr_h1) :
    StableHlo.after hostOps1 V (Proc.devRef .tc b) = V (Proc.devRef .tc b) :=
  StableHlo.after_of_writes_sub hostOps1 _ writes_h1 h

/-- The buffers layer 2's stretch after its product writes. -/
abbrev wr_h2 : List (Ref sig .tc) :=
  [main_c_9, main_v48, main_v49, main_c_10, main_v50, main_v51, main_v52, main_v53, main_v54, main_v55, main_v56, main_v57, main_cst_11, main_v58, main_v59, main_v60, main_v61, main_v62, main_v63]
theorem writes_h2 : (hostOps2 : List (HloOp τ sig (Elt F))).Forall fun op => op.writes ⊆ (wr_h2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer layer 2's stretch after its product does not write holds afterwards what it held before. -/
theorem keep_h2 (V : Valuation τ sig (Elt F)) (b : Ref sig .tc) (h : b ∉ wr_h2) :
    StableHlo.after hostOps2 V (Proc.devRef .tc b) = V (Proc.devRef .tc b) :=
  StableHlo.after_of_writes_sub hostOps2 _ writes_h2 h

/-- The buffers layer 3's stretch after its product writes. -/
abbrev wr_h3 : List (Ref sig .tc) :=
  [main_c_12, main_v65, main_v66, main_c_13, main_v67, main_v68, main_v69, main_v70, main_v71, main_v72, main_v73, main_v74, main_cst_14, main_v75, main_v76, main_v77, main_v78, main_v79, main_v80]
theorem writes_h3 : (hostOps3 : List (HloOp τ sig (Elt F))).Forall fun op => op.writes ⊆ (wr_h3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer layer 3's stretch after its product does not write holds afterwards what it held before. -/
theorem keep_h3 (V : Valuation τ sig (Elt F)) (b : Ref sig .tc) (h : b ∉ wr_h3) :
    StableHlo.after hostOps3 V (Proc.devRef .tc b) = V (Proc.devRef .tc b) :=
  StableHlo.after_of_writes_sub hostOps3 _ writes_h3 h

/-- The buffers layer 4's stretch after its product writes. -/
abbrev wr_h4 : List (Ref sig .tc) :=
  [main_c_15, main_v82, main_v83, main_c_16, main_v84, main_v85, main_v86, main_v87, main_v88, main_v89, main_v90, main_v91, main_cst_17, main_v92, main_v93, main_v94, main_v95, main_v96, main_v97]
theorem writes_h4 : (hostOps4 : List (HloOp τ sig (Elt F))).Forall fun op => op.writes ⊆ (wr_h4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer layer 4's stretch after its product does not write holds afterwards what it held before. -/
theorem keep_h4 (V : Valuation τ sig (Elt F)) (b : Ref sig .tc) (h : b ∉ wr_h4) :
    StableHlo.after hostOps4 V (Proc.devRef .tc b) = V (Proc.devRef .tc b) :=
  StableHlo.after_of_writes_sub hostOps4 _ writes_h4 h

/-- The buffers layer 5's stretch after its product writes. -/
abbrev wr_h5 : List (Ref sig .tc) :=
  [main_c_18, main_v99, main_v100, main_c_19, main_v101, main_v102, main_v103, main_v104, main_v105, main_v106, main_v107, main_v108, main_cst_20, main_v109, main_v110, main_v111, main_v112, main_v113, main_v114]
theorem writes_h5 : (hostOps5 : List (HloOp τ sig (Elt F))).Forall fun op => op.writes ⊆ (wr_h5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer layer 5's stretch after its product does not write holds afterwards what it held before. -/
theorem keep_h5 (V : Valuation τ sig (Elt F)) (b : Ref sig .tc) (h : b ∉ wr_h5) :
    StableHlo.after hostOps5 V (Proc.devRef .tc b) = V (Proc.devRef .tc b) :=
  StableHlo.after_of_writes_sub hostOps5 _ writes_h5 h

end Cert.KernelIdeal.Keep

end
-- ==== Proof.RefKeep.lean ====
/-
  What each stretch of the reference's line leaves alone: a stretch writes its operations' result buffers and no
  other, so the edge endpoints, the edge weights and the argument arrays pass through every later stretch unchanged.
-/
import proofs.«130898_j20847771254912_2_alg».proof.Proof.RefOps

noncomputable section

namespace Cert.ReferenceIdeal.Line

open Cert.ReferenceIdeal Cert.ReferenceIdeal.Gen Idealize.ShloMosaic Idealize.ShloMosaic.TcCoe Idealize.SL.Sem

variable {F : FTy → Type} [FloatOps F]

/-- The buffers the stretch computing the edge endpoints and the degrees writes. -/
abbrev wr_cPreA : List (Ref sig .tc) :=
  [main_v0, main_v1, main_v2, main_v3, main_v4, main_v5, main_v6, main_cst, main_v7, main_cst_0, main_v8, main_v9, main_v10, main_cst_1, main_v11, main_v12, main_v13, main_cst_2]
theorem writes_cPreA : (cPreA : List (HloOp τ sig (Elt F))).Forall fun op => op.writes ⊆ (wr_cPreA.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch computing the edge endpoints and the degrees does not write holds afterwards what it held before. -/
theorem keep_cPreA (V : Valuation τ sig (Elt F)) (b : Ref sig .tc) (h : b ∉ wr_cPreA) :
    StableHlo.after cPreA V (Proc.devRef .tc b) = V (Proc.devRef .tc b) :=
  StableHlo.after_of_writes_sub cPreA _ writes_cPreA h

/-- The buffers the select that zeroes the weight of a node of degree zero writes. -/
abbrev wr_cPreB : List (Ref sig .tc) :=
  [main_call0_v0, main_call0_v1, main_v14]
theorem writes_cPreB : (cPreB : List (HloOp τ sig (Elt F))).Forall fun op => op.writes ⊆ (wr_cPreB.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the select that zeroes the weight of a node of degree zero does not write holds afterwards what it held before. -/
theorem keep_cPreB (V : Valuation τ sig (Elt F)) (b : Ref sig .tc) (h : b ∉ wr_cPreB) :
    StableHlo.after cPreB V (Proc.devRef .tc b) = V (Proc.devRef .tc b) :=
  StableHlo.after_of_writes_sub cPreB _ writes_cPreB h

/-- The buffers the stretch computing the edge weights writes. -/
abbrev wr_cPreC : List (Ref sig .tc) :=
  [main_c, main_v15, main_v16, main_c_3, main_v17, main_v18, main_v19, main_v20, main_v21, main_c_4, main_v22, main_v23, main_c_5, main_v24, main_v25, main_v26, main_v27, main_v28, main_v29]
theorem writes_cPreC : (cPreC : List (HloOp τ sig (Elt F))).Forall fun op => op.writes ⊆ (wr_cPreC.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch computing the edge weights does not write holds afterwards what it held before. -/
theorem keep_cPreC (V : Valuation τ sig (Elt F)) (b : Ref sig .tc) (h : b ∉ wr_cPreC) :
    StableHlo.after cPreC V (Proc.devRef .tc b) = V (Proc.devRef .tc b) :=
  StableHlo.after_of_writes_sub cPreC _ writes_cPreC h

/-- The buffers layer 1's product writes. -/
abbrev wr_cDot1 : List (Ref sig .tc) :=
  [main_v30]
theorem writes_cDot1 : (cDot1 : List (HloOp τ sig (Elt F))).Forall fun op => op.writes ⊆ (wr_cDot1.map (Proc.devRef (τ := τ) .tc)).toFinset := by
  simp only [List.Forall]
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer layer 1's product does not write holds afterwards what it held before. -/
theorem keep_cDot1 (V : Valuation τ sig (Elt F)) (b : Ref sig .tc) (h : b ∉ wr_cDot1) :
    StableHlo.after cDot1 V (Proc.devRef .tc b) = V (Proc.devRef .tc b) :=
  StableHlo.after_of_writes_sub cDot1 _ writes_cDot1 h

/-- The buffers layer 1's stretch after its product writes. -/
abbrev wr_cTail1 : List (Ref sig .tc) :=
  [main_c_6, main_v31, main_v32, main_c_7, main_v33, main_v34, main_v35, main_v36, main_v37, main_v38, main_v39, main_v40, main_cst_8, main_v41, main_v42, main_v43, main_v44, main_v45, main_v46, main_cst_9, main_call1_cst, main_call1_v0, main_call1_v1, main_call1_v2, main_call1_v3, main_call1_v4, main_v47]
theorem writes_cTail1 : (cTail1 : List (HloOp τ sig (Elt F))).Forall fun op => op.writes ⊆ (wr_cTail1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer layer 1's stretch after its product does not write holds afterwards what it held before. -/
theorem keep_cTail1 (V : Valuation τ sig (Elt F)) (b : Ref sig .tc) (h : b ∉ wr_cTail1) :
    StableHlo.after cTail1 V (Proc.devRef .tc b) = V (Proc.devRef .tc b) :=
  StableHlo.after_of_writes_sub cTail1 _ writes_cTail1 h

/-- The buffers layer 2's product writes. -/
abbrev wr_cDot2 : List (Ref sig .tc) :=
  [main_v48]
theorem writes_cDot2 : (cDot2 : List (HloOp τ sig (Elt F))).Forall fun op => op.writes ⊆ (wr_cDot2.map (Proc.devRef (τ := τ) .tc)).toFinset := by
  simp only [List.Forall]
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer layer 2's product does not write holds afterwards what it held before. -/
theorem keep_cDot2 (V : Valuation τ sig (Elt F)) (b : Ref sig .tc) (h : b ∉ wr_cDot2) :
    StableHlo.after cDot2 V (Proc.devRef .tc b) = V (Proc.devRef .tc b) :=
  StableHlo.after_of_writes_sub cDot2 _ writes_cDot2 h

/-- The buffers layer 2's stretch after its product writes. -/
abbrev wr_cTail2 : List (Ref sig .tc) :=
  [main_c_10, main_v49, main_v50, main_c_11, main_v51, main_v52, main_v53, main_v54, main_v55, main_v56, main_v57, main_v58, main_cst_12, main_v59, main_v60, main_v61, main_v62, main_v63, main_v64, main_cst_13, main_call2_cst, main_call2_v0, main_call2_v1, main_call2_v2, main_call2_v3, main_call2_v4, main_v65]
theorem writes_cTail2 : (cTail2 : List (HloOp τ sig (Elt F))).Forall fun op => op.writes ⊆ (wr_cTail2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer layer 2's stretch after its product does not write holds afterwards what it held before. -/
theorem keep_cTail2 (V : Valuation τ sig (Elt F)) (b : Ref sig .tc) (h : b ∉ wr_cTail2) :
    StableHlo.after cTail2 V (Proc.devRef .tc b) = V (Proc.devRef .tc b) :=
  StableHlo.after_of_writes_sub cTail2 _ writes_cTail2 h

/-- The buffers layer 3's product writes. -/
abbrev wr_cDot3 : List (Ref sig .tc) :=
  [main_v66]
theorem writes_cDot3 : (cDot3 : List (HloOp τ sig (Elt F))).Forall fun op => op.writes ⊆ (wr_cDot3.map (Proc.devRef (τ := τ) .tc)).toFinset := by
  simp only [List.Forall]
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer layer 3's product does not write holds afterwards what it held before. -/
theorem keep_cDot3 (V : Valuation τ sig (Elt F)) (b : Ref sig .tc) (h : b ∉ wr_cDot3) :
    StableHlo.after cDot3 V (Proc.devRef .tc b) = V (Proc.devRef .tc b) :=
  StableHlo.after_of_writes_sub cDot3 _ writes_cDot3 h

/-- The buffers layer 3's stretch after its product writes. -/
abbrev wr_cTail3 : List (Ref sig .tc) :=
  [main_c_14, main_v67, main_v68, main_c_15, main_v69, main_v70, main_v71, main_v72, main_v73, main_v74, main_v75, main_v76, main_cst_16, main_v77, main_v78, main_v79, main_v80, main_v81, main_v82, main_cst_17, main_call3_cst, main_call3_v0, main_call3_v1, main_call3_v2, main_call3_v3, main_call3_v4, main_v83]
theorem writes_cTail3 : (cTail3 : List (HloOp τ sig (Elt F))).Forall fun op => op.writes ⊆ (wr_cTail3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer layer 3's stretch after its product does not write holds afterwards what it held before. -/
theorem keep_cTail3 (V : Valuation τ sig (Elt F)) (b : Ref sig .tc) (h : b ∉ wr_cTail3) :
    StableHlo.after cTail3 V (Proc.devRef .tc b) = V (Proc.devRef .tc b) :=
  StableHlo.after_of_writes_sub cTail3 _ writes_cTail3 h

/-- The buffers layer 4's product writes. -/
abbrev wr_cDot4 : List (Ref sig .tc) :=
  [main_v84]
theorem writes_cDot4 : (cDot4 : List (HloOp τ sig (Elt F))).Forall fun op => op.writes ⊆ (wr_cDot4.map (Proc.devRef (τ := τ) .tc)).toFinset := by
  simp only [List.Forall]
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer layer 4's product does not write holds afterwards what it held before. -/
theorem keep_cDot4 (V : Valuation τ sig (Elt F)) (b : Ref sig .tc) (h : b ∉ wr_cDot4) :
    StableHlo.after cDot4 V (Proc.devRef .tc b) = V (Proc.devRef .tc b) :=
  StableHlo.after_of_writes_sub cDot4 _ writes_cDot4 h

/-- The buffers layer 4's stretch after its product writes. -/
abbrev wr_cTail4 : List (Ref sig .tc) :=
  [main_c_18, main_v85, main_v86, main_c_19, main_v87, main_v88, main_v89, main_v90, main_v91, main_v92, main_v93, main_v94, main_cst_20, main_v95, main_v96, main_v97, main_v98, main_v99, main_v100, main_cst_21, main_call4_cst, main_call4_v0, main_call4_v1, main_call4_v2, main_call4_v3, main_call4_v4, main_v101]
theorem writes_cTail4 : (cTail4 : List (HloOp τ sig (Elt F))).Forall fun op => op.writes ⊆ (wr_cTail4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer layer 4's stretch after its product does not write holds afterwards what it held before. -/
theorem keep_cTail4 (V : Valuation τ sig (Elt F)) (b : Ref sig .tc) (h : b ∉ wr_cTail4) :
    StableHlo.after cTail4 V (Proc.devRef .tc b) = V (Proc.devRef .tc b) :=
  StableHlo.after_of_writes_sub cTail4 _ writes_cTail4 h

/-- The buffers layer 5's product writes. -/
abbrev wr_cDot5 : List (Ref sig .tc) :=
  [main_v102]
theorem writes_cDot5 : (cDot5 : List (HloOp τ sig (Elt F))).Forall fun op => op.writes ⊆ (wr_cDot5.map (Proc.devRef (τ := τ) .tc)).toFinset := by
  simp only [List.Forall]
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer layer 5's product does not write holds afterwards what it held before. -/
theorem keep_cDot5 (V : Valuation τ sig (Elt F)) (b : Ref sig .tc) (h : b ∉ wr_cDot5) :
    StableHlo.after cDot5 V (Proc.devRef .tc b) = V (Proc.devRef .tc b) :=
  StableHlo.after_of_writes_sub cDot5 _ writes_cDot5 h

/-- The buffers layer 5's stretch after its product writes. -/
abbrev wr_cTail5 : List (Ref sig .tc) :=
  [main_c_22, main_v103, main_v104, main_c_23, main_v105, main_v106, main_v107, main_v108, main_v109, main_v110, main_v111, main_v112, main_cst_24, main_v113, main_v114, main_v115, main_v116, main_v117, main_v118, main_cst_25, main_call5_cst, main_call5_v0, main_call5_v1, main_call5_v2, main_call5_v3, main_call5_v4, main_v119]
theorem writes_cTail5 : (cTail5 : List (HloOp τ sig (Elt F))).Forall fun op => op.writes ⊆ (wr_cTail5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer layer 5's stretch after its product does not write holds afterwards what it held before. -/
theorem keep_cTail5 (V : Valuation τ sig (Elt F)) (b : Ref sig .tc) (h : b ∉ wr_cTail5) :
    StableHlo.after cTail5 V (Proc.devRef .tc b) = V (Proc.devRef .tc b) :=
  StableHlo.after_of_writes_sub cTail5 _ writes_cTail5 h

end Cert.ReferenceIdeal.Line

end
-- ==== Proof.StepPre.lean ====
/-
  What every layer shares, in the two programs.

  From the edge array both programs build the same things by the same operations, in three stretches. First each edge's
  source node and target node, with one self-loop per node appended, the in-degree of every node, whether it is
  positive, and its inverse square root. Then the inverse square root where the degree is positive and zero elsewhere —
  an outlined select, which the kernel program's text spells over typed references whose casts are identities. Then
  each edge's weight, the product of that quantity at the edge's two endpoints. Stretch by stretch, from contents that
  agree on what the stretch reads, the two programs leave the same arrays.
-/
import proofs.«130898_j20847771254912_2_alg».proof.Proof.RefOps
import proofs.«130898_j20847771254912_2_alg».proof.Proof.Gen.KernelIdeal.Launch
import Idealize.ShloMosaic.PureOps.Ideal

noncomputable section

namespace Cert.Bridge

open Idealize.ShloMosaic Idealize.ShloMosaic.TcCoe Idealize.SL.Sem Idealize.ShloMosaic.StableHlo

/-- Reads each operation's result at a buffer by rewriting, one operation at a time: it reaches the operands of a
    concatenation, which sit inside pairs of a shape and an array of that shape. -/
local macro "results_by_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The first stretch: endpoints and degrees, from the edge array -/

/-- The edges' source nodes, self-loops appended, agree. -/
theorem pre_source (Vk : Valuation Cert.KernelIdeal.τ Cert.KernelIdeal.sig (Elt Ideal))
    (Vr : Valuation Cert.ReferenceIdeal.τ Cert.ReferenceIdeal.sig (Elt Ideal))
    (he : Vr (Proc.devRef .tc Cert.ReferenceIdeal.main_arg1) = Vk (Proc.devRef .tc Cert.KernelIdeal.main_arg1)) :
    after Cert.ReferenceIdeal.Line.cPreA Vr (Proc.devRef .tc Cert.ReferenceIdeal.main_v3)
      = after Cert.KernelIdeal.Gen.hostOps0 Vk (Proc.devRef .tc Cert.KernelIdeal.main_v3) := by
  after_results_simp
  results_by_rw
  rw [he]
  rfl

/-- The edges' target nodes, self-loops appended, agree. -/
theorem pre_target (Vk : Valuation Cert.KernelIdeal.τ Cert.KernelIdeal.sig (Elt Ideal))
    (Vr : Valuation Cert.ReferenceIdeal.τ Cert.ReferenceIdeal.sig (Elt Ideal))
    (he : Vr (Proc.devRef .tc Cert.ReferenceIdeal.main_arg1) = Vk (Proc.devRef .tc Cert.KernelIdeal.main_arg1)) :
    after Cert.ReferenceIdeal.Line.cPreA Vr (Proc.devRef .tc Cert.ReferenceIdeal.main_v6)
      = after Cert.KernelIdeal.Gen.hostOps0 Vk (Proc.devRef .tc Cert.KernelIdeal.main_v6) := by
  after_results_simp
  results_by_rw
  rw [he]
  rfl

/-- Where the in-degree is positive agrees. -/
theorem pre_positive (Vk : Valuation Cert.KernelIdeal.τ Cert.KernelIdeal.sig (Elt Ideal))
    (Vr : Valuation Cert.ReferenceIdeal.τ Cert.ReferenceIdeal.sig (Elt Ideal))
    (he : Vr (Proc.devRef .tc Cert.ReferenceIdeal.main_arg1) = Vk (Proc.devRef .tc Cert.KernelIdeal.main_arg1)) :
    after Cert.ReferenceIdeal.Line.cPreA Vr (Proc.devRef .tc Cert.ReferenceIdeal.main_v12)
      = after Cert.KernelIdeal.Gen.hostOps0 Vk (Proc.devRef .tc Cert.KernelIdeal.main_v12) := by
  after_results_simp
  results_by_rw
  rw [he]
  rfl

/-- The inverse square roots of the in-degrees agree. -/
theorem pre_rsqrt (Vk : Valuation Cert.KernelIdeal.τ Cert.KernelIdeal.sig (Elt Ideal))
    (Vr : Valuation Cert.ReferenceIdeal.τ Cert.ReferenceIdeal.sig (Elt Ideal))
    (he : Vr (Proc.devRef .tc Cert.ReferenceIdeal.main_arg1) = Vk (Proc.devRef .tc Cert.KernelIdeal.main_arg1)) :
    after Cert.ReferenceIdeal.Line.cPreA Vr (Proc.devRef .tc Cert.ReferenceIdeal.main_v13)
      = after Cert.KernelIdeal.Gen.hostOps0 Vk (Proc.devRef .tc Cert.KernelIdeal.main_v13) := by
  after_results_simp
  results_by_rw
  rw [he]
  rfl

/-- The scalar zero the select falls back to is the same literal. -/
theorem pre_zero (Vk : Valuation Cert.KernelIdeal.τ Cert.KernelIdeal.sig (Elt Ideal))
    (Vr : Valuation Cert.ReferenceIdeal.τ Cert.ReferenceIdeal.sig (Elt Ideal)) :
    after Cert.ReferenceIdeal.Line.cPreA Vr (Proc.devRef .tc Cert.ReferenceIdeal.main_cst_2)
      = after Cert.KernelIdeal.Gen.hostOps0 Vk (Proc.devRef .tc Cert.KernelIdeal.main_cst_2) := by
  after_results_simp <;> rfl

/-! ## The outlined select -/

/-- From contents agreeing on the three things it reads, the select leaves the same array: the kernel program's typed
    references only cast along equalities of a buffer's type with itself. -/
theorem pre_select (Vk : Valuation Cert.KernelIdeal.τ Cert.KernelIdeal.sig (Elt Ideal))
    (Vr : Valuation Cert.ReferenceIdeal.τ Cert.ReferenceIdeal.sig (Elt Ideal))
    (hp : Vr (Proc.devRef .tc Cert.ReferenceIdeal.main_v12) = Vk (Proc.devRef .tc Cert.KernelIdeal.main_v12))
    (hr : Vr (Proc.devRef .tc Cert.ReferenceIdeal.main_v13) = Vk (Proc.devRef .tc Cert.KernelIdeal.main_v13))
    (hz : Vr (Proc.devRef .tc Cert.ReferenceIdeal.main_cst_2) = Vk (Proc.devRef .tc Cert.KernelIdeal.main_cst_2)) :
    after Cert.ReferenceIdeal.Line.cPreB Vr (Proc.devRef .tc Cert.ReferenceIdeal.main_v14)
      = after Cert.KernelIdeal.Gen.hostOps0_1 Vk (Proc.devRef .tc Cert.KernelIdeal.main_v14) := by
  after_results_simp
  rw [hp, hr, hz]
  rfl

/-! ## The edge weights -/

/-- From contents agreeing on the per-node quantity and on the edge endpoints, the edge weights agree. -/
theorem pre_weight (Vk : Valuation Cert.KernelIdeal.τ Cert.KernelIdeal.sig (Elt Ideal))
    (Vr : Valuation Cert.ReferenceIdeal.τ Cert.ReferenceIdeal.sig (Elt Ideal))
    (hd : Vr (Proc.devRef .tc Cert.ReferenceIdeal.main_v14) = Vk (Proc.devRef .tc Cert.KernelIdeal.main_v14))
    (hs : Vr (Proc.devRef .tc Cert.ReferenceIdeal.main_v3) = Vk (Proc.devRef .tc Cert.KernelIdeal.main_v3))
    (ht : Vr (Proc.devRef .tc Cert.ReferenceIdeal.main_v6) = Vk (Proc.devRef .tc Cert.KernelIdeal.main_v6)) :
    after Cert.ReferenceIdeal.Line.cPreC Vr (Proc.devRef .tc Cert.ReferenceIdeal.main_v29)
      = after Cert.KernelIdeal.Gen.hostOps0_2 Vk (Proc.devRef .tc Cert.KernelIdeal.main_v29) := by
  after_results_simp
  rw [hd, hs, ht]
  rfl

end Cert.Bridge

end
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.RefDots.lean ====
/-
  The reference's dense products, entry by entry.

  Each layer's product in the reference contracts the node features' columns with the weight's rows, no batch axis:
  at output entry `(e, q)` it reads the features at `(e, k)` and the weight at `(k, q)` for every `k`. On the exact
  extended reals it is the plain sum over `k` of their products.
-/
import proofs.«130898_j20847771254912_2_alg».proof.ReferenceIdeal
import proofs.«130898_j20847771254912_2_alg».proof.Proof.Gen.ReferenceIdeal
import proofs.«130898_j20847771254912_2_alg».proof.Proof.LibDense
import Idealize.ShloMosaic.PureOps.Ideal.Laws

noncomputable section

namespace Cert.ReferenceIdeal.Dots

open Cert.ReferenceIdeal Cert.ReferenceIdeal.Gen Idealize.ShloMosaic Idealize.ShloMosaic.ValueIdx

/-! ### `[100000, 8] × [8, 32]` -/

theorem dotA_lhs_row (i : S100000x32.Idx) (k : dot_S100000x8_S8x32_S100000x32_1_0_0_1_n_n.contr.Idx) :
    (dot_S100000x8_S8x32_S100000x32_1_0_0_1_n_n.lhsIdx i k 0).val = (i 0).val := by
  simp [DotDims.lhsIdx, dot_S100000x8_S8x32_S100000x32_1_0_0_1_n_n] <;> rfl
theorem dotA_lhs_col (i : S100000x32.Idx) (k : dot_S100000x8_S8x32_S100000x32_1_0_0_1_n_n.contr.Idx) :
    (dot_S100000x8_S8x32_S100000x32_1_0_0_1_n_n.lhsIdx i k 1).val = (k ⟨0, by decide⟩).val := by
  simp [DotDims.lhsIdx, dot_S100000x8_S8x32_S100000x32_1_0_0_1_n_n] <;> rfl
theorem dotA_rhs_row (i : S100000x32.Idx) (k : dot_S100000x8_S8x32_S100000x32_1_0_0_1_n_n.contr.Idx) :
    (dot_S100000x8_S8x32_S100000x32_1_0_0_1_n_n.rhsIdx i k 0).val = (k ⟨0, by decide⟩).val := by
  simp [DotDims.rhsIdx, dot_S100000x8_S8x32_S100000x32_1_0_0_1_n_n] <;> rfl
theorem dotA_rhs_col (i : S100000x32.Idx) (k : dot_S100000x8_S8x32_S100000x32_1_0_0_1_n_n.contr.Idx) :
    (dot_S100000x8_S8x32_S100000x32_1_0_0_1_n_n.rhsIdx i k 1).val = (i 1).val := by
  simp [DotDims.rhsIdx, dot_S100000x8_S8x32_S100000x32_1_0_0_1_n_n] <;> rfl

/-- The host product of `[100000, 8]` features with a `[8, 32]` weight at `(e, q)`: the sum over `k`. -/
theorem dotA_apply (A : FVec Ideal S100000x8 .f32) (W : FVec Ideal S8x32 .f32) (e : Fin 100000) (q : Fin 32) :
    Host.dotGeneral (F := Ideal) dot_S100000x8_S8x32_S100000x32_1_0_0_1_n_n none A W (ix2 e q) = ∑ k : Fin 8, A (ix2 e k) * W (ix2 k q) := by
  simp only [Host.dotGeneral]
  exact dotGeneral_plain_apply dot_S100000x8_S8x32_S100000x32_1_0_0_1_n_n none _ rfl rfl
    dotA_lhs_row dotA_lhs_col dotA_rhs_row dotA_rhs_col A W e q

/-! ### `[100000, 32] × [32, 32]` -/

theorem dotB_lhs_row (i : S100000x32.Idx) (k : dot_S100000x32_S32x32_S100000x32_1_0_0_1_n_n.contr.Idx) :
    (dot_S100000x32_S32x32_S100000x32_1_0_0_1_n_n.lhsIdx i k 0).val = (i 0).val := by
  simp [DotDims.lhsIdx, dot_S100000x32_S32x32_S100000x32_1_0_0_1_n_n] <;> rfl
theorem dotB_lhs_col (i : S100000x32.Idx) (k : dot_S100000x32_S32x32_S100000x32_1_0_0_1_n_n.contr.Idx) :
    (dot_S100000x32_S32x32_S100000x32_1_0_0_1_n_n.lhsIdx i k 1).val = (k ⟨0, by decide⟩).val := by
  simp [DotDims.lhsIdx, dot_S100000x32_S32x32_S100000x32_1_0_0_1_n_n] <;> rfl
theorem dotB_rhs_row (i : S100000x32.Idx) (k : dot_S100000x32_S32x32_S100000x32_1_0_0_1_n_n.contr.Idx) :
    (dot_S100000x32_S32x32_S100000x32_1_0_0_1_n_n.rhsIdx i k 0).val = (k ⟨0, by decide⟩).val := by
  simp [DotDims.rhsIdx, dot_S100000x32_S32x32_S100000x32_1_0_0_1_n_n] <;> rfl
theorem dotB_rhs_col (i : S100000x32.Idx) (k : dot_S100000x32_S32x32_S100000x32_1_0_0_1_n_n.contr.Idx) :
    (dot_S100000x32_S32x32_S100000x32_1_0_0_1_n_n.rhsIdx i k 1).val = (i 1).val := by
  simp [DotDims.rhsIdx, dot_S100000x32_S32x32_S100000x32_1_0_0_1_n_n] <;> rfl

/-- The host product of `[100000, 32]` features with a `[32, 32]` weight at `(e, q)`: the sum over `k`. -/
theorem dotB_apply (A : FVec Ideal S100000x32 .f32) (W : FVec Ideal S32x32 .f32) (e : Fin 100000) (q : Fin 32) :
    Host.dotGeneral (F := Ideal) dot_S100000x32_S32x32_S100000x32_1_0_0_1_n_n none A W (ix2 e q) = ∑ k : Fin 32, A (ix2 e k) * W (ix2 k q) := by
  simp only [Host.dotGeneral]
  exact dotGeneral_plain_apply dot_S100000x32_S32x32_S100000x32_1_0_0_1_n_n none _ rfl rfl
    dotB_lhs_row dotB_lhs_col dotB_rhs_row dotB_rhs_col A W e q

/-! ### `[100000, 32] × [32, 3]` -/

theorem dotC_lhs_row (i : S100000x3.Idx) (k : dot_S100000x32_S32x3_S100000x3_1_0_0_1_n_n.contr.Idx) :
    (dot_S100000x32_S32x3_S100000x3_1_0_0_1_n_n.lhsIdx i k 0).val = (i 0).val := by
  simp [DotDims.lhsIdx, dot_S100000x32_S32x3_S100000x3_1_0_0_1_n_n] <;> rfl
theorem dotC_lhs_col (i : S100000x3.Idx) (k : dot_S100000x32_S32x3_S100000x3_1_0_0_1_n_n.contr.Idx) :
    (dot_S100000x32_S32x3_S100000x3_1_0_0_1_n_n.lhsIdx i k 1).val = (k ⟨0, by decide⟩).val := by
  simp [DotDims.lhsIdx, dot_S100000x32_S32x3_S100000x3_1_0_0_1_n_n] <;> rfl
theorem dotC_rhs_row (i : S100000x3.Idx) (k : dot_S100000x32_S32x3_S100000x3_1_0_0_1_n_n.contr.Idx) :
    (dot_S100000x32_S32x3_S100000x3_1_0_0_1_n_n.rhsIdx i k 0).val = (k ⟨0, by decide⟩).val := by
  simp [DotDims.rhsIdx, dot_S100000x32_S32x3_S100000x3_1_0_0_1_n_n] <;> rfl
theorem dotC_rhs_col (i : S100000x3.Idx) (k : dot_S100000x32_S32x3_S100000x3_1_0_0_1_n_n.contr.Idx) :
    (dot_S100000x32_S32x3_S100000x3_1_0_0_1_n_n.rhsIdx i k 1).val = (i 1).val := by
  simp [DotDims.rhsIdx, dot_S100000x32_S32x3_S100000x3_1_0_0_1_n_n] <;> rfl

/-- The host product of `[100000, 32]` features with a `[32, 3]` weight at `(e, q)`: the sum over `k`. -/
theorem dotC_apply (A : FVec Ideal S100000x32 .f32) (W : FVec Ideal S32x3 .f32) (e : Fin 100000) (q : Fin 3) :
    Host.dotGeneral (F := Ideal) dot_S100000x32_S32x3_S100000x3_1_0_0_1_n_n none A W (ix2 e q) = ∑ k : Fin 32, A (ix2 e k) * W (ix2 k q) := by
  simp only [Host.dotGeneral]
  exact dotGeneral_plain_apply dot_S100000x32_S32x3_S100000x3_1_0_0_1_n_n none _ rfl rfl
    dotC_lhs_row dotC_lhs_col dotC_rhs_row dotC_rhs_col A W e q

end Cert.ReferenceIdeal.Dots

end
-- ==== Proof.Dense0.lean ====
/-
  Region 0 of the program: one dense layer, `h @ W` with `h : [100000, 8]` and `W : [8, 32]`.

  The grid has ten points. Point `t` reads rows `10000 t … 10000 t + 9999` of `h` and the whole of `W`, multiplies the
  two blocks into a zero accumulator and writes the `[10000, 32]` result over rows `10000 t …` of the output. At the exact
  extended-real values a change of float format is the identity, so entry `(r, q)` of a point's block is
  `∑ k, h_blk (r, k) · W (k, q)`; the ten row blocks tile the output (row `e` lies in the block of point `e / 10000`), so
  after the ten write-backs the output array at `(e, q)` is `∑ k, h (e, k) · W (k, q)`, with `h` and `W` the arrays as the
  region found them.
-/
import proofs.«130898_j20847771254912_2_alg».proof.Proof.Gen.KernelIdeal.Frame
import proofs.«130898_j20847771254912_2_alg».proof.Proof.LibDense
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Dense

open Cert.KernelIdeal Cert.KernelIdeal.Gen

/-- The offsets of an access to a whole block, however they are spelt. -/
theorem zeroOffsets0 : (![0, 0] : Fin 2 → Nat) = fun _ => 0 := funext fun a => by fin_cases a <;> rfl

/-! ## Where the block product reads its operands

At output entry `i` and contraction position `k` the left operand is read at `(i 0, k)` and the right one at `(k, i 1)`. -/

theorem dot0_lhs_row (i : S10000x32.Idx) (k : dot_S10000x8_S8x32_S10000x32_1_0_0_1_n_n.contr.Idx) :
    (dot_S10000x8_S8x32_S10000x32_1_0_0_1_n_n.lhsIdx i k 0).val = (i 0).val := by
  simp [DotDims.lhsIdx, dot_S10000x8_S8x32_S10000x32_1_0_0_1_n_n]; rfl
theorem dot0_lhs_col (i : S10000x32.Idx) (k : dot_S10000x8_S8x32_S10000x32_1_0_0_1_n_n.contr.Idx) :
    (dot_S10000x8_S8x32_S10000x32_1_0_0_1_n_n.lhsIdx i k 1).val = (k ⟨0, by decide⟩).val := by
  simp [DotDims.lhsIdx, dot_S10000x8_S8x32_S10000x32_1_0_0_1_n_n]; rfl
theorem dot0_rhs_row (i : S10000x32.Idx) (k : dot_S10000x8_S8x32_S10000x32_1_0_0_1_n_n.contr.Idx) :
    (dot_S10000x8_S8x32_S10000x32_1_0_0_1_n_n.rhsIdx i k 0).val = (k ⟨0, by decide⟩).val := by
  simp [DotDims.rhsIdx, dot_S10000x8_S8x32_S10000x32_1_0_0_1_n_n]; rfl
theorem dot0_rhs_col (i : S10000x32.Idx) (k : dot_S10000x8_S8x32_S10000x32_1_0_0_1_n_n.contr.Idx) :
    (dot_S10000x8_S8x32_S10000x32_1_0_0_1_n_n.rhsIdx i k 1).val = (i 1).val := by
  simp [DotDims.rhsIdx, dot_S10000x8_S8x32_S10000x32_1_0_0_1_n_n]; rfl

/-! ## What the body leaves in the output block, entry by entry -/

/-- Row `r`, column `q` of the block the body stores is the sum over `k` of the input block's `(r, k)` times the
    weight's `(k, q)`: the change of format is the identity on the exact values and the accumulator starts at zero. -/
theorem out0_apply (x0 : Vec Ideal S10000x8 .f32) (x1 : Vec Ideal S8x32 .f32) (r : Fin 10000) (q : Fin 32) :
    Gen.out0_2 (F := Ideal) x0 x1 (ix2 r q) = ∑ k : Fin 8, x0 (ix2 r k) * x1 (ix2 k q) := by
  unfold Gen.out0_2
  rw [View.canon_unit_zero zeroOffsets0]
  simp only [View.ld_unit_zero (S := S10000x8) zeroOffsets0, View.ld_unit_zero (S := S8x32) zeroOffsets0]
  unfold Gen.k0_pay1
  exact matmul_zero_plain_apply dot_S10000x8_S8x32_S10000x32_1_0_0_1_n_n none rfl rfl
    dot0_lhs_row dot0_lhs_col dot0_rhs_row dot0_rhs_col _ _ r q

/-! ## The blocks, as rows of the arrays -/

/-- The printed index maps, decided over the grid: point `t` reads row block `t` of the input, the whole weight, and
    writes row block `t` of the output. -/
theorem blockIndices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input block at point `t` is rows `10000 t … 10000 t + 9999` of the input array. -/
theorem inputBlock0_apply (V : (c : Dev nD) → (b : Ref sig .tc) → Buf (Elt Ideal) ((c : Thread nD τ).loc b)) (c : Dev nD)
    (A : FVec Ideal S100000x8 .f32) (hA : V c (Pipeline.arrRef spec0 0) = A)
    (t : Fin cfg0.N) (r : Fin 10000) (k : Fin 8) (e : Fin 100000) (he : e.val = 10000 * t.val + r.val) :
    (Gen.iblk0 V c 0 t : Vec Ideal S10000x8 .f32) (ix2 r k) = A (ix2 e k) := by
  subst hA
  obtain ⟨h0, h1, -⟩ := blockIndices0 t
  unfold Gen.iblk0
  rw [View.read_apply]
  show (V c (Pipeline.arrRef spec0 0) : FVec Ideal S100000x8 .f32) _ = _
  refine congrArg _ (funext fun a => Fin.ext ?_)
  match a with
  | ⟨0, _⟩ => show win0_0.index t (0 : Fin 2) * 10000 + 1 * r.val = e.val; omega
  | ⟨1, _⟩ => show win0_0.index t (1 : Fin 2) * 8 + 1 * k.val = k.val; omega

/-- The weight block at every point is the weight array. -/
theorem weightBlock0_apply (V : (c : Dev nD) → (b : Ref sig .tc) → Buf (Elt Ideal) ((c : Thread nD τ).loc b)) (c : Dev nD)
    (W : FVec Ideal S8x32 .f32) (hW : V c (Pipeline.arrRef spec0 1) = W)
    (t : Fin cfg0.N) (k : Fin 8) (q q' : Fin 32) (hq : q'.val = q.val) :
    (Gen.iblk0 V c 1 t : Vec Ideal S8x32 .f32) (ix2 k q) = W (ix2 k q') := by
  subst hW
  obtain ⟨-, -, h0, h1, -⟩ := blockIndices0 t
  unfold Gen.iblk0
  rw [View.read_apply]
  show (V c (Pipeline.arrRef spec0 1) : FVec Ideal S8x32 .f32) _ = _
  refine congrArg _ (funext fun a => Fin.ext ?_)
  match a with
  | ⟨0, _⟩ => show win0_1.index t (0 : Fin 2) * 8 + 1 * k.val = k.val; omega
  | ⟨1, _⟩ => show win0_1.index t (1 : Fin 2) * 32 + 1 * q.val = q'.val; omega

/-! ## From the blocks to the array -/

/-- The product of the input array and the weight, entry by entry. -/
def product0 (A : FVec Ideal S100000x8 .f32) (W : FVec Ideal S8x32 .f32) : FVec Ideal S100000x32 .f32 :=
  fun i => ∑ k : Fin 8, A (ix2 ⟨(i 0).val, idx2_lt0 i⟩ k) * W (ix2 k ⟨(i 1).val, idx2_lt1 i⟩)

theorem product0_apply (A : FVec Ideal S100000x8 .f32) (W : FVec Ideal S8x32 .f32) (e : Fin 100000) (q : Fin 32) :
    product0 A W (ix2 e q) = ∑ k : Fin 8, A (ix2 e k) * W (ix2 k q) := rfl

/-- What point `t` writes back is block `t` of the product of the arrays as the region finds them. -/
theorem flushed0_eq (V : (c : Dev nD) → (b : Ref sig .tc) → Buf (Elt Ideal) ((c : Thread nD τ).loc b)) (c : Dev nD)
    (A : FVec Ideal S100000x8 .f32) (W : FVec Ideal S8x32 .f32)
    (hA : V c (Pipeline.arrRef spec0 0) = A) (hW : V c (Pipeline.arrRef spec0 1) = W) (t : Fin cfg0.N) :
    (Gen.dat0 (F := Ideal) V c).flushed 2 t = ((cfg0.win 2).blk t).view.read (Elt Ideal) (product0 A W) := by
  show (cfg0.win 2).cut (grid0.coords t) ((Gen.dat0 (F := Ideal) V c).after 2 t) = _
  rw [Gen.after0_2]
  obtain ⟨-, -, -, -, h0, h1⟩ := blockIndices0 t
  funext j
  obtain ⟨r, q, rfl⟩ : ∃ (r : Fin 10000) (q : Fin 32), j = ix2 r q := ⟨j 0, j 1, eq_ix2 j⟩
  rw [View.read_apply]
  show Gen.out0_2 (F := Ideal) (Gen.iblk0 V c 0 t) (Gen.iblk0 V c 1 t) (ix2 r q)
    = product0 A W (((cfg0.win 2).blk t).view.emb (ix2 r q))
  refine (out0_apply (Gen.iblk0 V c 0 t) (Gen.iblk0 V c 1 t) r q).trans ?_
  refine Finset.sum_congr rfl fun k _ => ?_
  refine congrArg₂ (· * ·) (inputBlock0_apply V c A hA t r k _ ?_) (weightBlock0_apply V c W hW t k q _ ?_)
  · show win0_2.index t (0 : Fin 2) * 10000 + 1 * r.val = 10000 * t.val + r.val; omega
  · show win0_2.index t (1 : Fin 2) * 32 + 1 * q.val = q.val; omega

/-- An index of the output array is in point `t`'s block iff each coordinate is in the block's range on its axis. -/
theorem mem_outputBlock0 (t : Fin cfg0.N) (i : S100000x32.Idx) :
    i ∈ ((cfg0.win 2).blk t).view.set ↔ ∀ a : Fin 2, win0_2.index t a * S10000x32.size a ≤ (i a).val
      ∧ (i a).val < win0_2.index t a * S10000x32.size a + S10000x32.size a := by
  show i ∈ ((View.whole main_v30).slice (win0_2.rect t)).set ↔ _
  rw [View.set_slice_whole, Rect.mem_set_unit]
  exact Iff.rfl

/-- Every row of the output array is in the block of the point its row number divided by 10000 names. -/
theorem covered0 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 10 := Gen.N_0
  have ht : (i 0).val / 10000 < cfg0.N := by rw [hN]; omega
  obtain ⟨-, -, -, -, h0, h1⟩ := blockIndices0 ⟨(i 0).val / 10000, ht⟩
  have h0' : win0_2.index ⟨(i 0).val / 10000, ht⟩ (0 : Fin 2) = (i 0).val / 10000 := h0
  refine ⟨⟨(i 0).val / 10000, ht⟩, Gen.flush0_2 _, ?_⟩
  rw [mem_outputBlock0]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    omega
  | ⟨1, _⟩ =>
    show win0_2.index ⟨(i 0).val / 10000, ht⟩ (1 : Fin 2) * 32 ≤ (i 1).val
      ∧ (i 1).val < win0_2.index ⟨(i 0).val / 10000, ht⟩ (1 : Fin 2) * 32 + 32
    omega

/-- THE OUTPUT ARRAY after the region's ten write-backs is the product of the input array and the weight as the
    region found them. -/
theorem dense0_array (V : (c : Dev nD) → (b : Ref sig .tc) → Buf (Elt Ideal) ((c : Thread nD τ).loc b)) (c : Dev nD)
    (A : FVec Ideal S100000x8 .f32) (W : FVec Ideal S8x32 .f32)
    (hA : V c (Pipeline.arrRef spec0 0) = A) (hW : V c (Pipeline.arrRef spec0 1) = W) :
    (Gen.dat0 (F := Ideal) V c).arrAt 2 cfg0.N = product0 A W :=
  (Gen.dat0 (F := Ideal) V c).arrAt_eq_of_cover 2 (product0 A W) (fun t _ => flushed0_eq V c A W hA hW t) covered0

/-- Entry by entry: the output array at `(e, q)` is the sum over `k` of the input array at `(e, k)` times the weight at
    `(k, q)`. -/
theorem dense0 (V : (c : Dev nD) → (b : Ref sig .tc) → Buf (Elt Ideal) ((c : Thread nD τ).loc b)) (c : Dev nD)
    (A : FVec Ideal S100000x8 .f32) (W : FVec Ideal S8x32 .f32) (O : FVec Ideal S100000x32 .f32)
    (hA : V c (Pipeline.arrRef spec0 0) = A) (hW : V c (Pipeline.arrRef spec0 1) = W)
    (hO : (Gen.dat0 (F := Ideal) V c).arrAt 2 cfg0.N = O) (e : Fin 100000) (q : Fin 32) :
    O (ix2 e q) = ∑ k : Fin 8, A (ix2 e k) * W (ix2 k q) := by
  rw [← hO, dense0_array V c A W hA hW]
  rfl

end Cert.KernelIdeal.Dense

end
-- ==== Proof.StepDot1.lean ====
/-
  Layer 1's dense product, in the two programs.

  The reference multiplies the whole `[100000, ·]` feature array by the weight in one host product. The kernel program
  does it in ten row blocks of 10000 rows, each block's product written over its rows of the output; the ten blocks
  tile the output, so after the region the output array is the product of the arrays the region found. Both are, entry
  by entry, the sum over `k` of features `(e, k)` times weight `(k, q)`: from contents that agree on the features and
  on the weight, the two programs leave the same product.
-/
import proofs.«130898_j20847771254912_2_alg».proof.Proof.RefOps
import proofs.«130898_j20847771254912_2_alg».proof.Proof.RefDots
import proofs.«130898_j20847771254912_2_alg».proof.Proof.Dense0

noncomputable section

namespace Cert.Bridge

open Idealize.ShloMosaic Idealize.ShloMosaic.TcCoe Idealize.SL.Sem Idealize.ShloMosaic.StableHlo
open Idealize.ShloMosaic.ValueIdx

/-- Layer 1: the reference's product is the array the kernel program's region 0 leaves. -/
theorem dot1 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (Vr : Valuation Cert.ReferenceIdeal.τ Cert.ReferenceIdeal.sig (Elt Ideal))
    (hx : Vr (Proc.devRef .tc Cert.ReferenceIdeal.main_arg0) = Cert.KernelIdeal.Gen.W3 m ρ c (Proc.devRef .tc Cert.KernelIdeal.main_arg0))
    (hw : Vr (Proc.devRef .tc Cert.ReferenceIdeal.main_arg2) = Cert.KernelIdeal.Gen.W3 m ρ c (Proc.devRef .tc Cert.KernelIdeal.main_arg2)) :
    after Cert.ReferenceIdeal.Line.cDot1 Vr (Proc.devRef .tc Cert.ReferenceIdeal.main_v30)
      = Cert.KernelIdeal.Gen.W4 m ρ c (Proc.devRef .tc Cert.KernelIdeal.main_v30) := by
  after_results_simp
  rw [hx, hw]
  obtain ⟨A, hA⟩ : ∃ A : FVec Ideal Cert.KernelIdeal.S100000x8 .f32, Cert.KernelIdeal.Gen.W3 m ρ c (Proc.devRef .tc Cert.KernelIdeal.main_arg0) = A := ⟨_, rfl⟩
  obtain ⟨W, hW⟩ : ∃ W : FVec Ideal Cert.KernelIdeal.S8x32 .f32, Cert.KernelIdeal.Gen.W3 m ρ c (Proc.devRef .tc Cert.KernelIdeal.main_arg2) = W := ⟨_, rfl⟩
  rw [hA, hW]
  refine Eq.trans ?_ ((Cert.KernelIdeal.Dense.dense0_array (Cert.KernelIdeal.Gen.V3 m ρ) c A W hA hW).symm.trans
    (Cert.KernelIdeal.Gen.W4_arr m ρ c 2).symm)
  funext i
  obtain ⟨e, q, rfl⟩ : ∃ (e : Fin 100000) (q : Fin 32), i = ix2 e q := ⟨i 0, i 1, eq_ix2 i⟩
  exact (Cert.ReferenceIdeal.Dots.dotA_apply A W e q).trans (Cert.KernelIdeal.Dense.product0_apply A W e q).symm

end Cert.Bridge

end
-- ==== Proof.Rectifier.lean ====
/-
  The slope-one leaky rectifier is the identity on the extended reals.

  The rectifier with slope `a` sends `x` to `x` where `x ≥ 0` and to `a · x` elsewhere. With `a = 1` both branches are
  `x`: `1 · x = x` for every extended real, the infinities included, so the selection returns `x` whichever way the
  comparison goes. The float literal `1.0` (the word `0x3F800000`) denotes the real number one.
-/
import Idealize.ShloMosaic.PureOps.Ideal
import Idealize.ShloMosaic.PureOps.Ideal.Laws
import Idealize.ShloMosaic.Lib.ValueIdx
import Idealize.ShloMosaic.Lib.Pipeline.Value

namespace Cert.Bridge

open Idealize.ShloMosaic Idealize.ShloMosaic.ValueIdx

/-- The word of the float `1.0` denotes the real number one. -/
theorem ofBits_one : Ideal.ofBits .f32 0x3F800000#32 = 1 := by
  simp [Ideal.ofBits, Ideal.ieee, -EReal.coe_mul]; norm_num

/-- The scalar `1.0` broadcast over an array holds one at every index. -/
theorem broadcast_one_apply {S : Shape} (hb : (⟨0, ![]⟩ : Shape).BroadcastsInDim S (![] : Fin 0 → Fin S.rank)) (i : S.Idx) :
    broadcastInDim S ![] hb (id (constant (F := Ideal) ⟨0, ![]⟩ .f32 0x3F800000#32)) i = (1 : EReal) :=
  (broadcastInDim_apply (s := ⟨0, ![]⟩) (t := S) (![] : Fin 0 → Fin S.rank) hb
    (id (constant (F := Ideal) ⟨0, ![]⟩ .f32 0x3F800000#32)) i (fun a => a.elim0) (fun a => a.elim0)).trans ofBits_one

/-- Selecting between `x` and `1 · x` gives `x`, whatever the condition. -/
theorem rectifier_slope_one {S : Shape} (hb : (⟨0, ![]⟩ : Shape).BroadcastsInDim S (![] : Fin 0 → Fin S.rank))
    (c : IVec S 1) (x : FVec Ideal S .f32) :
    select c x (mulf (broadcastInDim S ![] hb (id (constant (F := Ideal) ⟨0, ![]⟩ .f32 0x3F800000#32))) x) = x := by
  funext i
  have h1 : mulf (broadcastInDim S ![] hb (id (constant (F := Ideal) ⟨0, ![]⟩ .f32 0x3F800000#32))) x i = x i :=
    (mulf_apply _ x i).trans ((congrArg (· * x i) (broadcast_one_apply hb i)).trans (one_mul (x i)))
  refine (select_apply c x _ i).trans ?_
  rw [h1]
  unfold Scalar.select
  split <;> rfl

end Cert.Bridge
-- ==== Proof.StepTail1.lean ====
/-
  Layer 1 after its dense product, in the two programs.

  Both programs gather each edge's source row of the product, scale it by the edge's weight, add the rows into their
  target nodes and add the bias row; the reference then applies the leaky rectifier with slope one, which is the
  identity on the extended reals. So from contents that agree on the product, on the edge endpoints, on the edge weights
  and on the bias, the reference's stretch and the kernel program's stretch leave the same array.
-/
import proofs.«130898_j20847771254912_2_alg».proof.Proof.RefOps
import proofs.«130898_j20847771254912_2_alg».proof.Proof.Gen.KernelIdeal.Launch
import proofs.«130898_j20847771254912_2_alg».proof.Proof.Rectifier

noncomputable section

namespace Cert.Bridge

open Idealize.ShloMosaic Idealize.ShloMosaic.TcCoe Idealize.SL.Sem Idealize.ShloMosaic.StableHlo

/-- Layer 1: the reference's aggregated, biased and rectified rows are the kernel program's aggregated and biased rows. -/
theorem tail1 (Vk : Valuation Cert.KernelIdeal.τ Cert.KernelIdeal.sig (Elt Ideal))
    (Vr : Valuation Cert.ReferenceIdeal.τ Cert.ReferenceIdeal.sig (Elt Ideal))
    (hin : Vr (Proc.devRef .tc Cert.ReferenceIdeal.main_v30) = Vk (Proc.devRef .tc Cert.KernelIdeal.main_v30))
    (h3 : Vr (Proc.devRef .tc Cert.ReferenceIdeal.main_v3) = Vk (Proc.devRef .tc Cert.KernelIdeal.main_v3))
    (h6 : Vr (Proc.devRef .tc Cert.ReferenceIdeal.main_v6) = Vk (Proc.devRef .tc Cert.KernelIdeal.main_v6))
    (h29 : Vr (Proc.devRef .tc Cert.ReferenceIdeal.main_v29) = Vk (Proc.devRef .tc Cert.KernelIdeal.main_v29))
    (hb : Vr (Proc.devRef .tc Cert.ReferenceIdeal.main_arg3) = Vk (Proc.devRef .tc Cert.KernelIdeal.main_arg3)) :
    after Cert.ReferenceIdeal.Line.cTail1 Vr (Proc.devRef .tc Cert.ReferenceIdeal.main_v47)
      = after Cert.KernelIdeal.Gen.hostOps1 Vk (Proc.devRef .tc Cert.KernelIdeal.main_v46) := by
  after_results_simp
  rw [hin, h3, h6, h29, hb]
  exact rectifier_slope_one _ _ _

end Cert.Bridge

end
-- ==== Proof.Dense1.lean ====
/-
  Region 1 of the program: one dense layer, `h @ W` with `h : [100000, 32]` and `W : [32, 32]`.

  The grid has ten points. Point `t` reads rows `10000 t … 10000 t + 9999` of `h` and the whole of `W`, multiplies the
  two blocks into a zero accumulator and writes the `[10000, 32]` result over rows `10000 t …` of the output. At the exact
  extended-real values a change of float format is the identity, so entry `(r, q)` of a point's block is
  `∑ k, h_blk (r, k) · W (k, q)`; the ten row blocks tile the output (row `e` lies in the block of point `e / 10000`), so
  after the ten write-backs the output array at `(e, q)` is `∑ k, h (e, k) · W (k, q)`, with `h` and `W` the arrays as the
  region found them.
-/
import proofs.«130898_j20847771254912_2_alg».proof.Proof.Gen.KernelIdeal.Frame
import proofs.«130898_j20847771254912_2_alg».proof.Proof.LibDense
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Dense

open Cert.KernelIdeal Cert.KernelIdeal.Gen

/-- The offsets of an access to a whole block, however they are spelt. -/
theorem zeroOffsets1 : (![0, 0] : Fin 2 → Nat) = fun _ => 0 := funext fun a => by fin_cases a <;> rfl

/-! ## Where the block product reads its operands

At output entry `i` and contraction position `k` the left operand is read at `(i 0, k)` and the right one at `(k, i 1)`. -/

theorem dot1_lhs_row (i : S10000x32.Idx) (k : dot_S10000x32_S32x32_S10000x32_1_0_0_1_n_n.contr.Idx) :
    (dot_S10000x32_S32x32_S10000x32_1_0_0_1_n_n.lhsIdx i k 0).val = (i 0).val := by
  simp [DotDims.lhsIdx, dot_S10000x32_S32x32_S10000x32_1_0_0_1_n_n]; rfl
theorem dot1_lhs_col (i : S10000x32.Idx) (k : dot_S10000x32_S32x32_S10000x32_1_0_0_1_n_n.contr.Idx) :
    (dot_S10000x32_S32x32_S10000x32_1_0_0_1_n_n.lhsIdx i k 1).val = (k ⟨0, by decide⟩).val := by
  simp [DotDims.lhsIdx, dot_S10000x32_S32x32_S10000x32_1_0_0_1_n_n]; rfl
theorem dot1_rhs_row (i : S10000x32.Idx) (k : dot_S10000x32_S32x32_S10000x32_1_0_0_1_n_n.contr.Idx) :
    (dot_S10000x32_S32x32_S10000x32_1_0_0_1_n_n.rhsIdx i k 0).val = (k ⟨0, by decide⟩).val := by
  simp [DotDims.rhsIdx, dot_S10000x32_S32x32_S10000x32_1_0_0_1_n_n]; rfl
theorem dot1_rhs_col (i : S10000x32.Idx) (k : dot_S10000x32_S32x32_S10000x32_1_0_0_1_n_n.contr.Idx) :
    (dot_S10000x32_S32x32_S10000x32_1_0_0_1_n_n.rhsIdx i k 1).val = (i 1).val := by
  simp [DotDims.rhsIdx, dot_S10000x32_S32x32_S10000x32_1_0_0_1_n_n]; rfl

/-! ## What the body leaves in the output block, entry by entry -/

/-- Row `r`, column `q` of the block the body stores is the sum over `k` of the input block's `(r, k)` times the
    weight's `(k, q)`: the change of format is the identity on the exact values and the accumulator starts at zero. -/
theorem out1_apply (x0 : Vec Ideal S10000x32 .f32) (x1 : Vec Ideal S32x32 .f32) (r : Fin 10000) (q : Fin 32) :
    Gen.out1_2 (F := Ideal) x0 x1 (ix2 r q) = ∑ k : Fin 32, x0 (ix2 r k) * x1 (ix2 k q) := by
  unfold Gen.out1_2
  rw [View.canon_unit_zero zeroOffsets1]
  simp only [View.ld_unit_zero (S := S10000x32) zeroOffsets1, View.ld_unit_zero (S := S32x32) zeroOffsets1]
  unfold Gen.k1_pay1
  refine (matmul_zero_plain_apply dot_S10000x32_S32x32_S10000x32_1_0_0_1_n_n none rfl rfl
    dot1_lhs_row dot1_lhs_col dot1_rhs_row dot1_rhs_col _ _ r q).trans ?_
  refine Finset.sum_congr rfl fun k _ => ?_
  refine congrArg₂ (· * ·) ?_ rfl
  show shapeCast S10000x32 x0 Gen.shapeCasts_S10000x32_S10000x32 (ix2 r k) = x0 (ix2 r k)
  rw [shapeCast_self]

/-! ## The blocks, as rows of the arrays -/

/-- The printed index maps, decided over the grid: point `t` reads row block `t` of the input, the whole weight, and
    writes row block `t` of the output. -/
theorem blockIndices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input block at point `t` is rows `10000 t … 10000 t + 9999` of the input array. -/
theorem inputBlock1_apply (V : (c : Dev nD) → (b : Ref sig .tc) → Buf (Elt Ideal) ((c : Thread nD τ).loc b)) (c : Dev nD)
    (A : FVec Ideal S100000x32 .f32) (hA : V c (Pipeline.arrRef spec1 0) = A)
    (t : Fin cfg1.N) (r : Fin 10000) (k : Fin 32) (e : Fin 100000) (he : e.val = 10000 * t.val + r.val) :
    (Gen.iblk1 V c 0 t : Vec Ideal S10000x32 .f32) (ix2 r k) = A (ix2 e k) := by
  subst hA
  obtain ⟨h0, h1, -⟩ := blockIndices1 t
  unfold Gen.iblk1
  rw [View.read_apply]
  show (V c (Pipeline.arrRef spec1 0) : FVec Ideal S100000x32 .f32) _ = _
  refine congrArg _ (funext fun a => Fin.ext ?_)
  match a with
  | ⟨0, _⟩ => show win1_0.index t (0 : Fin 2) * 10000 + 1 * r.val = e.val; omega
  | ⟨1, _⟩ => show win1_0.index t (1 : Fin 2) * 32 + 1 * k.val = k.val; omega

/-- The weight block at every point is the weight array. -/
theorem weightBlock1_apply (V : (c : Dev nD) → (b : Ref sig .tc) → Buf (Elt Ideal) ((c : Thread nD τ).loc b)) (c : Dev nD)
    (W : FVec Ideal S32x32 .f32) (hW : V c (Pipeline.arrRef spec1 1) = W)
    (t : Fin cfg1.N) (k : Fin 32) (q q' : Fin 32) (hq : q'.val = q.val) :
    (Gen.iblk1 V c 1 t : Vec Ideal S32x32 .f32) (ix2 k q) = W (ix2 k q') := by
  subst hW
  obtain ⟨-, -, h0, h1, -⟩ := blockIndices1 t
  unfold Gen.iblk1
  rw [View.read_apply]
  show (V c (Pipeline.arrRef spec1 1) : FVec Ideal S32x32 .f32) _ = _
  refine congrArg _ (funext fun a => Fin.ext ?_)
  match a with
  | ⟨0, _⟩ => show win1_1.index t (0 : Fin 2) * 32 + 1 * k.val = k.val; omega
  | ⟨1, _⟩ => show win1_1.index t (1 : Fin 2) * 32 + 1 * q.val = q'.val; omega

/-! ## From the blocks to the array -/

/-- The product of the input array and the weight, entry by entry. -/
def product1 (A : FVec Ideal S100000x32 .f32) (W : FVec Ideal S32x32 .f32) : FVec Ideal S100000x32 .f32 :=
  fun i => ∑ k : Fin 32, A (ix2 ⟨(i 0).val, idx2_lt0 i⟩ k) * W (ix2 k ⟨(i 1).val, idx2_lt1 i⟩)

theorem product1_apply (A : FVec Ideal S100000x32 .f32) (W : FVec Ideal S32x32 .f32) (e : Fin 100000) (q : Fin 32) :
    product1 A W (ix2 e q) = ∑ k : Fin 32, A (ix2 e k) * W (ix2 k q) := rfl

/-- What point `t` writes back is block `t` of the product of the arrays as the region finds them. -/
theorem flushed1_eq (V : (c : Dev nD) → (b : Ref sig .tc) → Buf (Elt Ideal) ((c : Thread nD τ).loc b)) (c : Dev nD)
    (A : FVec Ideal S100000x32 .f32) (W : FVec Ideal S32x32 .f32)
    (hA : V c (Pipeline.arrRef spec1 0) = A) (hW : V c (Pipeline.arrRef spec1 1) = W) (t : Fin cfg1.N) :
    (Gen.dat1 (F := Ideal) V c).flushed 2 t = ((cfg1.win 2).blk t).view.read (Elt Ideal) (product1 A W) := by
  show (cfg1.win 2).cut (grid1.coords t) ((Gen.dat1 (F := Ideal) V c).after 2 t) = _
  rw [Gen.after1_2]
  obtain ⟨-, -, -, -, h0, h1⟩ := blockIndices1 t
  funext j
  obtain ⟨r, q, rfl⟩ : ∃ (r : Fin 10000) (q : Fin 32), j = ix2 r q := ⟨j 0, j 1, eq_ix2 j⟩
  rw [View.read_apply]
  show Gen.out1_2 (F := Ideal) (Gen.iblk1 V c 0 t) (Gen.iblk1 V c 1 t) (ix2 r q)
    = product1 A W (((cfg1.win 2).blk t).view.emb (ix2 r q))
  refine (out1_apply (Gen.iblk1 V c 0 t) (Gen.iblk1 V c 1 t) r q).trans ?_
  refine Finset.sum_congr rfl fun k _ => ?_
  refine congrArg₂ (· * ·) (inputBlock1_apply V c A hA t r k _ ?_) (weightBlock1_apply V c W hW t k q _ ?_)
  · show win1_2.index t (0 : Fin 2) * 10000 + 1 * r.val = 10000 * t.val + r.val; omega
  · show win1_2.index t (1 : Fin 2) * 32 + 1 * q.val = q.val; omega

/-- An index of the output array is in point `t`'s block iff each coordinate is in the block's range on its axis. -/
theorem mem_outputBlock1 (t : Fin cfg1.N) (i : S100000x32.Idx) :
    i ∈ ((cfg1.win 2).blk t).view.set ↔ ∀ a : Fin 2, win1_2.index t a * S10000x32.size a ≤ (i a).val
      ∧ (i a).val < win1_2.index t a * S10000x32.size a + S10000x32.size a := by
  show i ∈ ((View.whole main_v47).slice (win1_2.rect t)).set ↔ _
  rw [View.set_slice_whole, Rect.mem_set_unit]
  exact Iff.rfl

/-- Every row of the output array is in the block of the point its row number divided by 10000 names. -/
theorem covered1 (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 10 := Gen.N_1
  have ht : (i 0).val / 10000 < cfg1.N := by rw [hN]; omega
  obtain ⟨-, -, -, -, h0, h1⟩ := blockIndices1 ⟨(i 0).val / 10000, ht⟩
  have h0' : win1_2.index ⟨(i 0).val / 10000, ht⟩ (0 : Fin 2) = (i 0).val / 10000 := h0
  refine ⟨⟨(i 0).val / 10000, ht⟩, Gen.flush1_2 _, ?_⟩
  rw [mem_outputBlock1]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    omega
  | ⟨1, _⟩ =>
    show win1_2.index ⟨(i 0).val / 10000, ht⟩ (1 : Fin 2) * 32 ≤ (i 1).val
      ∧ (i 1).val < win1_2.index ⟨(i 0).val / 10000, ht⟩ (1 : Fin 2) * 32 + 32
    omega

/-- THE OUTPUT ARRAY after the region's ten write-backs is the product of the input array and the weight as the
    region found them. -/
theorem dense1_array (V : (c : Dev nD) → (b : Ref sig .tc) → Buf (Elt Ideal) ((c : Thread nD τ).loc b)) (c : Dev nD)
    (A : FVec Ideal S100000x32 .f32) (W : FVec Ideal S32x32 .f32)
    (hA : V c (Pipeline.arrRef spec1 0) = A) (hW : V c (Pipeline.arrRef spec1 1) = W) :
    (Gen.dat1 (F := Ideal) V c).arrAt 2 cfg1.N = product1 A W :=
  (Gen.dat1 (F := Ideal) V c).arrAt_eq_of_cover 2 (product1 A W) (fun t _ => flushed1_eq V c A W hA hW t) covered1

/-- Entry by entry: the output array at `(e, q)` is the sum over `k` of the input array at `(e, k)` times the weight at
    `(k, q)`. -/
theorem dense1 (V : (c : Dev nD) → (b : Ref sig .tc) → Buf (Elt Ideal) ((c : Thread nD τ).loc b)) (c : Dev nD)
    (A : FVec Ideal S100000x32 .f32) (W : FVec Ideal S32x32 .f32) (O : FVec Ideal S100000x32 .f32)
    (hA : V c (Pipeline.arrRef spec1 0) = A) (hW : V c (Pipeline.arrRef spec1 1) = W)
    (hO : (Gen.dat1 (F := Ideal) V c).arrAt 2 cfg1.N = O) (e : Fin 100000) (q : Fin 32) :
    O (ix2 e q) = ∑ k : Fin 32, A (ix2 e k) * W (ix2 k q) := by
  rw [← hO, dense1_array V c A W hA hW]
  rfl

end Cert.KernelIdeal.Dense

end
-- ==== Proof.StepDot2.lean ====
/-
  Layer 2's dense product, in the two programs.

  The reference multiplies the whole `[100000, ·]` feature array by the weight in one host product. The kernel program
  does it in ten row blocks of 10000 rows, each block's product written over its rows of the output; the ten blocks
  tile the output, so after the region the output array is the product of the arrays the region found. Both are, entry
  by entry, the sum over `k` of features `(e, k)` times weight `(k, q)`: from contents that agree on the features and
  on the weight, the two programs leave the same product.
-/
import proofs.«130898_j20847771254912_2_alg».proof.Proof.RefOps
import proofs.«130898_j20847771254912_2_alg».proof.Proof.RefDots
import proofs.«130898_j20847771254912_2_alg».proof.Proof.Dense1

noncomputable section

namespace Cert.Bridge

open Idealize.ShloMosaic Idealize.ShloMosaic.TcCoe Idealize.SL.Sem Idealize.ShloMosaic.StableHlo
open Idealize.ShloMosaic.ValueIdx

/-- Layer 2: the reference's product is the array the kernel program's region 1 leaves. -/
theorem dot2 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (Vr : Valuation Cert.ReferenceIdeal.τ Cert.ReferenceIdeal.sig (Elt Ideal))
    (hx : Vr (Proc.devRef .tc Cert.ReferenceIdeal.main_v47) = Cert.KernelIdeal.Gen.W5 m ρ c (Proc.devRef .tc Cert.KernelIdeal.main_v46))
    (hw : Vr (Proc.devRef .tc Cert.ReferenceIdeal.main_arg4) = Cert.KernelIdeal.Gen.W5 m ρ c (Proc.devRef .tc Cert.KernelIdeal.main_arg4)) :
    after Cert.ReferenceIdeal.Line.cDot2 Vr (Proc.devRef .tc Cert.ReferenceIdeal.main_v48)
      = Cert.KernelIdeal.Gen.W6 m ρ c (Proc.devRef .tc Cert.KernelIdeal.main_v47) := by
  after_results_simp
  rw [hx, hw]
  obtain ⟨A, hA⟩ : ∃ A : FVec Ideal Cert.KernelIdeal.S100000x32 .f32, Cert.KernelIdeal.Gen.W5 m ρ c (Proc.devRef .tc Cert.KernelIdeal.main_v46) = A := ⟨_, rfl⟩
  obtain ⟨W, hW⟩ : ∃ W : FVec Ideal Cert.KernelIdeal.S32x32 .f32, Cert.KernelIdeal.Gen.W5 m ρ c (Proc.devRef .tc Cert.KernelIdeal.main_arg4) = W := ⟨_, rfl⟩
  rw [hA, hW]
  refine Eq.trans ?_ ((Cert.KernelIdeal.Dense.dense1_array (Cert.KernelIdeal.Gen.V5 m ρ) c A W hA hW).symm.trans
    (Cert.KernelIdeal.Gen.W6_arr m ρ c 2).symm)
  funext i
  obtain ⟨e, q, rfl⟩ : ∃ (e : Fin 100000) (q : Fin 32), i = ix2 e q := ⟨i 0, i 1, eq_ix2 i⟩
  exact (Cert.ReferenceIdeal.Dots.dotB_apply A W e q).trans (Cert.KernelIdeal.Dense.product1_apply A W e q).symm

end Cert.Bridge

end
-- ==== Proof.StepTail2.lean ====
/-
  Layer 2 after its dense product, in the two programs.

  Both programs gather each edge's source row of the product, scale it by the edge's weight, add the rows into their
  target nodes and add the bias row; the reference then applies the leaky rectifier with slope one, which is the
  identity on the extended reals. So from contents that agree on the product, on the edge endpoints, on the edge weights
  and on the bias, the reference's stretch and the kernel program's stretch leave the same array.
-/
import proofs.«130898_j20847771254912_2_alg».proof.Proof.RefOps
import proofs.«130898_j20847771254912_2_alg».proof.Proof.Gen.KernelIdeal.Launch
import proofs.«130898_j20847771254912_2_alg».proof.Proof.Rectifier

noncomputable section

namespace Cert.Bridge

open Idealize.ShloMosaic Idealize.ShloMosaic.TcCoe Idealize.SL.Sem Idealize.ShloMosaic.StableHlo

/-- Layer 2: the reference's aggregated, biased and rectified rows are the kernel program's aggregated and biased rows. -/
theorem tail2 (Vk : Valuation Cert.KernelIdeal.τ Cert.KernelIdeal.sig (Elt Ideal))
    (Vr : Valuation Cert.ReferenceIdeal.τ Cert.ReferenceIdeal.sig (Elt Ideal))
    (hin : Vr (Proc.devRef .tc Cert.ReferenceIdeal.main_v48) = Vk (Proc.devRef .tc Cert.KernelIdeal.main_v47))
    (h3 : Vr (Proc.devRef .tc Cert.ReferenceIdeal.main_v3) = Vk (Proc.devRef .tc Cert.KernelIdeal.main_v3))
    (h6 : Vr (Proc.devRef .tc Cert.ReferenceIdeal.main_v6) = Vk (Proc.devRef .tc Cert.KernelIdeal.main_v6))
    (h29 : Vr (Proc.devRef .tc Cert.ReferenceIdeal.main_v29) = Vk (Proc.devRef .tc Cert.KernelIdeal.main_v29))
    (hb : Vr (Proc.devRef .tc Cert.ReferenceIdeal.main_arg5) = Vk (Proc.devRef .tc Cert.KernelIdeal.main_arg5)) :
    after Cert.ReferenceIdeal.Line.cTail2 Vr (Proc.devRef .tc Cert.ReferenceIdeal.main_v65)
      = after Cert.KernelIdeal.Gen.hostOps2 Vk (Proc.devRef .tc Cert.KernelIdeal.main_v63) := by
  after_results_simp
  rw [hin, h3, h6, h29, hb]
  exact rectifier_slope_one _ _ _

end Cert.Bridge

end
-- ==== Proof.Dense2.lean ====
/-
  Region 2 of the program: one dense layer, `h @ W` with `h : [100000, 32]` and `W : [32, 32]`.

  The grid has ten points. Point `t` reads rows `10000 t … 10000 t + 9999` of `h` and the whole of `W`, multiplies the
  two blocks into a zero accumulator and writes the `[10000, 32]` result over rows `10000 t …` of the output. At the exact
  extended-real values a change of float format is the identity, so entry `(r, q)` of a point's block is
  `∑ k, h_blk (r, k) · W (k, q)`; the ten row blocks tile the output (row `e` lies in the block of point `e / 10000`), so
  after the ten write-backs the output array at `(e, q)` is `∑ k, h (e, k) · W (k, q)`, with `h` and `W` the arrays as the
  region found them.
-/
import proofs.«130898_j20847771254912_2_alg».proof.Proof.Gen.KernelIdeal.Frame
import proofs.«130898_j20847771254912_2_alg».proof.Proof.LibDense
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Dense

open Cert.KernelIdeal Cert.KernelIdeal.Gen

/-- The offsets of an access to a whole block, however they are spelt. -/
theorem zeroOffsets2 : (![0, 0] : Fin 2 → Nat) = fun _ => 0 := funext fun a => by fin_cases a <;> rfl

/-! ## Where the block product reads its operands

At output entry `i` and contraction position `k` the left operand is read at `(i 0, k)` and the right one at `(k, i 1)`. -/

theorem dot2_lhs_row (i : S10000x32.Idx) (k : dot_S10000x32_S32x32_S10000x32_1_0_0_1_n_n.contr.Idx) :
    (dot_S10000x32_S32x32_S10000x32_1_0_0_1_n_n.lhsIdx i k 0).val = (i 0).val := by
  simp [DotDims.lhsIdx, dot_S10000x32_S32x32_S10000x32_1_0_0_1_n_n]; rfl
theorem dot2_lhs_col (i : S10000x32.Idx) (k : dot_S10000x32_S32x32_S10000x32_1_0_0_1_n_n.contr.Idx) :
    (dot_S10000x32_S32x32_S10000x32_1_0_0_1_n_n.lhsIdx i k 1).val = (k ⟨0, by decide⟩).val := by
  simp [DotDims.lhsIdx, dot_S10000x32_S32x32_S10000x32_1_0_0_1_n_n]; rfl
theorem dot2_rhs_row (i : S10000x32.Idx) (k : dot_S10000x32_S32x32_S10000x32_1_0_0_1_n_n.contr.Idx) :
    (dot_S10000x32_S32x32_S10000x32_1_0_0_1_n_n.rhsIdx i k 0).val = (k ⟨0, by decide⟩).val := by
  simp [DotDims.rhsIdx, dot_S10000x32_S32x32_S10000x32_1_0_0_1_n_n]; rfl
theorem dot2_rhs_col (i : S10000x32.Idx) (k : dot_S10000x32_S32x32_S10000x32_1_0_0_1_n_n.contr.Idx) :
    (dot_S10000x32_S32x32_S10000x32_1_0_0_1_n_n.rhsIdx i k 1).val = (i 1).val := by
  simp [DotDims.rhsIdx, dot_S10000x32_S32x32_S10000x32_1_0_0_1_n_n]; rfl

/-! ## What the body leaves in the output block, entry by entry -/

/-- Row `r`, column `q` of the block the body stores is the sum over `k` of the input block's `(r, k)` times the
    weight's `(k, q)`: the change of format is the identity on the exact values and the accumulator starts at zero. -/
theorem out2_apply (x0 : Vec Ideal S10000x32 .f32) (x1 : Vec Ideal S32x32 .f32) (r : Fin 10000) (q : Fin 32) :
    Gen.out2_2 (F := Ideal) x0 x1 (ix2 r q) = ∑ k : Fin 32, x0 (ix2 r k) * x1 (ix2 k q) := by
  unfold Gen.out2_2
  rw [View.canon_unit_zero zeroOffsets2]
  simp only [View.ld_unit_zero (S := S10000x32) zeroOffsets2, View.ld_unit_zero (S := S32x32) zeroOffsets2]
  unfold Gen.k2_pay1
  refine (matmul_zero_plain_apply dot_S10000x32_S32x32_S10000x32_1_0_0_1_n_n none rfl rfl
    dot2_lhs_row dot2_lhs_col dot2_rhs_row dot2_rhs_col _ _ r q).trans ?_
  refine Finset.sum_congr rfl fun k _ => ?_
  refine congrArg₂ (· * ·) ?_ rfl
  show shapeCast S10000x32 x0 Gen.shapeCasts_S10000x32_S10000x32 (ix2 r k) = x0 (ix2 r k)
  rw [shapeCast_self]

/-! ## The blocks, as rows of the arrays -/

/-- The printed index maps, decided over the grid: point `t` reads row block `t` of the input, the whole weight, and
    writes row block `t` of the output. -/
theorem blockIndices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input block at point `t` is rows `10000 t … 10000 t + 9999` of the input array. -/
theorem inputBlock2_apply (V : (c : Dev nD) → (b : Ref sig .tc) → Buf (Elt Ideal) ((c : Thread nD τ).loc b)) (c : Dev nD)
    (A : FVec Ideal S100000x32 .f32) (hA : V c (Pipeline.arrRef spec2 0) = A)
    (t : Fin cfg2.N) (r : Fin 10000) (k : Fin 32) (e : Fin 100000) (he : e.val = 10000 * t.val + r.val) :
    (Gen.iblk2 V c 0 t : Vec Ideal S10000x32 .f32) (ix2 r k) = A (ix2 e k) := by
  subst hA
  obtain ⟨h0, h1, -⟩ := blockIndices2 t
  unfold Gen.iblk2
  rw [View.read_apply]
  show (V c (Pipeline.arrRef spec2 0) : FVec Ideal S100000x32 .f32) _ = _
  refine congrArg _ (funext fun a => Fin.ext ?_)
  match a with
  | ⟨0, _⟩ => show win2_0.index t (0 : Fin 2) * 10000 + 1 * r.val = e.val; omega
  | ⟨1, _⟩ => show win2_0.index t (1 : Fin 2) * 32 + 1 * k.val = k.val; omega

/-- The weight block at every point is the weight array. -/
theorem weightBlock2_apply (V : (c : Dev nD) → (b : Ref sig .tc) → Buf (Elt Ideal) ((c : Thread nD τ).loc b)) (c : Dev nD)
    (W : FVec Ideal S32x32 .f32) (hW : V c (Pipeline.arrRef spec2 1) = W)
    (t : Fin cfg2.N) (k : Fin 32) (q q' : Fin 32) (hq : q'.val = q.val) :
    (Gen.iblk2 V c 1 t : Vec Ideal S32x32 .f32) (ix2 k q) = W (ix2 k q') := by
  subst hW
  obtain ⟨-, -, h0, h1, -⟩ := blockIndices2 t
  unfold Gen.iblk2
  rw [View.read_apply]
  show (V c (Pipeline.arrRef spec2 1) : FVec Ideal S32x32 .f32) _ = _
  refine congrArg _ (funext fun a => Fin.ext ?_)
  match a with
  | ⟨0, _⟩ => show win2_1.index t (0 : Fin 2) * 32 + 1 * k.val = k.val; omega
  | ⟨1, _⟩ => show win2_1.index t (1 : Fin 2) * 32 + 1 * q.val = q'.val; omega

/-! ## From the blocks to the array -/

/-- The product of the input array and the weight, entry by entry. -/
def product2 (A : FVec Ideal S100000x32 .f32) (W : FVec Ideal S32x32 .f32) : FVec Ideal S100000x32 .f32 :=
  fun i => ∑ k : Fin 32, A (ix2 ⟨(i 0).val, idx2_lt0 i⟩ k) * W (ix2 k ⟨(i 1).val, idx2_lt1 i⟩)

theorem product2_apply (A : FVec Ideal S100000x32 .f32) (W : FVec Ideal S32x32 .f32) (e : Fin 100000) (q : Fin 32) :
    product2 A W (ix2 e q) = ∑ k : Fin 32, A (ix2 e k) * W (ix2 k q) := rfl

/-- What point `t` writes back is block `t` of the product of the arrays as the region finds them. -/
theorem flushed2_eq (V : (c : Dev nD) → (b : Ref sig .tc) → Buf (Elt Ideal) ((c : Thread nD τ).loc b)) (c : Dev nD)
    (A : FVec Ideal S100000x32 .f32) (W : FVec Ideal S32x32 .f32)
    (hA : V c (Pipeline.arrRef spec2 0) = A) (hW : V c (Pipeline.arrRef spec2 1) = W) (t : Fin cfg2.N) :
    (Gen.dat2 (F := Ideal) V c).flushed 2 t = ((cfg2.win 2).blk t).view.read (Elt Ideal) (product2 A W) := by
  show (cfg2.win 2).cut (grid2.coords t) ((Gen.dat2 (F := Ideal) V c).after 2 t) = _
  rw [Gen.after2_2]
  obtain ⟨-, -, -, -, h0, h1⟩ := blockIndices2 t
  funext j
  obtain ⟨r, q, rfl⟩ : ∃ (r : Fin 10000) (q : Fin 32), j = ix2 r q := ⟨j 0, j 1, eq_ix2 j⟩
  rw [View.read_apply]
  show Gen.out2_2 (F := Ideal) (Gen.iblk2 V c 0 t) (Gen.iblk2 V c 1 t) (ix2 r q)
    = product2 A W (((cfg2.win 2).blk t).view.emb (ix2 r q))
  refine (out2_apply (Gen.iblk2 V c 0 t) (Gen.iblk2 V c 1 t) r q).trans ?_
  refine Finset.sum_congr rfl fun k _ => ?_
  refine congrArg₂ (· * ·) (inputBlock2_apply V c A hA t r k _ ?_) (weightBlock2_apply V c W hW t k q _ ?_)
  · show win2_2.index t (0 : Fin 2) * 10000 + 1 * r.val = 10000 * t.val + r.val; omega
  · show win2_2.index t (1 : Fin 2) * 32 + 1 * q.val = q.val; omega

/-- An index of the output array is in point `t`'s block iff each coordinate is in the block's range on its axis. -/
theorem mem_outputBlock2 (t : Fin cfg2.N) (i : S100000x32.Idx) :
    i ∈ ((cfg2.win 2).blk t).view.set ↔ ∀ a : Fin 2, win2_2.index t a * S10000x32.size a ≤ (i a).val
      ∧ (i a).val < win2_2.index t a * S10000x32.size a + S10000x32.size a := by
  show i ∈ ((View.whole main_v64).slice (win2_2.rect t)).set ↔ _
  rw [View.set_slice_whole, Rect.mem_set_unit]
  exact Iff.rfl

/-- Every row of the output array is in the block of the point its row number divided by 10000 names. -/
theorem covered2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 10 := Gen.N_2
  have ht : (i 0).val / 10000 < cfg2.N := by rw [hN]; omega
  obtain ⟨-, -, -, -, h0, h1⟩ := blockIndices2 ⟨(i 0).val / 10000, ht⟩
  have h0' : win2_2.index ⟨(i 0).val / 10000, ht⟩ (0 : Fin 2) = (i 0).val / 10000 := h0
  refine ⟨⟨(i 0).val / 10000, ht⟩, Gen.flush2_2 _, ?_⟩
  rw [mem_outputBlock2]
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    omega
  | ⟨1, _⟩ =>
    show win2_2.index ⟨(i 0).val / 10000, ht⟩ (1 : Fin 2) * 32 ≤ (i 1).val
      ∧ (i 1).val < win2_2.index ⟨(i 0).val / 10000, ht⟩ (1 : Fin 2) * 32 + 32
    omega

/-- THE OUTPUT ARRAY after the region's ten write-backs is the product of the input array and the weight as the
    region found them. -/
theorem dense2_array (V : (c : Dev nD) → (b : Ref sig .tc) → Buf (Elt Ideal) ((c : Thread nD τ).loc b)) (c : Dev nD)
    (A : FVec Ideal S100000x32 .f32) (W : FVec Ideal S32x32 .f32)
    (hA : V c (Pipeline.arrRef spec2 0) = A) (hW : V c (Pipeline.arrRef spec2 1) = W) :
    (Gen.dat2 (F := Ideal) V c).arrAt 2 cfg2.N = product2 A W :=
  (Gen.dat2 (F := Ideal) V c).arrAt_eq_of_cover 2 (product2 A W) (fun t _ => flushed2_eq V c A W hA hW t) covered2

/-- Entry by entry: the output array at `(e, q)` is the sum over `k` of the input array at `(e, k)` times the weight at
    `(k, q)`. -/
theorem dense2 (V : (c : Dev nD) → (b : Ref sig .tc) → Buf (Elt Ideal) ((c : Thread nD τ).loc b)) (c : Dev nD)
    (A : FVec Ideal S100000x32 .f32) (W : FVec Ideal S32x32 .f32) (O : FVec Ideal S100000x32 .f32)
    (hA : V c (Pipeline.arrRef spec2 0) = A) (hW : V c (Pipeline.arrRef spec2 1) = W)
    (hO : (Gen.dat2 (F := Ideal) V c).arrAt 2 cfg2.N = O) (e : Fin 100000) (q : Fin 32) :
    O (ix2 e q) = ∑ k : Fin 32, A (ix2 e k) * W (ix2 k q) := by
  rw [← hO, dense2_array V c A W hA hW]
  rfl

end Cert.KernelIdeal.Dense

end
-- ==== Proof.StepDot3.lean ====
/-
  Layer 3's dense product, in the two programs.

  The reference multiplies the whole `[100000, ·]` feature array by the weight in one host product. The kernel program
  does it in ten row blocks of 10000 rows, each block's product written over its rows of the output; the ten blocks
  tile the output, so after the region the output array is the product of the arrays the region found. Both are, entry
  by entry, the sum over `k` of features `(e, k)` times weight `(k, q)`: from contents that agree on the features and
  on the weight, the two programs leave the same product.
-/
import proofs.«130898_j20847771254912_2_alg».proof.Proof.RefOps
import proofs.«130898_j20847771254912_2_alg».proof.Proof.RefDots
import proofs.«130898_j20847771254912_2_alg».proof.Proof.Dense2

noncomputable section

namespace Cert.Bridge

open Idealize.ShloMosaic Idealize.ShloMosaic.TcCoe Idealize.SL.Sem Idealize.ShloMosaic.StableHlo
open Idealize.ShloMosaic.ValueIdx

/-- Layer 3: the reference's product is the array the kernel program's region 2 leaves. -/
theorem dot3 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (Vr : Valuation Cert.ReferenceIdeal.τ Cert.ReferenceIdeal.sig (Elt Ideal))
    (hx : Vr (Proc.devRef .tc Cert.ReferenceIdeal.main_v65) = Cert.KernelIdeal.Gen.W7 m ρ c (Proc.devRef .tc Cert.KernelIdeal.main_v63))
    (hw : Vr (Proc.devRef .tc Cert.ReferenceIdeal.main_arg6) = Cert.KernelIdeal.Gen.W7 m ρ c (Proc.devRef .tc Cert.KernelIdeal.main_arg6)) :
    after Cert.ReferenceIdeal.Line.cDot3 Vr (Proc.devRef .tc Cert.ReferenceIdeal.main_v66)
      = Cert.KernelIdeal.Gen.W8 m ρ c (Proc.devRef .tc Cert.KernelIdeal.main_v64) := by
  after_results_simp
  rw [hx, hw]
  obtain ⟨A, hA⟩ : ∃ A : FVec Ideal Cert.KernelIdeal.S100000x32 .f32, Cert.KernelIdeal.Gen.W7 m ρ c (Proc.devRef .tc Cert.KernelIdeal.main_v63) = A := ⟨_, rfl⟩
  obtain ⟨W, hW⟩ : ∃ W : FVec Ideal Cert.KernelIdeal.S32x32 .f32, Cert.KernelIdeal.Gen.W7 m ρ c (Proc.devRef .tc Cert.KernelIdeal.main_arg6) = W := ⟨_, rfl⟩
  rw [hA, hW]
  refine Eq.trans ?_ ((Cert.KernelIdeal.Dense.dense2_array (Cert.KernelIdeal.Gen.V7 m ρ) c A W hA hW).symm.trans
    (Cert.KernelIdeal.Gen.W8_arr m ρ c 2).symm)
  funext i
  obtain ⟨e, q, rfl⟩ : ∃ (e : Fin 100000) (q : Fin 32), i = ix2 e q := ⟨i 0, i 1, eq_ix2 i⟩
  exact (Cert.ReferenceIdeal.Dots.dotB_apply A W e q).trans (Cert.KernelIdeal.Dense.product2_apply A W e q).symm

end Cert.Bridge

end
-- ==== Proof.StepTail3.lean ====
/-
  Layer 3 after its dense product, in the two programs.

  Both programs gather each edge's source row of the product, scale it by the edge's weight, add the rows into their
  target nodes and add the bias row; the reference then applies the leaky rectifier with slope one, which is the
  identity on the extended reals. So from contents that agree on the product, on the edge endpoints, on the edge weights
  and on the bias, the reference's stretch and the kernel program's stretch leave the same array.
-/
import proofs.«130898_j20847771254912_2_alg».proof.Proof.RefOps
import proofs.«130898_j20847771254912_2_alg».proof.Proof.Gen.KernelIdeal.Launch
import proofs.«130898_j20847771254912_2_alg».proof.Proof.Rectifier

noncomputable section

namespace Cert.Bridge

open Idealize.ShloMosaic Idealize.ShloMosaic.TcCoe Idealize.SL.Sem Idealize.ShloMosaic.StableHlo

/-- Layer 3: the reference's aggregated, biased and rectified rows are the kernel program's aggregated and biased rows. -/
theorem tail3 (Vk : Valuation Cert.KernelIdeal.τ Cert.KernelIdeal.sig (Elt Ideal))
    (Vr : Valuation Cert.ReferenceIdeal.τ Cert.ReferenceIdeal.sig (Elt Ideal))
    (hin : Vr (Proc.devRef .tc Cert.ReferenceIdeal.main_v66) = Vk (Proc.devRef .tc Cert.KernelIdeal.main_v64))
    (h3 : Vr (Proc.devRef .tc Cert.ReferenceIdeal.main_v3) = Vk (Proc.devRef .tc Cert.KernelIdeal.main_v3))
    (h6 : Vr (Proc.devRef .tc Cert.ReferenceIdeal.main_v6) = Vk (Proc.devRef .tc Cert.KernelIdeal.main_v6))
    (h29 : Vr (Proc.devRef .tc Cert.ReferenceIdeal.main_v29) = Vk (Proc.devRef .tc Cert.KernelIdeal.main_v29))
    (hb : Vr (Proc.devRef .tc Cert.ReferenceIdeal.main_arg7) = Vk (Proc.devRef .tc Cert.KernelIdeal.main_arg7)) :
    after Cert.ReferenceIdeal.Line.cTail3 Vr (Proc.devRef .tc Cert.ReferenceIdeal.main_v83)
      = after Cert.KernelIdeal.Gen.hostOps3 Vk (Proc.devRef .tc Cert.KernelIdeal.main_v80) := by
  after_results_simp
  rw [hin, h3, h6, h29, hb]
  exact rectifier_slope_one _ _ _

end Cert.Bridge

end
-- ==== Proof.Dense3.lean ====
/-
  Region 3 of the program: one dense layer, `h @ W` with `h : [100000, 32]` and `W : [32, 32]`.

  The grid has ten points. Point `t` reads rows `10000 t … 10000 t + 9999` of `h` and the whole of `W`, multiplies the
  two blocks into a zero accumulator and writes the `[10000, 32]` result over rows `10000 t …` of the output. At the exact
  extended-real values a change of float format is the identity, so entry `(r, q)` of a point's block is
  `∑ k, h_blk (r, k) · W (k, q)`; the ten row blocks tile the output (row `e` lies in the block of point `e / 10000`), so
  after the ten write-backs the output array at `(e, q)` is `∑ k, h (e, k) · W (k, q)`, with `h` and `W` the arrays as the
  region found them.
-/
import proofs.«130898_j20847771254912_2_alg».proof.Proof.Gen.KernelIdeal.Frame
import proofs.«130898_j20847771254912_2_alg».proof.Proof.LibDense
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Dense

open Cert.KernelIdeal Cert.KernelIdeal.Gen

/-- The offsets of an access to a whole block, however they are spelt. -/
theorem zeroOffsets3 : (![0, 0] : Fin 2 → Nat) = fun _ => 0 := funext fun a => by fin_cases a <;> rfl

/-! ## Where the block product reads its operands

At output entry `i` and contraction position `k` the left operand is read at `(i 0, k)` and the right one at `(k, i 1)`. -/

theorem dot3_lhs_row (i : S10000x32.Idx) (k : dot_S10000x32_S32x32_S10000x32_1_0_0_1_n_n.contr.Idx) :
    (dot_S10000x32_S32x32_S10000x32_1_0_0_1_n_n.lhsIdx i k 0).val = (i 0).val := by
  simp [DotDims.lhsIdx, dot_S10000x32_S32x32_S10000x32_1_0_0_1_n_n]; rfl
theorem dot3_lhs_col (i : S10000x32.Idx) (k : dot_S10000x32_S32x32_S10000x32_1_0_0_1_n_n.contr.Idx) :
    (dot_S10000x32_S32x32_S10000x32_1_0_0_1_n_n.lhsIdx i k 1).val = (k ⟨0, by decide⟩).val := by
  simp [DotDims.lhsIdx, dot_S10000x32_S32x32_S10000x32_1_0_0_1_n_n]; rfl
theorem dot3_rhs_row (i : S10000x32.Idx) (k : dot_S10000x32_S32x32_S10000x32_1_0_0_1_n_n.contr.Idx) :
    (dot_S10000x32_S32x32_S10000x32_1_0_0_1_n_n.rhsIdx i k 0).val = (k ⟨0, by decide⟩).val := by
  simp [DotDims.rhsIdx, dot_S10000x32_S32x32_S10000x32_1_0_0_1_n_n]; rfl
theorem dot3_rhs_col (i : S10000x32.Idx) (k : dot_S10000x32_S32x32_S10000x32_1_0_0_1_n_n.contr.Idx) :
    (dot_S10000x32_S32x32_S10000x32_1_0_0_1_n_n.rhsIdx i k 1).val = (i 1).val := by
  simp [DotDims.rhsIdx, dot_S10000x32_S32x32_S10000x32_1_0_0_1_n_n]; rfl

/-! ## What the body leaves in the output block, entry by entry -/

/-- Row `r`, column `q` of the block the body stores is the sum over `k` of the input block's `(r, k)` times the
    weight's `(k, q)`: the change of format is the identity on the exact values and the accumulator starts at zero. -/
theorem out3_apply (x0 : Vec Ideal S10000x32 .f32) (x1 : Vec Ideal S32x32 .f32) (r : Fin 10000) (q : Fin 32) :
    Gen.out3_2 (F := Ideal) x0 x1 (ix2 r q) = ∑ k : Fin 32, x0 (ix2 r k) * x1 (ix2 k q) := by
  unfold Gen.out3_2
  rw [View.canon_unit_zero zeroOffsets3]
  simp only [View.ld_unit_zero (S := S10000x32) zeroOffsets3, View.ld_unit_zero (S := S32x32) zeroOffsets3]
  unfold Gen.k3_pay1
  refine (matmul_zero_plain_apply dot_S10000x32_S32x32_S10000x32_1_0_0_1_n_n none rfl rfl
    dot3_lhs_row dot3_lhs_col dot3_rhs_row dot3_rhs_col _ _ r q).trans ?_
  refine Finset.sum_congr rfl fun k _ => ?_
  refine congrArg₂ (· * ·) ?_ rfl
  show shapeCast S10000x32 x0 Gen.shapeCasts_S10000x32_S10000x32 (ix2 r k) = x0 (ix2 r k)
  rw [shapeCast_self]

/-! ## The blocks, as rows of the arrays -/

/-- The printed index maps, decided over the grid: point `t` reads row block `t` of the input, the whole weight, and
    writes row block `t` of the output. -/
theorem blockIndices3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The input block at point `t` is rows `10000 t … 10000 t + 9999` of the input array. -/
theorem inputBlock3_apply (V : (c : Dev nD) → (b : Ref sig .tc) → Buf (Elt Ideal) ((c : Thread nD τ).loc b)) (c : Dev nD)
    (A : FVec Ideal S100000x32 .f32) (hA : V c (Pipeline.arrRef spec3 0) = A)
    (t : Fin cfg3.N) (r : Fin 10000) (k : Fin 32) (e : Fin 100000) (he : e.val = 10000 * t.val + r.val) :
    (Gen.iblk3 V c 0 t : Vec Ideal S10000x32 .f32) (ix2 r k) = A (ix2 e k) := by
  subst hA
  obtain ⟨h0, h1, -⟩ := blockIndices3 t
  unfold Gen.iblk3
  rw [View.read_apply]
  show (V c (Pipeline.arrRef spec3 0) : FVec Ideal S100000x32 .f32) _ = _
  refine congrArg _ (funext fun a => Fin.ext ?_)
  match a with
  | ⟨0, _⟩ => show win3_0.index t (0 : Fin 2) * 10000 + 1 * r.val = e.val; omega
  | ⟨1, _⟩ => show win3_0.index t (1 : Fin 2) * 32 + 1 * k.val = k.val; omega

/-- The weight block at every point is the weight array. -/
theorem weightBlock3_apply (V : (c : Dev nD) → (b : Ref sig .tc) → Buf (Elt Ideal) ((c : Thread nD τ).loc b)) (c : Dev nD)
    (W : FVec Ideal S32x32 .f32) (hW : V c (Pipeline.arrRef spec3 1) = W)
    (t : Fin cfg3.N) (k : Fin 32) (q q' : Fin 32) (hq : q'.val = q.val) :
    (Gen.iblk3 V c 1 t : Vec Ideal S32x32 .f32) (ix2 k q) = W (ix2 k q') := by
  subst hW
  obtain ⟨-, -, h0, h1, -⟩ := blockIndices3 t
  unfold Gen.iblk3
  rw [View.read_apply]
  show (V c (Pipeline.arrRef spec3 1) : FVec Ideal S32x32 .f32) _ = _
  refine congrArg _ (funext fun a => Fin.ext ?_)
  match a with
  | ⟨0, _⟩ => show win3_1.index t (0 : Fin 2) * 32 + 1 * k.val = k.val; omega
  | ⟨1, _⟩ => show win3_1.index t (1 : Fin 2) * 32 + 1 * q.val = q'.val; omega

/-! ## From the blocks to the array -/

/-- The product of the input array and the weight, entry by entry. -/
def product3 (A : FVec Ideal S100000x32 .f32) (W : FVec Ideal S32x32 .f32) : FVec Ideal S100000x32 .f32 :=
  fun i => ∑ k : Fin 32, A (ix2 ⟨(i 0).val, idx2_lt0 i⟩ k) * W (ix2 k ⟨(i 1).val, idx2_lt1 i⟩)

theorem product3_apply (A : FVec Ideal S100000x32 .f32) (W : FVec Ideal S32x32 .f32) (e : Fin 100000) (q : Fin 32) :
    product3 A W (ix2 e q) = ∑ k : Fin 32, A (ix2 e k) * W (ix2 k q) := rfl

/-- What point `t` writes back is block `t` of the product of the arrays as the region finds them. -/
theorem flushed3_eq (V : (c : Dev nD) → (b : Ref sig .tc) → Buf (Elt Ideal) ((c : Thread nD τ).loc b)) (c : Dev nD)
    (A : FVec Ideal S100000x32 .f32) (W : FVec Ideal S32x32 .f32)
    (hA : V c (Pipeline.arrRef spec3 0) = A) (hW : V c (Pipeline.arrRef spec3 1) = W) (t : Fin cfg3.N) :
    (Gen.dat3 (F := Ideal) V c).flushed 2 t = ((cfg3.win 2).blk t).view.read (Elt Ideal) (product3 A W) := by
  show (cfg3.win 2).cut (grid3.coords t) ((Gen.dat3 (F := Ideal) V c).after 2 t) = _
  rw [Gen.after3_2]
  obtain ⟨-, -, -, -, h0, h1⟩ := blockIndices3 t
  funext j
  obtain ⟨r, q, rfl⟩ : ∃ (r : Fin 10000) (q : Fin 32), j = ix2 r q := ⟨j 0, j 1, eq_ix2 j⟩
  rw [View.read_apply]
  show Gen.out3_2 (F := Ideal) (Gen.iblk3 V c 0 t) (Gen.iblk3 V c 1 t) (ix2 r q)
    = product3 A W (((cfg3.win 2).blk t).view.emb (ix2 r q))
  refine (out3_apply (Gen.iblk3 V c 0 t) (Gen.iblk3 V c 1 t) r q).trans ?_
  refine Finset.sum_congr rfl fun k _ => ?_
  refine congrArg₂ (· * ·) (inputBlock3_apply V c A hA t r k _ ?_) (weightBlock3_apply V c W hW t k q _ ?_)
  · show win3_2.index t (0 : Fin 2) * 10000 + 1 * r.val = 10000 * t.val + r.val; omega
  · show win3_2.index t (1 : Fin 2) * 32 + 1 * q.val = q.val; omega

/-- An index of the output array is in point `t`'s block iff each coordinate is in the block's range on its axis. -/
theorem mem_outputBlock3 (t : Fin cfg3.N) (i : S100000x32.Idx) :
    i ∈ ((cfg3.win 2).blk t).view.set ↔ ∀ a : Fin 2, win3_2.index t a * S10000x32.size a ≤ (i a).val
      ∧ (i a).val < win3_2.index t a * S10000x32.size a + S10000x32.size a := by
  show i ∈ ((View.whole main_v81).slice (win3_2.rect t)).set ↔ _
  rw [View.set_slice_whole, Rect.mem_set_unit]
  exact Iff.rfl

/-- Every row of the output array is in the block of the point its row number divided by 10000 names. -/
theorem covered3 (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 10 := Gen.N_3
  have ht : (i 0).val / 10000 < cfg3.N := by rw [hN]; omega
  obtain ⟨-, -, -, -, h0, h1⟩ := blockIndices3 ⟨(i 0).val / 10000, ht⟩
  have h0' : win3_2.index ⟨(i 0).val / 10000, ht⟩ (0 : Fin 2) = (i 0).val / 10000 := h0
  refine ⟨⟨(i 0).val / 10000, ht⟩, Gen.flush3_2 _, ?_⟩
  rw [mem_outputBlock3]
  intro a
  match a with
  | ⟨0, _⟩ =>
    show win3_2.index ⟨(i 0).val / 10000, ht⟩ (0 : Fin 2) * 10000 ≤ (i 0).val
      ∧ (i 0).val < win3_2.index ⟨(i 0).val / 10000, ht⟩ (0 : Fin 2) * 10000 + 10000
    omega
  | ⟨1, _⟩ =>
    show win3_2.index ⟨(i 0).val / 10000, ht⟩ (1 : Fin 2) * 32 ≤ (i 1).val
      ∧ (i 1).val < win3_2.index ⟨(i 0).val / 10000, ht⟩ (1 : Fin 2) * 32 + 32
    omega

/-- THE OUTPUT ARRAY after the region's ten write-backs is the product of the input array and the weight as the
    region found them. -/
theorem dense3_array (V : (c : Dev nD) → (b : Ref sig .tc) → Buf (Elt Ideal) ((c : Thread nD τ).loc b)) (c : Dev nD)
    (A : FVec Ideal S100000x32 .f32) (W : FVec Ideal S32x32 .f32)
    (hA : V c (Pipeline.arrRef spec3 0) = A) (hW : V c (Pipeline.arrRef spec3 1) = W) :
    (Gen.dat3 (F := Ideal) V c).arrAt 2 cfg3.N = product3 A W :=
  (Gen.dat3 (F := Ideal) V c).arrAt_eq_of_cover 2 (product3 A W) (fun t _ => flushed3_eq V c A W hA hW t) covered3

/-- Entry by entry: the output array at `(e, q)` is the sum over `k` of the input array at `(e, k)` times the weight at
    `(k, q)`. -/
theorem dense3 (V : (c : Dev nD) → (b : Ref sig .tc) → Buf (Elt Ideal) ((c : Thread nD τ).loc b)) (c : Dev nD)
    (A : FVec Ideal S100000x32 .f32) (W : FVec Ideal S32x32 .f32) (O : FVec Ideal S100000x32 .f32)
    (hA : V c (Pipeline.arrRef spec3 0) = A) (hW : V c (Pipeline.arrRef spec3 1) = W)
    (hO : (Gen.dat3 (F := Ideal) V c).arrAt 2 cfg3.N = O) (e : Fin 100000) (q : Fin 32) :
    O (ix2 e q) = ∑ k : Fin 32, A (ix2 e k) * W (ix2 k q) := by
  rw [← hO, dense3_array V c A W hA hW]
  rfl

end Cert.KernelIdeal.Dense

end
-- ==== Proof.StepDot4.lean ====
/-
  Layer 4's dense product, in the two programs.

  The reference multiplies the whole `[100000, ·]` feature array by the weight in one host product. The kernel program
  does it in ten row blocks of 10000 rows, each block's product written over its rows of the output; the ten blocks
  tile the output, so after the region the output array is the product of the arrays the region found. Both are, entry
  by entry, the sum over `k` of features `(e, k)` times weight `(k, q)`: from contents that agree on the features and
  on the weight, the two programs leave the same product.
-/
import proofs.«130898_j20847771254912_2_alg».proof.Proof.RefOps
import proofs.«130898_j20847771254912_2_alg».proof.Proof.RefDots
import proofs.«130898_j20847771254912_2_alg».proof.Proof.Dense3

noncomputable section

namespace Cert.Bridge

open Idealize.ShloMosaic Idealize.ShloMosaic.TcCoe Idealize.SL.Sem Idealize.ShloMosaic.StableHlo
open Idealize.ShloMosaic.ValueIdx

/-- Layer 4: the reference's product is the array the kernel program's region 3 leaves. -/
theorem dot4 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (Vr : Valuation Cert.ReferenceIdeal.τ Cert.ReferenceIdeal.sig (Elt Ideal))
    (hx : Vr (Proc.devRef .tc Cert.ReferenceIdeal.main_v83) = Cert.KernelIdeal.Gen.W9 m ρ c (Proc.devRef .tc Cert.KernelIdeal.main_v80))
    (hw : Vr (Proc.devRef .tc Cert.ReferenceIdeal.main_arg8) = Cert.KernelIdeal.Gen.W9 m ρ c (Proc.devRef .tc Cert.KernelIdeal.main_arg8)) :
    after Cert.ReferenceIdeal.Line.cDot4 Vr (Proc.devRef .tc Cert.ReferenceIdeal.main_v84)
      = Cert.KernelIdeal.Gen.W10 m ρ c (Proc.devRef .tc Cert.KernelIdeal.main_v81) := by
  after_results_simp
  rw [hx, hw]
  obtain ⟨A, hA⟩ : ∃ A : FVec Ideal Cert.KernelIdeal.S100000x32 .f32, Cert.KernelIdeal.Gen.W9 m ρ c (Proc.devRef .tc Cert.KernelIdeal.main_v80) = A := ⟨_, rfl⟩
  obtain ⟨W, hW⟩ : ∃ W : FVec Ideal Cert.KernelIdeal.S32x32 .f32, Cert.KernelIdeal.Gen.W9 m ρ c (Proc.devRef .tc Cert.KernelIdeal.main_arg8) = W := ⟨_, rfl⟩
  rw [hA, hW]
  refine Eq.trans ?_ ((Cert.KernelIdeal.Dense.dense3_array (Cert.KernelIdeal.Gen.V9 m ρ) c A W hA hW).symm.trans
    (Cert.KernelIdeal.Gen.W10_arr m ρ c 2).symm)
  funext i
  obtain ⟨e, q, rfl⟩ : ∃ (e : Fin 100000) (q : Fin 32), i = ix2 e q := ⟨i 0, i 1, eq_ix2 i⟩
  exact (Cert.ReferenceIdeal.Dots.dotB_apply A W e q).trans (Cert.KernelIdeal.Dense.product3_apply A W e q).symm

end Cert.Bridge

end
-- ==== Proof.StepTail4.lean ====
/-
  Layer 4 after its dense product, in the two programs.

  Both programs gather each edge's source row of the product, scale it by the edge's weight, add the rows into their
  target nodes and add the bias row; the reference then applies the leaky rectifier with slope one, which is the
  identity on the extended reals. So from contents that agree on the product, on the edge endpoints, on the edge weights
  and on the bias, the reference's stretch and the kernel program's stretch leave the same array.
-/
import proofs.«130898_j20847771254912_2_alg».proof.Proof.RefOps
import proofs.«130898_j20847771254912_2_alg».proof.Proof.Gen.KernelIdeal.Launch
import proofs.«130898_j20847771254912_2_alg».proof.Proof.Rectifier

noncomputable section

namespace Cert.Bridge

open Idealize.ShloMosaic Idealize.ShloMosaic.TcCoe Idealize.SL.Sem Idealize.ShloMosaic.StableHlo

/-- Layer 4: the reference's aggregated, biased and rectified rows are the kernel program's aggregated and biased rows. -/
theorem tail4 (Vk : Valuation Cert.KernelIdeal.τ Cert.KernelIdeal.sig (Elt Ideal))
    (Vr : Valuation Cert.ReferenceIdeal.τ Cert.ReferenceIdeal.sig (Elt Ideal))
    (hin : Vr (Proc.devRef .tc Cert.ReferenceIdeal.main_v84) = Vk (Proc.devRef .tc Cert.KernelIdeal.main_v81))
    (h3 : Vr (Proc.devRef .tc Cert.ReferenceIdeal.main_v3) = Vk (Proc.devRef .tc Cert.KernelIdeal.main_v3))
    (h6 : Vr (Proc.devRef .tc Cert.ReferenceIdeal.main_v6) = Vk (Proc.devRef .tc Cert.KernelIdeal.main_v6))
    (h29 : Vr (Proc.devRef .tc Cert.ReferenceIdeal.main_v29) = Vk (Proc.devRef .tc Cert.KernelIdeal.main_v29))
    (hb : Vr (Proc.devRef .tc Cert.ReferenceIdeal.main_arg9) = Vk (Proc.devRef .tc Cert.KernelIdeal.main_arg9)) :
    after Cert.ReferenceIdeal.Line.cTail4 Vr (Proc.devRef .tc Cert.ReferenceIdeal.main_v101)
      = after Cert.KernelIdeal.Gen.hostOps4 Vk (Proc.devRef .tc Cert.KernelIdeal.main_v97) := by
  after_results_simp
  rw [hin, h3, h6, h29, hb]
  exact rectifier_slope_one _ _ _

end Cert.Bridge

end
-- ==== Proof.Dense4.lean ====
/-
  Region 4 of the program: one dense layer, `h @ W` with `h : [100000, 32]` and `W : [32, 3]`.

  The grid has ten points. Point `t` reads rows `10000 t … 10000 t + 9999` of `h` and the whole of `W`, multiplies the
  two blocks into a zero accumulator and writes the `[10000, 3]` result over rows `10000 t …` of the output. At the exact
  extended-real values a change of float format is the identity, so entry `(r, q)` of a point's block is
  `∑ k, h_blk (r, k) · W (k, q)`; the ten row blocks tile the output (row `e` lies in the block of point `e / 10000`), so
  after the ten write-backs the output array at `(e, q)` is `∑ k, h (e, k) · W (k, q)`, with `h` and `W` the arrays as the
  region found them.
-/
import proofs.«130898_j20847771254912_2_alg».proof.Proof.Gen.KernelIdeal.Frame
import proofs.«130898_j20847771254912_2_alg».proof.Proof.LibDense
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Dense

open Cert.KernelIdeal Cert.KernelIdeal.Gen

/-- The offsets of an access to a whole block, however they are spelt. -/
theorem zeroOffsets4 : (![0, 0] : Fin 2 → Nat) = fun _ => 0 := funext fun a => by fin_cases a <;> rfl

/-! ## Where the block product reads its operands

At output entry `i` and contraction position `k` the left operand is read at `(i 0, k)` and the right one at `(k, i 1)`. -/

theorem dot4_lhs_row (i : S10000x3.Idx) (k : dot_S10000x32_S32x3_S10000x3_1_0_0_1_n_n.contr.Idx) :
    (dot_S10000x32_S32x3_S10000x3_1_0_0_1_n_n.lhsIdx i k 0).val = (i 0).val := by
  simp [DotDims.lhsIdx, dot_S10000x32_S32x3_S10000x3_1_0_0_1_n_n]; rfl
theorem dot4_lhs_col (i : S10000x3.Idx) (k : dot_S10000x32_S32x3_S10000x3_1_0_0_1_n_n.contr.Idx) :
    (dot_S10000x32_S32x3_S10000x3_1_0_0_1_n_n.lhsIdx i k 1).val = (k ⟨0, by decide⟩).val := by
  simp [DotDims.lhsIdx, dot_S10000x32_S32x3_S10000x3_1_0_0_1_n_n]; rfl
theorem dot4_rhs_row (i : S10000x3.Idx) (k : dot_S10000x32_S32x3_S10000x3_1_0_0_1_n_n.contr.Idx) :
    (dot_S10000x32_S32x3_S10000x3_1_0_0_1_n_n.rhsIdx i k 0).val = (k ⟨0, by decide⟩).val := by
  simp [DotDims.rhsIdx, dot_S10000x32_S32x3_S10000x3_1_0_0_1_n_n]; rfl
theorem dot4_rhs_col (i : S10000x3.Idx) (k : dot_S10000x32_S32x3_S10000x3_1_0_0_1_n_n.contr.Idx) :
    (dot_S10000x32_S32x3_S10000x3_1_0_0_1_n_n.rhsIdx i k 1).val = (i 1).val := by
  simp [DotDims.rhsIdx, dot_S10000x32_S32x3_S10000x3_1_0_0_1_n_n]; rfl

/-! ## What the body leaves in the output block, entry by entry -/

/-- Row `r`, column `q` of the block the body stores is the sum over `k` of the input block's `(r, k)` times the
    weight's `(k, q)`: the change of format is the identity on the exact values and the accumulator starts at zero. -/
theorem out4_apply (x0 : Vec Ideal S10000x32 .f32) (x1 : Vec Ideal S32x3 .f32) (r : Fin 10000) (q : Fin 3) :
    Gen.out4_2 (F := Ideal) x0 x1 (ix2 r q) = ∑ k : Fin 32, x0 (ix2 r k) * x1 (ix2 k q) := by
  unfold Gen.out4_2
  rw [View.canon_unit_zero zeroOffsets4]
  simp only [View.ld_unit_zero (S := S10000x32) zeroOffsets4, View.ld_unit_zero (S := S32x3) zeroOffsets4]
  unfold Gen.k4_pay1
  refine (matmul_zero_plain_apply dot_S10000x32_S32x3_S10000x3_1_0_0_1_n_n none rfl rfl
    dot4_lhs_row dot4_lhs_col dot4_rhs_row dot4_rhs_col _ _ r q).trans ?_
  refine Finset.sum_congr rfl fun k _ => ?_
  refine congrArg₂ (· * ·) ?_ rfl
  show shapeCast S10000x32 x0 Gen.shapeCasts_S10000x32_S10000x32 (ix2 r k) = x0 (ix2 r k)
  rw [shapeCast_self]

/-! ## The blocks, as rows of the arrays -/

/-- The printed index maps, decided over the grid: point `t` reads row block `t` of the input, the whole weight, and
    writes row block `t` of the output. -/
theorem blockIndices4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The input block at point `t` is rows `10000 t … 10000 t + 9999` of the input array. -/
theorem inputBlock4_apply (V : (c : Dev nD) → (b : Ref sig .tc) → Buf (Elt Ideal) ((c : Thread nD τ).loc b)) (c : Dev nD)
    (A : FVec Ideal S100000x32 .f32) (hA : V c (Pipeline.arrRef spec4 0) = A)
    (t : Fin cfg4.N) (r : Fin 10000) (k : Fin 32) (e : Fin 100000) (he : e.val = 10000 * t.val + r.val) :
    (Gen.iblk4 V c 0 t : Vec Ideal S10000x32 .f32) (ix2 r k) = A (ix2 e k) := by
  subst hA
  obtain ⟨h0, h1, -⟩ := blockIndices4 t
  unfold Gen.iblk4
  rw [View.read_apply]
  show (V c (Pipeline.arrRef spec4 0) : FVec Ideal S100000x32 .f32) _ = _
  refine congrArg _ (funext fun a => Fin.ext ?_)
  match a with
  | ⟨0, _⟩ => show win4_0.index t (0 : Fin 2) * 10000 + 1 * r.val = e.val; omega
  | ⟨1, _⟩ => show win4_0.index t (1 : Fin 2) * 32 + 1 * k.val = k.val; omega

/-- The weight block at every point is the weight array. -/
theorem weightBlock4_apply (V : (c : Dev nD) → (b : Ref sig .tc) → Buf (Elt Ideal) ((c : Thread nD τ).loc b)) (c : Dev nD)
    (W : FVec Ideal S32x3 .f32) (hW : V c (Pipeline.arrRef spec4 1) = W)
    (t : Fin cfg4.N) (k : Fin 32) (q q' : Fin 3) (hq : q'.val = q.val) :
    (Gen.iblk4 V c 1 t : Vec Ideal S32x3 .f32) (ix2 k q) = W (ix2 k q') := by
  subst hW
  obtain ⟨-, -, h0, h1, -⟩ := blockIndices4 t
  unfold Gen.iblk4
  rw [View.read_apply]
  show (V c (Pipeline.arrRef spec4 1) : FVec Ideal S32x3 .f32) _ = _
  refine congrArg _ (funext fun a => Fin.ext ?_)
  match a with
  | ⟨0, _⟩ => show win4_1.index t (0 : Fin 2) * 32 + 1 * k.val = k.val; omega
  | ⟨1, _⟩ => show win4_1.index t (1 : Fin 2) * 3 + 1 * q.val = q'.val; omega

/-! ## From the blocks to the array -/

/-- The product of the input array and the weight, entry by entry. -/
def product4 (A : FVec Ideal S100000x32 .f32) (W : FVec Ideal S32x3 .f32) : FVec Ideal S100000x3 .f32 :=
  fun i => ∑ k : Fin 32, A (ix2 ⟨(i 0).val, idx2_lt0 i⟩ k) * W (ix2 k ⟨(i 1).val, idx2_lt1 i⟩)

theorem product4_apply (A : FVec Ideal S100000x32 .f32) (W : FVec Ideal S32x3 .f32) (e : Fin 100000) (q : Fin 3) :
    product4 A W (ix2 e q) = ∑ k : Fin 32, A (ix2 e k) * W (ix2 k q) := rfl

/-- What point `t` writes back is block `t` of the product of the arrays as the region finds them. -/
theorem flushed4_eq (V : (c : Dev nD) → (b : Ref sig .tc) → Buf (Elt Ideal) ((c : Thread nD τ).loc b)) (c : Dev nD)
    (A : FVec Ideal S100000x32 .f32) (W : FVec Ideal S32x3 .f32)
    (hA : V c (Pipeline.arrRef spec4 0) = A) (hW : V c (Pipeline.arrRef spec4 1) = W) (t : Fin cfg4.N) :
    (Gen.dat4 (F := Ideal) V c).flushed 2 t = ((cfg4.win 2).blk t).view.read (Elt Ideal) (product4 A W) := by
  show (cfg4.win 2).cut (grid4.coords t) ((Gen.dat4 (F := Ideal) V c).after 2 t) = _
  rw [Gen.after4_2]
  obtain ⟨-, -, -, -, h0, h1⟩ := blockIndices4 t
  funext j
  obtain ⟨r, q, rfl⟩ : ∃ (r : Fin 10000) (q : Fin 3), j = ix2 r q := ⟨j 0, j 1, eq_ix2 j⟩
  rw [View.read_apply]
  show Gen.out4_2 (F := Ideal) (Gen.iblk4 V c 0 t) (Gen.iblk4 V c 1 t) (ix2 r q)
    = product4 A W (((cfg4.win 2).blk t).view.emb (ix2 r q))
  refine (out4_apply (Gen.iblk4 V c 0 t) (Gen.iblk4 V c 1 t) r q).trans ?_
  refine Finset.sum_congr rfl fun k _ => ?_
  refine congrArg₂ (· * ·) (inputBlock4_apply V c A hA t r k _ ?_) (weightBlock4_apply V c W hW t k q _ ?_)
  · show win4_2.index t (0 : Fin 2) * 10000 + 1 * r.val = 10000 * t.val + r.val; omega
  · show win4_2.index t (1 : Fin 2) * 3 + 1 * q.val = q.val; omega

/-- An index of the output array is in point `t`'s block iff each coordinate is in the block's range on its axis. -/
theorem mem_outputBlock4 (t : Fin cfg4.N) (i : S100000x3.Idx) :
    i ∈ ((cfg4.win 2).blk t).view.set ↔ ∀ a : Fin 2, win4_2.index t a * S10000x3.size a ≤ (i a).val
      ∧ (i a).val < win4_2.index t a * S10000x3.size a + S10000x3.size a := by
  show i ∈ ((View.whole main_v98).slice (win4_2.rect t)).set ↔ _
  rw [View.set_slice_whole, Rect.mem_set_unit]
  exact Iff.rfl

/-- Every row of the output array is in the block of the point its row number divided by 10000 names. -/
theorem covered4 (i : S100000x3.Idx) :
    ∃ t : Fin cfg4.N, (cfg4.win 2).flush t = true ∧ i ∈ ((cfg4.win 2).blk t).view.set := by
  have hi0 : (i 0).val < 100000 := (i 0).isLt
  have hi1 : (i 1).val < 3 := (i 1).isLt
  have hN : cfg4.N = 10 := Gen.N_4
  have ht : (i 0).val / 10000 < cfg4.N := by rw [hN]; omega
  obtain ⟨-, -, -, -, h0, h1⟩ := blockIndices4 ⟨(i 0).val / 10000, ht⟩
  have h0' : win4_2.index ⟨(i 0).val / 10000, ht⟩ (0 : Fin 2) = (i 0).val / 10000 := h0
  refine ⟨⟨(i 0).val / 10000, ht⟩, Gen.flush4_2 _, ?_⟩
  rw [mem_outputBlock4]
  intro a
  match a with
  | ⟨0, _⟩ =>
    show win4_2.index ⟨(i 0).val / 10000, ht⟩ (0 : Fin 2) * 10000 ≤ (i 0).val
      ∧ (i 0).val < win4_2.index ⟨(i 0).val / 10000, ht⟩ (0 : Fin 2) * 10000 + 10000
    omega
  | ⟨1, _⟩ =>
    show win4_2.index ⟨(i 0).val / 10000, ht⟩ (1 : Fin 2) * 3 ≤ (i 1).val
      ∧ (i 1).val < win4_2.index ⟨(i 0).val / 10000, ht⟩ (1 : Fin 2) * 3 + 3
    omega

/-- THE OUTPUT ARRAY after the region's ten write-backs is the product of the input array and the weight as the
    region found them. -/
theorem dense4_array (V : (c : Dev nD) → (b : Ref sig .tc) → Buf (Elt Ideal) ((c : Thread nD τ).loc b)) (c : Dev nD)
    (A : FVec Ideal S100000x32 .f32) (W : FVec Ideal S32x3 .f32)
    (hA : V c (Pipeline.arrRef spec4 0) = A) (hW : V c (Pipeline.arrRef spec4 1) = W) :
    (Gen.dat4 (F := Ideal) V c).arrAt 2 cfg4.N = product4 A W :=
  (Gen.dat4 (F := Ideal) V c).arrAt_eq_of_cover 2 (product4 A W) (fun t _ => flushed4_eq V c A W hA hW t) covered4

/-- Entry by entry: the output array at `(e, q)` is the sum over `k` of the input array at `(e, k)` times the weight at
    `(k, q)`. -/
theorem dense4 (V : (c : Dev nD) → (b : Ref sig .tc) → Buf (Elt Ideal) ((c : Thread nD τ).loc b)) (c : Dev nD)
    (A : FVec Ideal S100000x32 .f32) (W : FVec Ideal S32x3 .f32) (O : FVec Ideal S100000x3 .f32)
    (hA : V c (Pipeline.arrRef spec4 0) = A) (hW : V c (Pipeline.arrRef spec4 1) = W)
    (hO : (Gen.dat4 (F := Ideal) V c).arrAt 2 cfg4.N = O) (e : Fin 100000) (q : Fin 3) :
    O (ix2 e q) = ∑ k : Fin 32, A (ix2 e k) * W (ix2 k q) := by
  rw [← hO, dense4_array V c A W hA hW]
  rfl

end Cert.KernelIdeal.Dense

end
-- ==== Proof.StepDot5.lean ====
/-
  Layer 5's dense product, in the two programs.

  The reference multiplies the whole `[100000, ·]` feature array by the weight in one host product. The kernel program
  does it in ten row blocks of 10000 rows, each block's product written over its rows of the output; the ten blocks
  tile the output, so after the region the output array is the product of the arrays the region found. Both are, entry
  by entry, the sum over `k` of features `(e, k)` times weight `(k, q)`: from contents that agree on the features and
  on the weight, the two programs leave the same product.
-/
import proofs.«130898_j20847771254912_2_alg».proof.Proof.RefOps
import proofs.«130898_j20847771254912_2_alg».proof.Proof.RefDots
import proofs.«130898_j20847771254912_2_alg».proof.Proof.Dense4

noncomputable section

namespace Cert.Bridge

open Idealize.ShloMosaic Idealize.ShloMosaic.TcCoe Idealize.SL.Sem Idealize.ShloMosaic.StableHlo
open Idealize.ShloMosaic.ValueIdx

/-- Layer 5: the reference's product is the array the kernel program's region 4 leaves. -/
theorem dot5 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (Vr : Valuation Cert.ReferenceIdeal.τ Cert.ReferenceIdeal.sig (Elt Ideal))
    (hx : Vr (Proc.devRef .tc Cert.ReferenceIdeal.main_v101) = Cert.KernelIdeal.Gen.W11 m ρ c (Proc.devRef .tc Cert.KernelIdeal.main_v97))
    (hw : Vr (Proc.devRef .tc Cert.ReferenceIdeal.main_arg10) = Cert.KernelIdeal.Gen.W11 m ρ c (Proc.devRef .tc Cert.KernelIdeal.main_arg10)) :
    after Cert.ReferenceIdeal.Line.cDot5 Vr (Proc.devRef .tc Cert.ReferenceIdeal.main_v102)
      = Cert.KernelIdeal.Gen.W12 m ρ c (Proc.devRef .tc Cert.KernelIdeal.main_v98) := by
  after_results_simp
  rw [hx, hw]
  obtain ⟨A, hA⟩ : ∃ A : FVec Ideal Cert.KernelIdeal.S100000x32 .f32, Cert.KernelIdeal.Gen.W11 m ρ c (Proc.devRef .tc Cert.KernelIdeal.main_v97) = A := ⟨_, rfl⟩
  obtain ⟨W, hW⟩ : ∃ W : FVec Ideal Cert.KernelIdeal.S32x3 .f32, Cert.KernelIdeal.Gen.W11 m ρ c (Proc.devRef .tc Cert.KernelIdeal.main_arg10) = W := ⟨_, rfl⟩
  rw [hA, hW]
  refine Eq.trans ?_ ((Cert.KernelIdeal.Dense.dense4_array (Cert.KernelIdeal.Gen.V11 m ρ) c A W hA hW).symm.trans
    (Cert.KernelIdeal.Gen.W12_arr m ρ c 2).symm)
  funext i
  obtain ⟨e, q, rfl⟩ : ∃ (e : Fin 100000) (q : Fin 3), i = ix2 e q := ⟨i 0, i 1, eq_ix2 i⟩
  exact (Cert.ReferenceIdeal.Dots.dotC_apply A W e q).trans (Cert.KernelIdeal.Dense.product4_apply A W e q).symm

end Cert.Bridge

end
-- ==== Proof.StepTail5.lean ====
/-
  Layer 5 after its dense product, in the two programs.

  Both programs gather each edge's source row of the product, scale it by the edge's weight, add the rows into their
  target nodes and add the bias row; the reference then applies the leaky rectifier with slope one, which is the
  identity on the extended reals. So from contents that agree on the product, on the edge endpoints, on the edge weights
  and on the bias, the reference's stretch and the kernel program's stretch leave the same array.
-/
import proofs.«130898_j20847771254912_2_alg».proof.Proof.RefOps
import proofs.«130898_j20847771254912_2_alg».proof.Proof.Gen.KernelIdeal.Launch
import proofs.«130898_j20847771254912_2_alg».proof.Proof.Rectifier

noncomputable section

namespace Cert.Bridge

open Idealize.ShloMosaic Idealize.ShloMosaic.TcCoe Idealize.SL.Sem Idealize.ShloMosaic.StableHlo

/-- Layer 5: the reference's aggregated, biased and rectified rows are the kernel program's aggregated and biased rows. -/
theorem tail5 (Vk : Valuation Cert.KernelIdeal.τ Cert.KernelIdeal.sig (Elt Ideal))
    (Vr : Valuation Cert.ReferenceIdeal.τ Cert.ReferenceIdeal.sig (Elt Ideal))
    (hin : Vr (Proc.devRef .tc Cert.ReferenceIdeal.main_v102) = Vk (Proc.devRef .tc Cert.KernelIdeal.main_v98))
    (h3 : Vr (Proc.devRef .tc Cert.ReferenceIdeal.main_v3) = Vk (Proc.devRef .tc Cert.KernelIdeal.main_v3))
    (h6 : Vr (Proc.devRef .tc Cert.ReferenceIdeal.main_v6) = Vk (Proc.devRef .tc Cert.KernelIdeal.main_v6))
    (h29 : Vr (Proc.devRef .tc Cert.ReferenceIdeal.main_v29) = Vk (Proc.devRef .tc Cert.KernelIdeal.main_v29))
    (hb : Vr (Proc.devRef .tc Cert.ReferenceIdeal.main_arg11) = Vk (Proc.devRef .tc Cert.KernelIdeal.main_arg11)) :
    after Cert.ReferenceIdeal.Line.cTail5 Vr (Proc.devRef .tc Cert.ReferenceIdeal.main_v119)
      = after Cert.KernelIdeal.Gen.hostOps5 Vk (Proc.devRef .tc Cert.KernelIdeal.main_v114) := by
  after_results_simp
  rw [hin, h3, h6, h29, hb]
  exact rectifier_slope_one _ _ _

end Cert.Bridge

end
-- ==== Proof.Assemble.lean ====
/-
  The two programs end with the same result.

  Walk both programs stretch by stretch from launch memories that agree on the twelve argument arrays. The shared
  first stretches give the same edge endpoints and edge weights. Then five times: the layer's dense product agrees
  (the kernel program's ten row blocks tile the whole product), and what follows the product agrees (gather, scale,
  scatter-add and bias are the same operations on equal inputs; the reference's slope-one rectifier changes nothing).
  Between their uses the edge endpoints, the edge weights and the argument arrays are not written by any stretch or
  region, on either side. At the end the reference's result buffer holds what the kernel program's last boundary
  holds at its result buffer.
-/
import proofs.«130898_j20847771254912_2_alg».proof.Proof.Gen.KernelIdeal.Frame
import proofs.«130898_j20847771254912_2_alg».proof.Proof.KernelKeep
import proofs.«130898_j20847771254912_2_alg».proof.Proof.RefRun
import proofs.«130898_j20847771254912_2_alg».proof.Proof.RefKeep
import proofs.«130898_j20847771254912_2_alg».proof.Proof.StepPre
import proofs.«130898_j20847771254912_2_alg».proof.Proof.StepDot1
import proofs.«130898_j20847771254912_2_alg».proof.Proof.StepTail1
import proofs.«130898_j20847771254912_2_alg».proof.Proof.StepDot2
import proofs.«130898_j20847771254912_2_alg».proof.Proof.StepTail2
import proofs.«130898_j20847771254912_2_alg».proof.Proof.StepDot3
import proofs.«130898_j20847771254912_2_alg».proof.Proof.StepTail3
import proofs.«130898_j20847771254912_2_alg».proof.Proof.StepDot4
import proofs.«130898_j20847771254912_2_alg».proof.Proof.StepTail4
import proofs.«130898_j20847771254912_2_alg».proof.Proof.StepDot5
import proofs.«130898_j20847771254912_2_alg».proof.Proof.StepTail5

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-! ## The reference's buffers at the boundaries of its stretches -/

/-- The reference's buffers at launch. -/
abbrev U0 : Valuation Cert.ReferenceIdeal.τ Cert.ReferenceIdeal.sig (Elt Ideal) := launchContents m' c
/-- … after the stretch computing the edge endpoints and the degrees. -/
abbrev UA : Valuation Cert.ReferenceIdeal.τ Cert.ReferenceIdeal.sig (Elt Ideal) := after Cert.ReferenceIdeal.Line.cPreA (U0 m' c)
/-- … after the outlined select. -/
abbrev UB : Valuation Cert.ReferenceIdeal.τ Cert.ReferenceIdeal.sig (Elt Ideal) := after Cert.ReferenceIdeal.Line.cPreB (UA m' c)
/-- … after the stretch computing the edge weights. -/
abbrev UP : Valuation Cert.ReferenceIdeal.τ Cert.ReferenceIdeal.sig (Elt Ideal) := after Cert.ReferenceIdeal.Line.cPreC (UB m' c)
/-- … after layer 1's product. -/
abbrev UD1 : Valuation Cert.ReferenceIdeal.τ Cert.ReferenceIdeal.sig (Elt Ideal) := after Cert.ReferenceIdeal.Line.cDot1 (UP m' c)
/-- … after layer 1's stretch after its product. -/
abbrev UT1 : Valuation Cert.ReferenceIdeal.τ Cert.ReferenceIdeal.sig (Elt Ideal) := after Cert.ReferenceIdeal.Line.cTail1 (UD1 m' c)
/-- … after layer 2's product. -/
abbrev UD2 : Valuation Cert.ReferenceIdeal.τ Cert.ReferenceIdeal.sig (Elt Ideal) := after Cert.ReferenceIdeal.Line.cDot2 (UT1 m' c)
/-- … after layer 2's stretch after its product. -/
abbrev UT2 : Valuation Cert.ReferenceIdeal.τ Cert.ReferenceIdeal.sig (Elt Ideal) := after Cert.ReferenceIdeal.Line.cTail2 (UD2 m' c)
/-- … after layer 3's product. -/
abbrev UD3 : Valuation Cert.ReferenceIdeal.τ Cert.ReferenceIdeal.sig (Elt Ideal) := after Cert.ReferenceIdeal.Line.cDot3 (UT2 m' c)
/-- … after layer 3's stretch after its product. -/
abbrev UT3 : Valuation Cert.ReferenceIdeal.τ Cert.ReferenceIdeal.sig (Elt Ideal) := after Cert.ReferenceIdeal.Line.cTail3 (UD3 m' c)
/-- … after layer 4's product. -/
abbrev UD4 : Valuation Cert.ReferenceIdeal.τ Cert.ReferenceIdeal.sig (Elt Ideal) := after Cert.ReferenceIdeal.Line.cDot4 (UT3 m' c)
/-- … after layer 4's stretch after its product. -/
abbrev UT4 : Valuation Cert.ReferenceIdeal.τ Cert.ReferenceIdeal.sig (Elt Ideal) := after Cert.ReferenceIdeal.Line.cTail4 (UD4 m' c)
/-- … after layer 5's product. -/
abbrev UD5 : Valuation Cert.ReferenceIdeal.τ Cert.ReferenceIdeal.sig (Elt Ideal) := after Cert.ReferenceIdeal.Line.cDot5 (UT4 m' c)
/-- … after layer 5's stretch after its product. -/
abbrev UT5 : Valuation Cert.ReferenceIdeal.τ Cert.ReferenceIdeal.sig (Elt Ideal) := after Cert.ReferenceIdeal.Line.cTail5 (UD5 m' c)

/-- Folding the whole line is folding its stretches one after the other. -/
theorem fold_line : after Cert.ReferenceIdeal.Line.ops (U0 m' c) = (UT5 m' c) := by
  show after (Cert.ReferenceIdeal.Line.cPreA ++ Cert.ReferenceIdeal.Line.cPreB ++ Cert.ReferenceIdeal.Line.cPreC ++ Cert.ReferenceIdeal.Line.cDot1 ++ Cert.ReferenceIdeal.Line.cTail1 ++ Cert.ReferenceIdeal.Line.cDot2 ++ Cert.ReferenceIdeal.Line.cTail2 ++ Cert.ReferenceIdeal.Line.cDot3 ++ Cert.ReferenceIdeal.Line.cTail3 ++ Cert.ReferenceIdeal.Line.cDot4 ++ Cert.ReferenceIdeal.Line.cTail4 ++ Cert.ReferenceIdeal.Line.cDot5 ++ Cert.ReferenceIdeal.Line.cTail5) _ = _
  simp only [Cert.ReferenceIdeal.Line.after_append]

/-- A buffer none of the reference's thirteen stretches writes ends as launched. -/
theorem ref_keeps (b : Ref Cert.ReferenceIdeal.sig .tc)
    (h0 : b ∉ Cert.ReferenceIdeal.Line.wr_cPreA)
    (h1 : b ∉ Cert.ReferenceIdeal.Line.wr_cPreB)
    (h2 : b ∉ Cert.ReferenceIdeal.Line.wr_cPreC)
    (h3 : b ∉ Cert.ReferenceIdeal.Line.wr_cDot1)
    (h4 : b ∉ Cert.ReferenceIdeal.Line.wr_cTail1)
    (h5 : b ∉ Cert.ReferenceIdeal.Line.wr_cDot2)
    (h6 : b ∉ Cert.ReferenceIdeal.Line.wr_cTail2)
    (h7 : b ∉ Cert.ReferenceIdeal.Line.wr_cDot3)
    (h8 : b ∉ Cert.ReferenceIdeal.Line.wr_cTail3)
    (h9 : b ∉ Cert.ReferenceIdeal.Line.wr_cDot4)
    (h10 : b ∉ Cert.ReferenceIdeal.Line.wr_cTail4)
    (h11 : b ∉ Cert.ReferenceIdeal.Line.wr_cDot5)
    (h12 : b ∉ Cert.ReferenceIdeal.Line.wr_cTail5) :
    after Cert.ReferenceIdeal.Line.ops (U0 m' c) (Proc.devRef .tc b) = (U0 m' c) (Proc.devRef .tc b) := by
  rw [fold_line]
  exact ((Cert.ReferenceIdeal.Line.keep_cTail5 (UD5 m' c) b h12).trans ((Cert.ReferenceIdeal.Line.keep_cDot5 (UT4 m' c) b h11).trans ((Cert.ReferenceIdeal.Line.keep_cTail4 (UD4 m' c) b h10).trans ((Cert.ReferenceIdeal.Line.keep_cDot4 (UT3 m' c) b h9).trans ((Cert.ReferenceIdeal.Line.keep_cTail3 (UD3 m' c) b h8).trans ((Cert.ReferenceIdeal.Line.keep_cDot3 (UT2 m' c) b h7).trans ((Cert.ReferenceIdeal.Line.keep_cTail2 (UD2 m' c) b h6).trans ((Cert.ReferenceIdeal.Line.keep_cDot2 (UT1 m' c) b h5).trans ((Cert.ReferenceIdeal.Line.keep_cTail1 (UD1 m' c) b h4).trans ((Cert.ReferenceIdeal.Line.keep_cDot1 (UP m' c) b h3).trans ((Cert.ReferenceIdeal.Line.keep_cPreC (UB m' c) b h2).trans ((Cert.ReferenceIdeal.Line.keep_cPreB (UA m' c) b h1).trans (Cert.ReferenceIdeal.Line.keep_cPreA (U0 m' c) b h0)))))))))))))

/-- From launch memories that agree on the argument arrays, the reference's result is what the kernel program's last
    boundary holds at its result buffer. -/
theorem results_agree
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    after Cert.ReferenceIdeal.Line.ops (U0 m' c) (Proc.devRef .tc Cert.ReferenceIdeal.main_v119) = Cert.KernelIdeal.Gen.W13 m ρ c (Proc.devRef .tc Cert.KernelIdeal.main_v114) := by
  obtain ⟨a0, a1, a2, a3, a4, a5, a6, a7, a8, a9, a10, a11⟩ := hag
  rw [fold_line]
  -- the first stretch: endpoints, degrees
  have hsA : (UA m' c) (Proc.devRef .tc Cert.ReferenceIdeal.main_v3) = Cert.KernelIdeal.Gen.W1 m ρ c (Proc.devRef .tc Cert.KernelIdeal.main_v3) :=
    pre_source (Cert.KernelIdeal.Gen.W0 m ρ c) (U0 m' c) a1
  have htA : (UA m' c) (Proc.devRef .tc Cert.ReferenceIdeal.main_v6) = Cert.KernelIdeal.Gen.W1 m ρ c (Proc.devRef .tc Cert.KernelIdeal.main_v6) :=
    pre_target (Cert.KernelIdeal.Gen.W0 m ρ c) (U0 m' c) a1
  have hpA : (UA m' c) (Proc.devRef .tc Cert.ReferenceIdeal.main_v12) = Cert.KernelIdeal.Gen.W1 m ρ c (Proc.devRef .tc Cert.KernelIdeal.main_v12) :=
    pre_positive (Cert.KernelIdeal.Gen.W0 m ρ c) (U0 m' c) a1
  have hrA : (UA m' c) (Proc.devRef .tc Cert.ReferenceIdeal.main_v13) = Cert.KernelIdeal.Gen.W1 m ρ c (Proc.devRef .tc Cert.KernelIdeal.main_v13) :=
    pre_rsqrt (Cert.KernelIdeal.Gen.W0 m ρ c) (U0 m' c) a1
  have hzA : (UA m' c) (Proc.devRef .tc Cert.ReferenceIdeal.main_cst_2) = Cert.KernelIdeal.Gen.W1 m ρ c (Proc.devRef .tc Cert.KernelIdeal.main_cst_2) :=
    pre_zero (Cert.KernelIdeal.Gen.W0 m ρ c) (U0 m' c)
  -- the outlined select, then the edge weights
  have hdB : (UB m' c) (Proc.devRef .tc Cert.ReferenceIdeal.main_v14) = Cert.KernelIdeal.Gen.W2 m ρ c (Proc.devRef .tc Cert.KernelIdeal.main_v14) :=
    pre_select (Cert.KernelIdeal.Gen.W1 m ρ c) (UA m' c) hpA hrA hzA
  have hn : (UP m' c) (Proc.devRef .tc Cert.ReferenceIdeal.main_v29) = Cert.KernelIdeal.Gen.W3 m ρ c (Proc.devRef .tc Cert.KernelIdeal.main_v29) :=
    pre_weight (Cert.KernelIdeal.Gen.W2 m ρ c) (UB m' c) hdB
      ((Cert.ReferenceIdeal.Line.keep_cPreB (UA m' c) Cert.ReferenceIdeal.main_v3 (by decide)).trans ((hsA).trans (Cert.KernelIdeal.Keep.keep_h0a (Cert.KernelIdeal.Gen.W1 m ρ c) Cert.KernelIdeal.main_v3 (by decide)).symm))
      ((Cert.ReferenceIdeal.Line.keep_cPreB (UA m' c) Cert.ReferenceIdeal.main_v6 (by decide)).trans ((htA).trans (Cert.KernelIdeal.Keep.keep_h0a (Cert.KernelIdeal.Gen.W1 m ρ c) Cert.KernelIdeal.main_v6 (by decide)).symm))
  have hs : (UP m' c) (Proc.devRef .tc Cert.ReferenceIdeal.main_v3) = Cert.KernelIdeal.Gen.W3 m ρ c (Proc.devRef .tc Cert.KernelIdeal.main_v3) :=
    (((Cert.ReferenceIdeal.Line.keep_cPreC (UB m' c) Cert.ReferenceIdeal.main_v3 (by decide)).trans (Cert.ReferenceIdeal.Line.keep_cPreB (UA m' c) Cert.ReferenceIdeal.main_v3 (by decide))).trans ((hsA).trans ((Cert.KernelIdeal.Keep.keep_h0b (Cert.KernelIdeal.Gen.W2 m ρ c) Cert.KernelIdeal.main_v3 (by decide)).trans (Cert.KernelIdeal.Keep.keep_h0a (Cert.KernelIdeal.Gen.W1 m ρ c) Cert.KernelIdeal.main_v3 (by decide))).symm))
  have ht : (UP m' c) (Proc.devRef .tc Cert.ReferenceIdeal.main_v6) = Cert.KernelIdeal.Gen.W3 m ρ c (Proc.devRef .tc Cert.KernelIdeal.main_v6) :=
    (((Cert.ReferenceIdeal.Line.keep_cPreC (UB m' c) Cert.ReferenceIdeal.main_v6 (by decide)).trans (Cert.ReferenceIdeal.Line.keep_cPreB (UA m' c) Cert.ReferenceIdeal.main_v6 (by decide))).trans ((htA).trans ((Cert.KernelIdeal.Keep.keep_h0b (Cert.KernelIdeal.Gen.W2 m ρ c) Cert.KernelIdeal.main_v6 (by decide)).trans (Cert.KernelIdeal.Keep.keep_h0a (Cert.KernelIdeal.Gen.W1 m ρ c) Cert.KernelIdeal.main_v6 (by decide))).symm))
  -- layer 1: the product, then what follows it
  have hD1 : (UD1 m' c) (Proc.devRef .tc Cert.ReferenceIdeal.main_v30) = Cert.KernelIdeal.Gen.W4 m ρ c (Proc.devRef .tc Cert.KernelIdeal.main_v30) :=
    dot1 m ρ c (UP m' c) (((Cert.ReferenceIdeal.Line.keep_cPreC (UB m' c) Cert.ReferenceIdeal.main_arg0 (by decide)).trans ((Cert.ReferenceIdeal.Line.keep_cPreB (UA m' c) Cert.ReferenceIdeal.main_arg0 (by decide)).trans (Cert.ReferenceIdeal.Line.keep_cPreA (U0 m' c) Cert.ReferenceIdeal.main_arg0 (by decide)))).trans ((a0).trans ((Cert.KernelIdeal.Keep.keep_h0b (Cert.KernelIdeal.Gen.W2 m ρ c) Cert.KernelIdeal.main_arg0 (by decide)).trans ((Cert.KernelIdeal.Keep.keep_h0a (Cert.KernelIdeal.Gen.W1 m ρ c) Cert.KernelIdeal.main_arg0 (by decide)).trans (Cert.KernelIdeal.Keep.keep_h0 (Cert.KernelIdeal.Gen.W0 m ρ c) Cert.KernelIdeal.main_arg0 (by decide)))).symm))
      (((Cert.ReferenceIdeal.Line.keep_cPreC (UB m' c) Cert.ReferenceIdeal.main_arg2 (by decide)).trans ((Cert.ReferenceIdeal.Line.keep_cPreB (UA m' c) Cert.ReferenceIdeal.main_arg2 (by decide)).trans (Cert.ReferenceIdeal.Line.keep_cPreA (U0 m' c) Cert.ReferenceIdeal.main_arg2 (by decide)))).trans ((a2).trans ((Cert.KernelIdeal.Keep.keep_h0b (Cert.KernelIdeal.Gen.W2 m ρ c) Cert.KernelIdeal.main_arg2 (by decide)).trans ((Cert.KernelIdeal.Keep.keep_h0a (Cert.KernelIdeal.Gen.W1 m ρ c) Cert.KernelIdeal.main_arg2 (by decide)).trans (Cert.KernelIdeal.Keep.keep_h0 (Cert.KernelIdeal.Gen.W0 m ρ c) Cert.KernelIdeal.main_arg2 (by decide)))).symm))
  have hT1 : (UT1 m' c) (Proc.devRef .tc Cert.ReferenceIdeal.main_v47) = Cert.KernelIdeal.Gen.W5 m ρ c (Proc.devRef .tc Cert.KernelIdeal.main_v46) :=
    tail1 (Cert.KernelIdeal.Gen.W4 m ρ c) (UD1 m' c) hD1
      ((Cert.ReferenceIdeal.Line.keep_cDot1 (UP m' c) Cert.ReferenceIdeal.main_v3 (by decide)).trans ((hs).trans (Cert.KernelIdeal.Gen.W4_of_ne m ρ c Cert.KernelIdeal.main_v3 (by decide)).symm))
      ((Cert.ReferenceIdeal.Line.keep_cDot1 (UP m' c) Cert.ReferenceIdeal.main_v6 (by decide)).trans ((ht).trans (Cert.KernelIdeal.Gen.W4_of_ne m ρ c Cert.KernelIdeal.main_v6 (by decide)).symm))
      ((Cert.ReferenceIdeal.Line.keep_cDot1 (UP m' c) Cert.ReferenceIdeal.main_v29 (by decide)).trans ((hn).trans (Cert.KernelIdeal.Gen.W4_of_ne m ρ c Cert.KernelIdeal.main_v29 (by decide)).symm))
      (((Cert.ReferenceIdeal.Line.keep_cDot1 (UP m' c) Cert.ReferenceIdeal.main_arg3 (by decide)).trans ((Cert.ReferenceIdeal.Line.keep_cPreC (UB m' c) Cert.ReferenceIdeal.main_arg3 (by decide)).trans ((Cert.ReferenceIdeal.Line.keep_cPreB (UA m' c) Cert.ReferenceIdeal.main_arg3 (by decide)).trans (Cert.ReferenceIdeal.Line.keep_cPreA (U0 m' c) Cert.ReferenceIdeal.main_arg3 (by decide))))).trans ((a3).trans ((Cert.KernelIdeal.Gen.W4_of_ne m ρ c Cert.KernelIdeal.main_arg3 (by decide)).trans ((Cert.KernelIdeal.Keep.keep_h0b (Cert.KernelIdeal.Gen.W2 m ρ c) Cert.KernelIdeal.main_arg3 (by decide)).trans ((Cert.KernelIdeal.Keep.keep_h0a (Cert.KernelIdeal.Gen.W1 m ρ c) Cert.KernelIdeal.main_arg3 (by decide)).trans (Cert.KernelIdeal.Keep.keep_h0 (Cert.KernelIdeal.Gen.W0 m ρ c) Cert.KernelIdeal.main_arg3 (by decide))))).symm))
  -- layer 2: the product, then what follows it
  have hD2 : (UD2 m' c) (Proc.devRef .tc Cert.ReferenceIdeal.main_v48) = Cert.KernelIdeal.Gen.W6 m ρ c (Proc.devRef .tc Cert.KernelIdeal.main_v47) :=
    dot2 m ρ c (UT1 m' c) hT1
      (((Cert.ReferenceIdeal.Line.keep_cTail1 (UD1 m' c) Cert.ReferenceIdeal.main_arg4 (by decide)).trans ((Cert.ReferenceIdeal.Line.keep_cDot1 (UP m' c) Cert.ReferenceIdeal.main_arg4 (by decide)).trans ((Cert.ReferenceIdeal.Line.keep_cPreC (UB m' c) Cert.ReferenceIdeal.main_arg4 (by decide)).trans ((Cert.ReferenceIdeal.Line.keep_cPreB (UA m' c) Cert.ReferenceIdeal.main_arg4 (by decide)).trans (Cert.ReferenceIdeal.Line.keep_cPreA (U0 m' c) Cert.ReferenceIdeal.main_arg4 (by decide)))))).trans ((a4).trans ((Cert.KernelIdeal.Keep.keep_h1 (Cert.KernelIdeal.Gen.W4 m ρ c) Cert.KernelIdeal.main_arg4 (by decide)).trans ((Cert.KernelIdeal.Gen.W4_of_ne m ρ c Cert.KernelIdeal.main_arg4 (by decide)).trans ((Cert.KernelIdeal.Keep.keep_h0b (Cert.KernelIdeal.Gen.W2 m ρ c) Cert.KernelIdeal.main_arg4 (by decide)).trans ((Cert.KernelIdeal.Keep.keep_h0a (Cert.KernelIdeal.Gen.W1 m ρ c) Cert.KernelIdeal.main_arg4 (by decide)).trans (Cert.KernelIdeal.Keep.keep_h0 (Cert.KernelIdeal.Gen.W0 m ρ c) Cert.KernelIdeal.main_arg4 (by decide)))))).symm))
  have hT2 : (UT2 m' c) (Proc.devRef .tc Cert.ReferenceIdeal.main_v65) = Cert.KernelIdeal.Gen.W7 m ρ c (Proc.devRef .tc Cert.KernelIdeal.main_v63) :=
    tail2 (Cert.KernelIdeal.Gen.W6 m ρ c) (UD2 m' c) hD2
      (((Cert.ReferenceIdeal.Line.keep_cDot2 (UT1 m' c) Cert.ReferenceIdeal.main_v3 (by decide)).trans ((Cert.ReferenceIdeal.Line.keep_cTail1 (UD1 m' c) Cert.ReferenceIdeal.main_v3 (by decide)).trans (Cert.ReferenceIdeal.Line.keep_cDot1 (UP m' c) Cert.ReferenceIdeal.main_v3 (by decide)))).trans ((hs).trans ((Cert.KernelIdeal.Gen.W6_of_ne m ρ c Cert.KernelIdeal.main_v3 (by decide)).trans ((Cert.KernelIdeal.Keep.keep_h1 (Cert.KernelIdeal.Gen.W4 m ρ c) Cert.KernelIdeal.main_v3 (by decide)).trans (Cert.KernelIdeal.Gen.W4_of_ne m ρ c Cert.KernelIdeal.main_v3 (by decide)))).symm))
      (((Cert.ReferenceIdeal.Line.keep_cDot2 (UT1 m' c) Cert.ReferenceIdeal.main_v6 (by decide)).trans ((Cert.ReferenceIdeal.Line.keep_cTail1 (UD1 m' c) Cert.ReferenceIdeal.main_v6 (by decide)).trans (Cert.ReferenceIdeal.Line.keep_cDot1 (UP m' c) Cert.ReferenceIdeal.main_v6 (by decide)))).trans ((ht).trans ((Cert.KernelIdeal.Gen.W6_of_ne m ρ c Cert.KernelIdeal.main_v6 (by decide)).trans ((Cert.KernelIdeal.Keep.keep_h1 (Cert.KernelIdeal.Gen.W4 m ρ c) Cert.KernelIdeal.main_v6 (by decide)).trans (Cert.KernelIdeal.Gen.W4_of_ne m ρ c Cert.KernelIdeal.main_v6 (by decide)))).symm))
      (((Cert.ReferenceIdeal.Line.keep_cDot2 (UT1 m' c) Cert.ReferenceIdeal.main_v29 (by decide)).trans ((Cert.ReferenceIdeal.Line.keep_cTail1 (UD1 m' c) Cert.ReferenceIdeal.main_v29 (by decide)).trans (Cert.ReferenceIdeal.Line.keep_cDot1 (UP m' c) Cert.ReferenceIdeal.main_v29 (by decide)))).trans ((hn).trans ((Cert.KernelIdeal.Gen.W6_of_ne m ρ c Cert.KernelIdeal.main_v29 (by decide)).trans ((Cert.KernelIdeal.Keep.keep_h1 (Cert.KernelIdeal.Gen.W4 m ρ c) Cert.KernelIdeal.main_v29 (by decide)).trans (Cert.KernelIdeal.Gen.W4_of_ne m ρ c Cert.KernelIdeal.main_v29 (by decide)))).symm))
      (((Cert.ReferenceIdeal.Line.keep_cDot2 (UT1 m' c) Cert.ReferenceIdeal.main_arg5 (by decide)).trans ((Cert.ReferenceIdeal.Line.keep_cTail1 (UD1 m' c) Cert.ReferenceIdeal.main_arg5 (by decide)).trans ((Cert.ReferenceIdeal.Line.keep_cDot1 (UP m' c) Cert.ReferenceIdeal.main_arg5 (by decide)).trans ((Cert.ReferenceIdeal.Line.keep_cPreC (UB m' c) Cert.ReferenceIdeal.main_arg5 (by decide)).trans ((Cert.ReferenceIdeal.Line.keep_cPreB (UA m' c) Cert.ReferenceIdeal.main_arg5 (by decide)).trans (Cert.ReferenceIdeal.Line.keep_cPreA (U0 m' c) Cert.ReferenceIdeal.main_arg5 (by decide))))))).trans ((a5).trans ((Cert.KernelIdeal.Gen.W6_of_ne m ρ c Cert.KernelIdeal.main_arg5 (by decide)).trans ((Cert.KernelIdeal.Keep.keep_h1 (Cert.KernelIdeal.Gen.W4 m ρ c) Cert.KernelIdeal.main_arg5 (by decide)).trans ((Cert.KernelIdeal.Gen.W4_of_ne m ρ c Cert.KernelIdeal.main_arg5 (by decide)).trans ((Cert.KernelIdeal.Keep.keep_h0b (Cert.KernelIdeal.Gen.W2 m ρ c) Cert.KernelIdeal.main_arg5 (by decide)).trans ((Cert.KernelIdeal.Keep.keep_h0a (Cert.KernelIdeal.Gen.W1 m ρ c) Cert.KernelIdeal.main_arg5 (by decide)).trans (Cert.KernelIdeal.Keep.keep_h0 (Cert.KernelIdeal.Gen.W0 m ρ c) Cert.KernelIdeal.main_arg5 (by decide))))))).symm))
  -- layer 3: the product, then what follows it
  have hD3 : (UD3 m' c) (Proc.devRef .tc Cert.ReferenceIdeal.main_v66) = Cert.KernelIdeal.Gen.W8 m ρ c (Proc.devRef .tc Cert.KernelIdeal.main_v64) :=
    dot3 m ρ c (UT2 m' c) hT2
      (((Cert.ReferenceIdeal.Line.keep_cTail2 (UD2 m' c) Cert.ReferenceIdeal.main_arg6 (by decide)).trans ((Cert.ReferenceIdeal.Line.keep_cDot2 (UT1 m' c) Cert.ReferenceIdeal.main_arg6 (by decide)).trans ((Cert.ReferenceIdeal.Line.keep_cTail1 (UD1 m' c) Cert.ReferenceIdeal.main_arg6 (by decide)).trans ((Cert.ReferenceIdeal.Line.keep_cDot1 (UP m' c) Cert.ReferenceIdeal.main_arg6 (by decide)).trans ((Cert.ReferenceIdeal.Line.keep_cPreC (UB m' c) Cert.ReferenceIdeal.main_arg6 (by decide)).trans ((Cert.ReferenceIdeal.Line.keep_cPreB (UA m' c) Cert.ReferenceIdeal.main_arg6 (by decide)).trans (Cert.ReferenceIdeal.Line.keep_cPreA (U0 m' c) Cert.ReferenceIdeal.main_arg6 (by decide)))))))).trans ((a6).trans ((Cert.KernelIdeal.Keep.keep_h2 (Cert.KernelIdeal.Gen.W6 m ρ c) Cert.KernelIdeal.main_arg6 (by decide)).trans ((Cert.KernelIdeal.Gen.W6_of_ne m ρ c Cert.KernelIdeal.main_arg6 (by decide)).trans ((Cert.KernelIdeal.Keep.keep_h1 (Cert.KernelIdeal.Gen.W4 m ρ c) Cert.KernelIdeal.main_arg6 (by decide)).trans ((Cert.KernelIdeal.Gen.W4_of_ne m ρ c Cert.KernelIdeal.main_arg6 (by decide)).trans ((Cert.KernelIdeal.Keep.keep_h0b (Cert.KernelIdeal.Gen.W2 m ρ c) Cert.KernelIdeal.main_arg6 (by decide)).trans ((Cert.KernelIdeal.Keep.keep_h0a (Cert.KernelIdeal.Gen.W1 m ρ c) Cert.KernelIdeal.main_arg6 (by decide)).trans (Cert.KernelIdeal.Keep.keep_h0 (Cert.KernelIdeal.Gen.W0 m ρ c) Cert.KernelIdeal.main_arg6 (by decide)))))))).symm))
  have hT3 : (UT3 m' c) (Proc.devRef .tc Cert.ReferenceIdeal.main_v83) = Cert.KernelIdeal.Gen.W9 m ρ c (Proc.devRef .tc Cert.KernelIdeal.main_v80) :=
    tail3 (Cert.KernelIdeal.Gen.W8 m ρ c) (UD3 m' c) hD3
      (((Cert.ReferenceIdeal.Line.keep_cDot3 (UT2 m' c) Cert.ReferenceIdeal.main_v3 (by decide)).trans ((Cert.ReferenceIdeal.Line.keep_cTail2 (UD2 m' c) Cert.ReferenceIdeal.main_v3 (by decide)).trans ((Cert.ReferenceIdeal.Line.keep_cDot2 (UT1 m' c) Cert.ReferenceIdeal.main_v3 (by decide)).trans ((Cert.ReferenceIdeal.Line.keep_cTail1 (UD1 m' c) Cert.ReferenceIdeal.main_v3 (by decide)).trans (Cert.ReferenceIdeal.Line.keep_cDot1 (UP m' c) Cert.ReferenceIdeal.main_v3 (by decide)))))).trans ((hs).trans ((Cert.KernelIdeal.Gen.W8_of_ne m ρ c Cert.KernelIdeal.main_v3 (by decide)).trans ((Cert.KernelIdeal.Keep.keep_h2 (Cert.KernelIdeal.Gen.W6 m ρ c) Cert.KernelIdeal.main_v3 (by decide)).trans ((Cert.KernelIdeal.Gen.W6_of_ne m ρ c Cert.KernelIdeal.main_v3 (by decide)).trans ((Cert.KernelIdeal.Keep.keep_h1 (Cert.KernelIdeal.Gen.W4 m ρ c) Cert.KernelIdeal.main_v3 (by decide)).trans (Cert.KernelIdeal.Gen.W4_of_ne m ρ c Cert.KernelIdeal.main_v3 (by decide)))))).symm))
      (((Cert.ReferenceIdeal.Line.keep_cDot3 (UT2 m' c) Cert.ReferenceIdeal.main_v6 (by decide)).trans ((Cert.ReferenceIdeal.Line.keep_cTail2 (UD2 m' c) Cert.ReferenceIdeal.main_v6 (by decide)).trans ((Cert.ReferenceIdeal.Line.keep_cDot2 (UT1 m' c) Cert.ReferenceIdeal.main_v6 (by decide)).trans ((Cert.ReferenceIdeal.Line.keep_cTail1 (UD1 m' c) Cert.ReferenceIdeal.main_v6 (by decide)).trans (Cert.ReferenceIdeal.Line.keep_cDot1 (UP m' c) Cert.ReferenceIdeal.main_v6 (by decide)))))).trans ((ht).trans ((Cert.KernelIdeal.Gen.W8_of_ne m ρ c Cert.KernelIdeal.main_v6 (by decide)).trans ((Cert.KernelIdeal.Keep.keep_h2 (Cert.KernelIdeal.Gen.W6 m ρ c) Cert.KernelIdeal.main_v6 (by decide)).trans ((Cert.KernelIdeal.Gen.W6_of_ne m ρ c Cert.KernelIdeal.main_v6 (by decide)).trans ((Cert.KernelIdeal.Keep.keep_h1 (Cert.KernelIdeal.Gen.W4 m ρ c) Cert.KernelIdeal.main_v6 (by decide)).trans (Cert.KernelIdeal.Gen.W4_of_ne m ρ c Cert.KernelIdeal.main_v6 (by decide)))))).symm))
      (((Cert.ReferenceIdeal.Line.keep_cDot3 (UT2 m' c) Cert.ReferenceIdeal.main_v29 (by decide)).trans ((Cert.ReferenceIdeal.Line.keep_cTail2 (UD2 m' c) Cert.ReferenceIdeal.main_v29 (by decide)).trans ((Cert.ReferenceIdeal.Line.keep_cDot2 (UT1 m' c) Cert.ReferenceIdeal.main_v29 (by decide)).trans ((Cert.ReferenceIdeal.Line.keep_cTail1 (UD1 m' c) Cert.ReferenceIdeal.main_v29 (by decide)).trans (Cert.ReferenceIdeal.Line.keep_cDot1 (UP m' c) Cert.ReferenceIdeal.main_v29 (by decide)))))).trans ((hn).trans ((Cert.KernelIdeal.Gen.W8_of_ne m ρ c Cert.KernelIdeal.main_v29 (by decide)).trans ((Cert.KernelIdeal.Keep.keep_h2 (Cert.KernelIdeal.Gen.W6 m ρ c) Cert.KernelIdeal.main_v29 (by decide)).trans ((Cert.KernelIdeal.Gen.W6_of_ne m ρ c Cert.KernelIdeal.main_v29 (by decide)).trans ((Cert.KernelIdeal.Keep.keep_h1 (Cert.KernelIdeal.Gen.W4 m ρ c) Cert.KernelIdeal.main_v29 (by decide)).trans (Cert.KernelIdeal.Gen.W4_of_ne m ρ c Cert.KernelIdeal.main_v29 (by decide)))))).symm))
      (((Cert.ReferenceIdeal.Line.keep_cDot3 (UT2 m' c) Cert.ReferenceIdeal.main_arg7 (by decide)).trans ((Cert.ReferenceIdeal.Line.keep_cTail2 (UD2 m' c) Cert.ReferenceIdeal.main_arg7 (by decide)).trans ((Cert.ReferenceIdeal.Line.keep_cDot2 (UT1 m' c) Cert.ReferenceIdeal.main_arg7 (by decide)).trans ((Cert.ReferenceIdeal.Line.keep_cTail1 (UD1 m' c) Cert.ReferenceIdeal.main_arg7 (by decide)).trans ((Cert.ReferenceIdeal.Line.keep_cDot1 (UP m' c) Cert.ReferenceIdeal.main_arg7 (by decide)).trans ((Cert.ReferenceIdeal.Line.keep_cPreC (UB m' c) Cert.ReferenceIdeal.main_arg7 (by decide)).trans ((Cert.ReferenceIdeal.Line.keep_cPreB (UA m' c) Cert.ReferenceIdeal.main_arg7 (by decide)).trans (Cert.ReferenceIdeal.Line.keep_cPreA (U0 m' c) Cert.ReferenceIdeal.main_arg7 (by decide))))))))).trans ((a7).trans ((Cert.KernelIdeal.Gen.W8_of_ne m ρ c Cert.KernelIdeal.main_arg7 (by decide)).trans ((Cert.KernelIdeal.Keep.keep_h2 (Cert.KernelIdeal.Gen.W6 m ρ c) Cert.KernelIdeal.main_arg7 (by decide)).trans ((Cert.KernelIdeal.Gen.W6_of_ne m ρ c Cert.KernelIdeal.main_arg7 (by decide)).trans ((Cert.KernelIdeal.Keep.keep_h1 (Cert.KernelIdeal.Gen.W4 m ρ c) Cert.KernelIdeal.main_arg7 (by decide)).trans ((Cert.KernelIdeal.Gen.W4_of_ne m ρ c Cert.KernelIdeal.main_arg7 (by decide)).trans ((Cert.KernelIdeal.Keep.keep_h0b (Cert.KernelIdeal.Gen.W2 m ρ c) Cert.KernelIdeal.main_arg7 (by decide)).trans ((Cert.KernelIdeal.Keep.keep_h0a (Cert.KernelIdeal.Gen.W1 m ρ c) Cert.KernelIdeal.main_arg7 (by decide)).trans (Cert.KernelIdeal.Keep.keep_h0 (Cert.KernelIdeal.Gen.W0 m ρ c) Cert.KernelIdeal.main_arg7 (by decide))))))))).symm))
  -- layer 4: the product, then what follows it
  have hD4 : (UD4 m' c) (Proc.devRef .tc Cert.ReferenceIdeal.main_v84) = Cert.KernelIdeal.Gen.W10 m ρ c (Proc.devRef .tc Cert.KernelIdeal.main_v81) :=
    dot4 m ρ c (UT3 m' c) hT3
      (((Cert.ReferenceIdeal.Line.keep_cTail3 (UD3 m' c) Cert.ReferenceIdeal.main_arg8 (by decide)).trans ((Cert.ReferenceIdeal.Line.keep_cDot3 (UT2 m' c) Cert.ReferenceIdeal.main_arg8 (by decide)).trans ((Cert.ReferenceIdeal.Line.keep_cTail2 (UD2 m' c) Cert.ReferenceIdeal.main_arg8 (by decide)).trans ((Cert.ReferenceIdeal.Line.keep_cDot2 (UT1 m' c) Cert.ReferenceIdeal.main_arg8 (by decide)).trans ((Cert.ReferenceIdeal.Line.keep_cTail1 (UD1 m' c) Cert.ReferenceIdeal.main_arg8 (by decide)).trans ((Cert.ReferenceIdeal.Line.keep_cDot1 (UP m' c) Cert.ReferenceIdeal.main_arg8 (by decide)).trans ((Cert.ReferenceIdeal.Line.keep_cPreC (UB m' c) Cert.ReferenceIdeal.main_arg8 (by decide)).trans ((Cert.ReferenceIdeal.Line.keep_cPreB (UA m' c) Cert.ReferenceIdeal.main_arg8 (by decide)).trans (Cert.ReferenceIdeal.Line.keep_cPreA (U0 m' c) Cert.ReferenceIdeal.main_arg8 (by decide)))))))))).trans ((a8).trans ((Cert.KernelIdeal.Keep.keep_h3 (Cert.KernelIdeal.Gen.W8 m ρ c) Cert.KernelIdeal.main_arg8 (by decide)).trans ((Cert.KernelIdeal.Gen.W8_of_ne m ρ c Cert.KernelIdeal.main_arg8 (by decide)).trans ((Cert.KernelIdeal.Keep.keep_h2 (Cert.KernelIdeal.Gen.W6 m ρ c) Cert.KernelIdeal.main_arg8 (by decide)).trans ((Cert.KernelIdeal.Gen.W6_of_ne m ρ c Cert.KernelIdeal.main_arg8 (by decide)).trans ((Cert.KernelIdeal.Keep.keep_h1 (Cert.KernelIdeal.Gen.W4 m ρ c) Cert.KernelIdeal.main_arg8 (by decide)).trans ((Cert.KernelIdeal.Gen.W4_of_ne m ρ c Cert.KernelIdeal.main_arg8 (by decide)).trans ((Cert.KernelIdeal.Keep.keep_h0b (Cert.KernelIdeal.Gen.W2 m ρ c) Cert.KernelIdeal.main_arg8 (by decide)).trans ((Cert.KernelIdeal.Keep.keep_h0a (Cert.KernelIdeal.Gen.W1 m ρ c) Cert.KernelIdeal.main_arg8 (by decide)).trans (Cert.KernelIdeal.Keep.keep_h0 (Cert.KernelIdeal.Gen.W0 m ρ c) Cert.KernelIdeal.main_arg8 (by decide)))))))))).symm))
  have hT4 : (UT4 m' c) (Proc.devRef .tc Cert.ReferenceIdeal.main_v101) = Cert.KernelIdeal.Gen.W11 m ρ c (Proc.devRef .tc Cert.KernelIdeal.main_v97) :=
    tail4 (Cert.KernelIdeal.Gen.W10 m ρ c) (UD4 m' c) hD4
      (((Cert.ReferenceIdeal.Line.keep_cDot4 (UT3 m' c) Cert.ReferenceIdeal.main_v3 (by decide)).trans ((Cert.ReferenceIdeal.Line.keep_cTail3 (UD3 m' c) Cert.ReferenceIdeal.main_v3 (by decide)).trans ((Cert.ReferenceIdeal.Line.keep_cDot3 (UT2 m' c) Cert.ReferenceIdeal.main_v3 (by decide)).trans ((Cert.ReferenceIdeal.Line.keep_cTail2 (UD2 m' c) Cert.ReferenceIdeal.main_v3 (by decide)).trans ((Cert.ReferenceIdeal.Line.keep_cDot2 (UT1 m' c) Cert.ReferenceIdeal.main_v3 (by decide)).trans ((Cert.ReferenceIdeal.Line.keep_cTail1 (UD1 m' c) Cert.ReferenceIdeal.main_v3 (by decide)).trans (Cert.ReferenceIdeal.Line.keep_cDot1 (UP m' c) Cert.ReferenceIdeal.main_v3 (by decide)))))))).trans ((hs).trans ((Cert.KernelIdeal.Gen.W10_of_ne m ρ c Cert.KernelIdeal.main_v3 (by decide)).trans ((Cert.KernelIdeal.Keep.keep_h3 (Cert.KernelIdeal.Gen.W8 m ρ c) Cert.KernelIdeal.main_v3 (by decide)).trans ((Cert.KernelIdeal.Gen.W8_of_ne m ρ c Cert.KernelIdeal.main_v3 (by decide)).trans ((Cert.KernelIdeal.Keep.keep_h2 (Cert.KernelIdeal.Gen.W6 m ρ c) Cert.KernelIdeal.main_v3 (by decide)).trans ((Cert.KernelIdeal.Gen.W6_of_ne m ρ c Cert.KernelIdeal.main_v3 (by decide)).trans ((Cert.KernelIdeal.Keep.keep_h1 (Cert.KernelIdeal.Gen.W4 m ρ c) Cert.KernelIdeal.main_v3 (by decide)).trans (Cert.KernelIdeal.Gen.W4_of_ne m ρ c Cert.KernelIdeal.main_v3 (by decide)))))))).symm))
      (((Cert.ReferenceIdeal.Line.keep_cDot4 (UT3 m' c) Cert.ReferenceIdeal.main_v6 (by decide)).trans ((Cert.ReferenceIdeal.Line.keep_cTail3 (UD3 m' c) Cert.ReferenceIdeal.main_v6 (by decide)).trans ((Cert.ReferenceIdeal.Line.keep_cDot3 (UT2 m' c) Cert.ReferenceIdeal.main_v6 (by decide)).trans ((Cert.ReferenceIdeal.Line.keep_cTail2 (UD2 m' c) Cert.ReferenceIdeal.main_v6 (by decide)).trans ((Cert.ReferenceIdeal.Line.keep_cDot2 (UT1 m' c) Cert.ReferenceIdeal.main_v6 (by decide)).trans ((Cert.ReferenceIdeal.Line.keep_cTail1 (UD1 m' c) Cert.ReferenceIdeal.main_v6 (by decide)).trans (Cert.ReferenceIdeal.Line.keep_cDot1 (UP m' c) Cert.ReferenceIdeal.main_v6 (by decide)))))))).trans ((ht).trans ((Cert.KernelIdeal.Gen.W10_of_ne m ρ c Cert.KernelIdeal.main_v6 (by decide)).trans ((Cert.KernelIdeal.Keep.keep_h3 (Cert.KernelIdeal.Gen.W8 m ρ c) Cert.KernelIdeal.main_v6 (by decide)).trans ((Cert.KernelIdeal.Gen.W8_of_ne m ρ c Cert.KernelIdeal.main_v6 (by decide)).trans ((Cert.KernelIdeal.Keep.keep_h2 (Cert.KernelIdeal.Gen.W6 m ρ c) Cert.KernelIdeal.main_v6 (by decide)).trans ((Cert.KernelIdeal.Gen.W6_of_ne m ρ c Cert.KernelIdeal.main_v6 (by decide)).trans ((Cert.KernelIdeal.Keep.keep_h1 (Cert.KernelIdeal.Gen.W4 m ρ c) Cert.KernelIdeal.main_v6 (by decide)).trans (Cert.KernelIdeal.Gen.W4_of_ne m ρ c Cert.KernelIdeal.main_v6 (by decide)))))))).symm))
      (((Cert.ReferenceIdeal.Line.keep_cDot4 (UT3 m' c) Cert.ReferenceIdeal.main_v29 (by decide)).trans ((Cert.ReferenceIdeal.Line.keep_cTail3 (UD3 m' c) Cert.ReferenceIdeal.main_v29 (by decide)).trans ((Cert.ReferenceIdeal.Line.keep_cDot3 (UT2 m' c) Cert.ReferenceIdeal.main_v29 (by decide)).trans ((Cert.ReferenceIdeal.Line.keep_cTail2 (UD2 m' c) Cert.ReferenceIdeal.main_v29 (by decide)).trans ((Cert.ReferenceIdeal.Line.keep_cDot2 (UT1 m' c) Cert.ReferenceIdeal.main_v29 (by decide)).trans ((Cert.ReferenceIdeal.Line.keep_cTail1 (UD1 m' c) Cert.ReferenceIdeal.main_v29 (by decide)).trans (Cert.ReferenceIdeal.Line.keep_cDot1 (UP m' c) Cert.ReferenceIdeal.main_v29 (by decide)))))))).trans ((hn).trans ((Cert.KernelIdeal.Gen.W10_of_ne m ρ c Cert.KernelIdeal.main_v29 (by decide)).trans ((Cert.KernelIdeal.Keep.keep_h3 (Cert.KernelIdeal.Gen.W8 m ρ c) Cert.KernelIdeal.main_v29 (by decide)).trans ((Cert.KernelIdeal.Gen.W8_of_ne m ρ c Cert.KernelIdeal.main_v29 (by decide)).trans ((Cert.KernelIdeal.Keep.keep_h2 (Cert.KernelIdeal.Gen.W6 m ρ c) Cert.KernelIdeal.main_v29 (by decide)).trans ((Cert.KernelIdeal.Gen.W6_of_ne m ρ c Cert.KernelIdeal.main_v29 (by decide)).trans ((Cert.KernelIdeal.Keep.keep_h1 (Cert.KernelIdeal.Gen.W4 m ρ c) Cert.KernelIdeal.main_v29 (by decide)).trans (Cert.KernelIdeal.Gen.W4_of_ne m ρ c Cert.KernelIdeal.main_v29 (by decide)))))))).symm))
      (((Cert.ReferenceIdeal.Line.keep_cDot4 (UT3 m' c) Cert.ReferenceIdeal.main_arg9 (by decide)).trans ((Cert.ReferenceIdeal.Line.keep_cTail3 (UD3 m' c) Cert.ReferenceIdeal.main_arg9 (by decide)).trans ((Cert.ReferenceIdeal.Line.keep_cDot3 (UT2 m' c) Cert.ReferenceIdeal.main_arg9 (by decide)).trans ((Cert.ReferenceIdeal.Line.keep_cTail2 (UD2 m' c) Cert.ReferenceIdeal.main_arg9 (by decide)).trans ((Cert.ReferenceIdeal.Line.keep_cDot2 (UT1 m' c) Cert.ReferenceIdeal.main_arg9 (by decide)).trans ((Cert.ReferenceIdeal.Line.keep_cTail1 (UD1 m' c) Cert.ReferenceIdeal.main_arg9 (by decide)).trans ((Cert.ReferenceIdeal.Line.keep_cDot1 (UP m' c) Cert.ReferenceIdeal.main_arg9 (by decide)).trans ((Cert.ReferenceIdeal.Line.keep_cPreC (UB m' c) Cert.ReferenceIdeal.main_arg9 (by decide)).trans ((Cert.ReferenceIdeal.Line.keep_cPreB (UA m' c) Cert.ReferenceIdeal.main_arg9 (by decide)).trans (Cert.ReferenceIdeal.Line.keep_cPreA (U0 m' c) Cert.ReferenceIdeal.main_arg9 (by decide))))))))))).trans ((a9).trans ((Cert.KernelIdeal.Gen.W10_of_ne m ρ c Cert.KernelIdeal.main_arg9 (by decide)).trans ((Cert.KernelIdeal.Keep.keep_h3 (Cert.KernelIdeal.Gen.W8 m ρ c) Cert.KernelIdeal.main_arg9 (by decide)).trans ((Cert.KernelIdeal.Gen.W8_of_ne m ρ c Cert.KernelIdeal.main_arg9 (by decide)).trans ((Cert.KernelIdeal.Keep.keep_h2 (Cert.KernelIdeal.Gen.W6 m ρ c) Cert.KernelIdeal.main_arg9 (by decide)).trans ((Cert.KernelIdeal.Gen.W6_of_ne m ρ c Cert.KernelIdeal.main_arg9 (by decide)).trans ((Cert.KernelIdeal.Keep.keep_h1 (Cert.KernelIdeal.Gen.W4 m ρ c) Cert.KernelIdeal.main_arg9 (by decide)).trans ((Cert.KernelIdeal.Gen.W4_of_ne m ρ c Cert.KernelIdeal.main_arg9 (by decide)).trans ((Cert.KernelIdeal.Keep.keep_h0b (Cert.KernelIdeal.Gen.W2 m ρ c) Cert.KernelIdeal.main_arg9 (by decide)).trans ((Cert.KernelIdeal.Keep.keep_h0a (Cert.KernelIdeal.Gen.W1 m ρ c) Cert.KernelIdeal.main_arg9 (by decide)).trans (Cert.KernelIdeal.Keep.keep_h0 (Cert.KernelIdeal.Gen.W0 m ρ c) Cert.KernelIdeal.main_arg9 (by decide))))))))))).symm))
  -- layer 5: the product, then what follows it
  have hD5 : (UD5 m' c) (Proc.devRef .tc Cert.ReferenceIdeal.main_v102) = Cert.KernelIdeal.Gen.W12 m ρ c (Proc.devRef .tc Cert.KernelIdeal.main_v98) :=
    dot5 m ρ c (UT4 m' c) hT4
      (((Cert.ReferenceIdeal.Line.keep_cTail4 (UD4 m' c) Cert.ReferenceIdeal.main_arg10 (by decide)).trans ((Cert.ReferenceIdeal.Line.keep_cDot4 (UT3 m' c) Cert.ReferenceIdeal.main_arg10 (by decide)).trans ((Cert.ReferenceIdeal.Line.keep_cTail3 (UD3 m' c) Cert.ReferenceIdeal.main_arg10 (by decide)).trans ((Cert.ReferenceIdeal.Line.keep_cDot3 (UT2 m' c) Cert.ReferenceIdeal.main_arg10 (by decide)).trans ((Cert.ReferenceIdeal.Line.keep_cTail2 (UD2 m' c) Cert.ReferenceIdeal.main_arg10 (by decide)).trans ((Cert.ReferenceIdeal.Line.keep_cDot2 (UT1 m' c) Cert.ReferenceIdeal.main_arg10 (by decide)).trans ((Cert.ReferenceIdeal.Line.keep_cTail1 (UD1 m' c) Cert.ReferenceIdeal.main_arg10 (by decide)).trans ((Cert.ReferenceIdeal.Line.keep_cDot1 (UP m' c) Cert.ReferenceIdeal.main_arg10 (by decide)).trans ((Cert.ReferenceIdeal.Line.keep_cPreC (UB m' c) Cert.ReferenceIdeal.main_arg10 (by decide)).trans ((Cert.ReferenceIdeal.Line.keep_cPreB (UA m' c) Cert.ReferenceIdeal.main_arg10 (by decide)).trans (Cert.ReferenceIdeal.Line.keep_cPreA (U0 m' c) Cert.ReferenceIdeal.main_arg10 (by decide)))))))))))).trans ((a10).trans ((Cert.KernelIdeal.Keep.keep_h4 (Cert.KernelIdeal.Gen.W10 m ρ c) Cert.KernelIdeal.main_arg10 (by decide)).trans ((Cert.KernelIdeal.Gen.W10_of_ne m ρ c Cert.KernelIdeal.main_arg10 (by decide)).trans ((Cert.KernelIdeal.Keep.keep_h3 (Cert.KernelIdeal.Gen.W8 m ρ c) Cert.KernelIdeal.main_arg10 (by decide)).trans ((Cert.KernelIdeal.Gen.W8_of_ne m ρ c Cert.KernelIdeal.main_arg10 (by decide)).trans ((Cert.KernelIdeal.Keep.keep_h2 (Cert.KernelIdeal.Gen.W6 m ρ c) Cert.KernelIdeal.main_arg10 (by decide)).trans ((Cert.KernelIdeal.Gen.W6_of_ne m ρ c Cert.KernelIdeal.main_arg10 (by decide)).trans ((Cert.KernelIdeal.Keep.keep_h1 (Cert.KernelIdeal.Gen.W4 m ρ c) Cert.KernelIdeal.main_arg10 (by decide)).trans ((Cert.KernelIdeal.Gen.W4_of_ne m ρ c Cert.KernelIdeal.main_arg10 (by decide)).trans ((Cert.KernelIdeal.Keep.keep_h0b (Cert.KernelIdeal.Gen.W2 m ρ c) Cert.KernelIdeal.main_arg10 (by decide)).trans ((Cert.KernelIdeal.Keep.keep_h0a (Cert.KernelIdeal.Gen.W1 m ρ c) Cert.KernelIdeal.main_arg10 (by decide)).trans (Cert.KernelIdeal.Keep.keep_h0 (Cert.KernelIdeal.Gen.W0 m ρ c) Cert.KernelIdeal.main_arg10 (by decide)))))))))))).symm))
  have hT5 : (UT5 m' c) (Proc.devRef .tc Cert.ReferenceIdeal.main_v119) = Cert.KernelIdeal.Gen.W13 m ρ c (Proc.devRef .tc Cert.KernelIdeal.main_v114) :=
    tail5 (Cert.KernelIdeal.Gen.W12 m ρ c) (UD5 m' c) hD5
      (((Cert.ReferenceIdeal.Line.keep_cDot5 (UT4 m' c) Cert.ReferenceIdeal.main_v3 (by decide)).trans ((Cert.ReferenceIdeal.Line.keep_cTail4 (UD4 m' c) Cert.ReferenceIdeal.main_v3 (by decide)).trans ((Cert.ReferenceIdeal.Line.keep_cDot4 (UT3 m' c) Cert.ReferenceIdeal.main_v3 (by decide)).trans ((Cert.ReferenceIdeal.Line.keep_cTail3 (UD3 m' c) Cert.ReferenceIdeal.main_v3 (by decide)).trans ((Cert.ReferenceIdeal.Line.keep_cDot3 (UT2 m' c) Cert.ReferenceIdeal.main_v3 (by decide)).trans ((Cert.ReferenceIdeal.Line.keep_cTail2 (UD2 m' c) Cert.ReferenceIdeal.main_v3 (by decide)).trans ((Cert.ReferenceIdeal.Line.keep_cDot2 (UT1 m' c) Cert.ReferenceIdeal.main_v3 (by decide)).trans ((Cert.ReferenceIdeal.Line.keep_cTail1 (UD1 m' c) Cert.ReferenceIdeal.main_v3 (by decide)).trans (Cert.ReferenceIdeal.Line.keep_cDot1 (UP m' c) Cert.ReferenceIdeal.main_v3 (by decide)))))))))).trans ((hs).trans ((Cert.KernelIdeal.Gen.W12_of_ne m ρ c Cert.KernelIdeal.main_v3 (by decide)).trans ((Cert.KernelIdeal.Keep.keep_h4 (Cert.KernelIdeal.Gen.W10 m ρ c) Cert.KernelIdeal.main_v3 (by decide)).trans ((Cert.KernelIdeal.Gen.W10_of_ne m ρ c Cert.KernelIdeal.main_v3 (by decide)).trans ((Cert.KernelIdeal.Keep.keep_h3 (Cert.KernelIdeal.Gen.W8 m ρ c) Cert.KernelIdeal.main_v3 (by decide)).trans ((Cert.KernelIdeal.Gen.W8_of_ne m ρ c Cert.KernelIdeal.main_v3 (by decide)).trans ((Cert.KernelIdeal.Keep.keep_h2 (Cert.KernelIdeal.Gen.W6 m ρ c) Cert.KernelIdeal.main_v3 (by decide)).trans ((Cert.KernelIdeal.Gen.W6_of_ne m ρ c Cert.KernelIdeal.main_v3 (by decide)).trans ((Cert.KernelIdeal.Keep.keep_h1 (Cert.KernelIdeal.Gen.W4 m ρ c) Cert.KernelIdeal.main_v3 (by decide)).trans (Cert.KernelIdeal.Gen.W4_of_ne m ρ c Cert.KernelIdeal.main_v3 (by decide)))))))))).symm))
      (((Cert.ReferenceIdeal.Line.keep_cDot5 (UT4 m' c) Cert.ReferenceIdeal.main_v6 (by decide)).trans ((Cert.ReferenceIdeal.Line.keep_cTail4 (UD4 m' c) Cert.ReferenceIdeal.main_v6 (by decide)).trans ((Cert.ReferenceIdeal.Line.keep_cDot4 (UT3 m' c) Cert.ReferenceIdeal.main_v6 (by decide)).trans ((Cert.ReferenceIdeal.Line.keep_cTail3 (UD3 m' c) Cert.ReferenceIdeal.main_v6 (by decide)).trans ((Cert.ReferenceIdeal.Line.keep_cDot3 (UT2 m' c) Cert.ReferenceIdeal.main_v6 (by decide)).trans ((Cert.ReferenceIdeal.Line.keep_cTail2 (UD2 m' c) Cert.ReferenceIdeal.main_v6 (by decide)).trans ((Cert.ReferenceIdeal.Line.keep_cDot2 (UT1 m' c) Cert.ReferenceIdeal.main_v6 (by decide)).trans ((Cert.ReferenceIdeal.Line.keep_cTail1 (UD1 m' c) Cert.ReferenceIdeal.main_v6 (by decide)).trans (Cert.ReferenceIdeal.Line.keep_cDot1 (UP m' c) Cert.ReferenceIdeal.main_v6 (by decide)))))))))).trans ((ht).trans ((Cert.KernelIdeal.Gen.W12_of_ne m ρ c Cert.KernelIdeal.main_v6 (by decide)).trans ((Cert.KernelIdeal.Keep.keep_h4 (Cert.KernelIdeal.Gen.W10 m ρ c) Cert.KernelIdeal.main_v6 (by decide)).trans ((Cert.KernelIdeal.Gen.W10_of_ne m ρ c Cert.KernelIdeal.main_v6 (by decide)).trans ((Cert.KernelIdeal.Keep.keep_h3 (Cert.KernelIdeal.Gen.W8 m ρ c) Cert.KernelIdeal.main_v6 (by decide)).trans ((Cert.KernelIdeal.Gen.W8_of_ne m ρ c Cert.KernelIdeal.main_v6 (by decide)).trans ((Cert.KernelIdeal.Keep.keep_h2 (Cert.KernelIdeal.Gen.W6 m ρ c) Cert.KernelIdeal.main_v6 (by decide)).trans ((Cert.KernelIdeal.Gen.W6_of_ne m ρ c Cert.KernelIdeal.main_v6 (by decide)).trans ((Cert.KernelIdeal.Keep.keep_h1 (Cert.KernelIdeal.Gen.W4 m ρ c) Cert.KernelIdeal.main_v6 (by decide)).trans (Cert.KernelIdeal.Gen.W4_of_ne m ρ c Cert.KernelIdeal.main_v6 (by decide)))))))))).symm))
      (((Cert.ReferenceIdeal.Line.keep_cDot5 (UT4 m' c) Cert.ReferenceIdeal.main_v29 (by decide)).trans ((Cert.ReferenceIdeal.Line.keep_cTail4 (UD4 m' c) Cert.ReferenceIdeal.main_v29 (by decide)).trans ((Cert.ReferenceIdeal.Line.keep_cDot4 (UT3 m' c) Cert.ReferenceIdeal.main_v29 (by decide)).trans ((Cert.ReferenceIdeal.Line.keep_cTail3 (UD3 m' c) Cert.ReferenceIdeal.main_v29 (by decide)).trans ((Cert.ReferenceIdeal.Line.keep_cDot3 (UT2 m' c) Cert.ReferenceIdeal.main_v29 (by decide)).trans ((Cert.ReferenceIdeal.Line.keep_cTail2 (UD2 m' c) Cert.ReferenceIdeal.main_v29 (by decide)).trans ((Cert.ReferenceIdeal.Line.keep_cDot2 (UT1 m' c) Cert.ReferenceIdeal.main_v29 (by decide)).trans ((Cert.ReferenceIdeal.Line.keep_cTail1 (UD1 m' c) Cert.ReferenceIdeal.main_v29 (by decide)).trans (Cert.ReferenceIdeal.Line.keep_cDot1 (UP m' c) Cert.ReferenceIdeal.main_v29 (by decide)))))))))).trans ((hn).trans ((Cert.KernelIdeal.Gen.W12_of_ne m ρ c Cert.KernelIdeal.main_v29 (by decide)).trans ((Cert.KernelIdeal.Keep.keep_h4 (Cert.KernelIdeal.Gen.W10 m ρ c) Cert.KernelIdeal.main_v29 (by decide)).trans ((Cert.KernelIdeal.Gen.W10_of_ne m ρ c Cert.KernelIdeal.main_v29 (by decide)).trans ((Cert.KernelIdeal.Keep.keep_h3 (Cert.KernelIdeal.Gen.W8 m ρ c) Cert.KernelIdeal.main_v29 (by decide)).trans ((Cert.KernelIdeal.Gen.W8_of_ne m ρ c Cert.KernelIdeal.main_v29 (by decide)).trans ((Cert.KernelIdeal.Keep.keep_h2 (Cert.KernelIdeal.Gen.W6 m ρ c) Cert.KernelIdeal.main_v29 (by decide)).trans ((Cert.KernelIdeal.Gen.W6_of_ne m ρ c Cert.KernelIdeal.main_v29 (by decide)).trans ((Cert.KernelIdeal.Keep.keep_h1 (Cert.KernelIdeal.Gen.W4 m ρ c) Cert.KernelIdeal.main_v29 (by decide)).trans (Cert.KernelIdeal.Gen.W4_of_ne m ρ c Cert.KernelIdeal.main_v29 (by decide)))))))))).symm))
      (((Cert.ReferenceIdeal.Line.keep_cDot5 (UT4 m' c) Cert.ReferenceIdeal.main_arg11 (by decide)).trans ((Cert.ReferenceIdeal.Line.keep_cTail4 (UD4 m' c) Cert.ReferenceIdeal.main_arg11 (by decide)).trans ((Cert.ReferenceIdeal.Line.keep_cDot4 (UT3 m' c) Cert.ReferenceIdeal.main_arg11 (by decide)).trans ((Cert.ReferenceIdeal.Line.keep_cTail3 (UD3 m' c) Cert.ReferenceIdeal.main_arg11 (by decide)).trans ((Cert.ReferenceIdeal.Line.keep_cDot3 (UT2 m' c) Cert.ReferenceIdeal.main_arg11 (by decide)).trans ((Cert.ReferenceIdeal.Line.keep_cTail2 (UD2 m' c) Cert.ReferenceIdeal.main_arg11 (by decide)).trans ((Cert.ReferenceIdeal.Line.keep_cDot2 (UT1 m' c) Cert.ReferenceIdeal.main_arg11 (by decide)).trans ((Cert.ReferenceIdeal.Line.keep_cTail1 (UD1 m' c) Cert.ReferenceIdeal.main_arg11 (by decide)).trans ((Cert.ReferenceIdeal.Line.keep_cDot1 (UP m' c) Cert.ReferenceIdeal.main_arg11 (by decide)).trans ((Cert.ReferenceIdeal.Line.keep_cPreC (UB m' c) Cert.ReferenceIdeal.main_arg11 (by decide)).trans ((Cert.ReferenceIdeal.Line.keep_cPreB (UA m' c) Cert.ReferenceIdeal.main_arg11 (by decide)).trans (Cert.ReferenceIdeal.Line.keep_cPreA (U0 m' c) Cert.ReferenceIdeal.main_arg11 (by decide))))))))))))).trans ((a11).trans ((Cert.KernelIdeal.Gen.W12_of_ne m ρ c Cert.KernelIdeal.main_arg11 (by decide)).trans ((Cert.KernelIdeal.Keep.keep_h4 (Cert.KernelIdeal.Gen.W10 m ρ c) Cert.KernelIdeal.main_arg11 (by decide)).trans ((Cert.KernelIdeal.Gen.W10_of_ne m ρ c Cert.KernelIdeal.main_arg11 (by decide)).trans ((Cert.KernelIdeal.Keep.keep_h3 (Cert.KernelIdeal.Gen.W8 m ρ c) Cert.KernelIdeal.main_arg11 (by decide)).trans ((Cert.KernelIdeal.Gen.W8_of_ne m ρ c Cert.KernelIdeal.main_arg11 (by decide)).trans ((Cert.KernelIdeal.Keep.keep_h2 (Cert.KernelIdeal.Gen.W6 m ρ c) Cert.KernelIdeal.main_arg11 (by decide)).trans ((Cert.KernelIdeal.Gen.W6_of_ne m ρ c Cert.KernelIdeal.main_arg11 (by decide)).trans ((Cert.KernelIdeal.Keep.keep_h1 (Cert.KernelIdeal.Gen.W4 m ρ c) Cert.KernelIdeal.main_arg11 (by decide)).trans ((Cert.KernelIdeal.Gen.W4_of_ne m ρ c Cert.KernelIdeal.main_arg11 (by decide)).trans ((Cert.KernelIdeal.Keep.keep_h0b (Cert.KernelIdeal.Gen.W2 m ρ c) Cert.KernelIdeal.main_arg11 (by decide)).trans ((Cert.KernelIdeal.Keep.keep_h0a (Cert.KernelIdeal.Gen.W1 m ρ c) Cert.KernelIdeal.main_arg11 (by decide)).trans (Cert.KernelIdeal.Keep.keep_h0 (Cert.KernelIdeal.Gen.W0 m ρ c) Cert.KernelIdeal.main_arg11 (by decide))))))))))))).symm))
  exact hT5

end Cert.Bridge

end
-- ==== Proof.lean ====
/-
  A five-layer graph convolution network: the kernel program against its reference.

  Both programs compute, from node features `x : [100000, 8]`, an edge list of 1600000 edges and five weight / bias
  pairs, five times `h ← A (h W) + b`, where `A` is the normalized adjacency with self-loops: each edge `(s, t)` weighs
  `dinv s · dinv t` with `dinv` the inverse square root of the in-degree (zero at degree zero), a layer gathers each
  edge's source row of `h W`, scales it by the edge's weight and adds it into its target row. The kernel program
  computes each `h W` in a Pallas kernel over ten row blocks of 10000 rows (operands rounded to bf16 on the way in); the
  reference computes it in one host product and follows every layer by a leaky rectifier of slope one.

  On the exact extended reals a change of float format is the identity, a product into a zero accumulator and the host
  product are the same sum over the contracted axis, the ten row blocks tile the product, and the slope-one rectifier
  is the identity (`1 · x = x`, infinities included). Everything else is the same host operations on equal inputs.
  No law used needs finiteness, so the precondition is never opened.

  The kernel programs' frames are the generated frame certificates; the reference's frame is its run as a straight
  line of host operations, none of which writes an argument array; the idealization rewrote nothing.
-/
import proofs.«130898_j20847771254912_2_alg».proof.Defs
import proofs.«130898_j20847771254912_2_alg».proof.Proof.Gen.Kernel
import proofs.«130898_j20847771254912_2_alg».proof.Proof.Gen.Kernel.Frame
import proofs.«130898_j20847771254912_2_alg».proof.Proof.Gen.KernelIdeal
import proofs.«130898_j20847771254912_2_alg».proof.Proof.Gen.KernelIdeal.Frame
import proofs.«130898_j20847771254912_2_alg».proof.Proof.Gen.ReferenceIdeal
import proofs.«130898_j20847771254912_2_alg».proof.Proof.Gen.Pre_finite_inputs
import proofs.«130898_j20847771254912_2_alg».proof.Proof.KernelNamed
import proofs.«130898_j20847771254912_2_alg».proof.Proof.RefRun
import proofs.«130898_j20847771254912_2_alg».proof.Proof.Assemble
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel program runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations none of which writes an argument array. -/
theorem frame_referenceIdeal : Cert.frame_ReferenceIdeal := fun m ρ _ =>
  (θ_run Cert.ReferenceIdeal.defs _ _).mono
    (fun r h c =>
      ⟨(h c Cert.ReferenceIdeal.main_arg0).trans (Cert.Bridge.ref_keeps m c Cert.ReferenceIdeal.main_arg0 (by decide) (by decide) (by decide) (by decide) (by decide) (by decide) (by decide) (by decide) (by decide) (by decide) (by decide) (by decide) (by decide)),
       (h c Cert.ReferenceIdeal.main_arg1).trans (Cert.Bridge.ref_keeps m c Cert.ReferenceIdeal.main_arg1 (by decide) (by decide) (by decide) (by decide) (by decide) (by decide) (by decide) (by decide) (by decide) (by decide) (by decide) (by decide) (by decide)),
       (h c Cert.ReferenceIdeal.main_arg2).trans (Cert.Bridge.ref_keeps m c Cert.ReferenceIdeal.main_arg2 (by decide) (by decide) (by decide) (by decide) (by decide) (by decide) (by decide) (by decide) (by decide) (by decide) (by decide) (by decide) (by decide)),
       (h c Cert.ReferenceIdeal.main_arg3).trans (Cert.Bridge.ref_keeps m c Cert.ReferenceIdeal.main_arg3 (by decide) (by decide) (by decide) (by decide) (by decide) (by decide) (by decide) (by decide) (by decide) (by decide) (by decide) (by decide) (by decide)),
       (h c Cert.ReferenceIdeal.main_arg4).trans (Cert.Bridge.ref_keeps m c Cert.ReferenceIdeal.main_arg4 (by decide) (by decide) (by decide) (by decide) (by decide) (by decide) (by decide) (by decide) (by decide) (by decide) (by decide) (by decide) (by decide)),
       (h c Cert.ReferenceIdeal.main_arg5).trans (Cert.Bridge.ref_keeps m c Cert.ReferenceIdeal.main_arg5 (by decide) (by decide) (by decide) (by decide) (by decide) (by decide) (by decide) (by decide) (by decide) (by decide) (by decide) (by decide) (by decide)),
       (h c Cert.ReferenceIdeal.main_arg6).trans (Cert.Bridge.ref_keeps m c Cert.ReferenceIdeal.main_arg6 (by decide) (by decide) (by decide) (by decide) (by decide) (by decide) (by decide) (by decide) (by decide) (by decide) (by decide) (by decide) (by decide)),
       (h c Cert.ReferenceIdeal.main_arg7).trans (Cert.Bridge.ref_keeps m c Cert.ReferenceIdeal.main_arg7 (by decide) (by decide) (by decide) (by decide) (by decide) (by decide) (by decide) (by decide) (by decide) (by decide) (by decide) (by decide) (by decide)),
       (h c Cert.ReferenceIdeal.main_arg8).trans (Cert.Bridge.ref_keeps m c Cert.ReferenceIdeal.main_arg8 (by decide) (by decide) (by decide) (by decide) (by decide) (by decide) (by decide) (by decide) (by decide) (by decide) (by decide) (by decide) (by decide)),
       (h c Cert.ReferenceIdeal.main_arg9).trans (Cert.Bridge.ref_keeps m c Cert.ReferenceIdeal.main_arg9 (by decide) (by decide) (by decide) (by decide) (by decide) (by decide) (by decide) (by decide) (by decide) (by decide) (by decide) (by decide) (by decide)),
       (h c Cert.ReferenceIdeal.main_arg10).trans (Cert.Bridge.ref_keeps m c Cert.ReferenceIdeal.main_arg10 (by decide) (by decide) (by decide) (by decide) (by decide) (by decide) (by decide) (by decide) (by decide) (by decide) (by decide) (by decide) (by decide)),
       (h c Cert.ReferenceIdeal.main_arg11).trans (Cert.Bridge.ref_keeps m c Cert.ReferenceIdeal.main_arg11 (by decide) (by decide) (by decide) (by decide) (by decide) (by decide) (by decide) (by decide) (by decide) (by decide) (by decide) (by decide) (by decide))⟩)
    (Cert.ReferenceIdeal.Line.run_main (F := Ideal) m ρ)

/-- The idealization rewrote no operation: nothing to preserve. -/
theorem preserves : Cert.preserves_Kernel_KernelIdeal := trivial

/-- From memories agreeing on the arguments both idealized programs run, and the reference's result is the kernel
    program's: the contents its last boundary holds at the result buffer. -/
theorem algebraic : Cert.algebraic_KernelIdeal_ReferenceIdeal := by
  intro m ρ m' ρ' _ hagree
  refine ⟨fun c => Cert.KernelIdeal.Gen.W13 m ρ c (Proc.devRef .tc Cert.KernelIdeal.main_v114),
    Cert.KernelIdeal.Named.run_named (F := Ideal) m ρ, ?_⟩
  exact (θ_run Cert.ReferenceIdeal.defs _ _).mono
    (fun r h c =>
      ⟨(h c Cert.ReferenceIdeal.main_v119).trans (Cert.Bridge.results_agree m ρ m' c (hagree c)),
       (h c Cert.ReferenceIdeal.main_arg0).trans (Cert.Bridge.ref_keeps m' c Cert.ReferenceIdeal.main_arg0 (by decide) (by decide) (by decide) (by decide) (by decide) (by decide) (by decide) (by decide) (by decide) (by decide) (by decide) (by decide) (by decide)),
       (h c Cert.ReferenceIdeal.main_arg1).trans (Cert.Bridge.ref_keeps m' c Cert.ReferenceIdeal.main_arg1 (by decide) (by decide) (by decide) (by decide) (by decide) (by decide) (by decide) (by decide) (by decide) (by decide) (by decide) (by decide) (by decide)),
       (h c Cert.ReferenceIdeal.main_arg2).trans (Cert.Bridge.ref_keeps m' c Cert.ReferenceIdeal.main_arg2 (by decide) (by decide) (by decide) (by decide) (by decide) (by decide) (by decide) (by decide) (by decide) (by decide) (by decide) (by decide) (by decide)),
       (h c Cert.ReferenceIdeal.main_arg3).trans (Cert.Bridge.ref_keeps m' c Cert.ReferenceIdeal.main_arg3 (by decide) (by decide) (by decide) (by decide) (by decide) (by decide) (by decide) (by decide) (by decide) (by decide) (by decide) (by decide) (by decide)),
       (h c Cert.ReferenceIdeal.main_arg4).trans (Cert.Bridge.ref_keeps m' c Cert.ReferenceIdeal.main_arg4 (by decide) (by decide) (by decide) (by decide) (by decide) (by decide) (by decide) (by decide) (by decide) (by decide) (by decide) (by decide) (by decide)),
       (h c Cert.ReferenceIdeal.main_arg5).trans (Cert.Bridge.ref_keeps m' c Cert.ReferenceIdeal.main_arg5 (by decide) (by decide) (by decide) (by decide) (by decide) (by decide) (by decide) (by decide) (by decide) (by decide) (by decide) (by decide) (by decide)),
       (h c Cert.ReferenceIdeal.main_arg6).trans (Cert.Bridge.ref_keeps m' c Cert.ReferenceIdeal.main_arg6 (by decide) (by decide) (by decide) (by decide) (by decide) (by decide) (by decide) (by decide) (by decide) (by decide) (by decide) (by decide) (by decide)),
       (h c Cert.ReferenceIdeal.main_arg7).trans (Cert.Bridge.ref_keeps m' c Cert.ReferenceIdeal.main_arg7 (by decide) (by decide) (by decide) (by decide) (by decide) (by decide) (by decide) (by decide) (by decide) (by decide) (by decide) (by decide) (by decide)),
       (h c Cert.ReferenceIdeal.main_arg8).trans (Cert.Bridge.ref_keeps m' c Cert.ReferenceIdeal.main_arg8 (by decide) (by decide) (by decide) (by decide) (by decide) (by decide) (by decide) (by decide) (by decide) (by decide) (by decide) (by decide) (by decide)),
       (h c Cert.ReferenceIdeal.main_arg9).trans (Cert.Bridge.ref_keeps m' c Cert.ReferenceIdeal.main_arg9 (by decide) (by decide) (by decide) (by decide) (by decide) (by decide) (by decide) (by decide) (by decide) (by decide) (by decide) (by decide) (by decide)),
       (h c Cert.ReferenceIdeal.main_arg10).trans (Cert.Bridge.ref_keeps m' c Cert.ReferenceIdeal.main_arg10 (by decide) (by decide) (by decide) (by decide) (by decide) (by decide) (by decide) (by decide) (by decide) (by decide) (by decide) (by decide) (by decide)),
       (h c Cert.ReferenceIdeal.main_arg11).trans (Cert.Bridge.ref_keeps m' c Cert.ReferenceIdeal.main_arg11 (by decide) (by decide) (by decide) (by decide) (by decide) (by decide) (by decide) (by decide) (by decide) (by decide) (by decide) (by decide) (by decide))⟩)
    (Cert.ReferenceIdeal.Line.run_main (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
